-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  IdealRules.named_const.Statement Cert.KernelIdeal.κ "inv_100000" .f32 0x3727C5AC#32 ((1 / 100000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v147)) (v1 : (c : Dev Cert.KernelIdeal.nD) → Buf (Elt Ideal) ((c.tc : Thread Cert.KernelIdeal.nD Cert.KernelIdeal.τ).loc Cert.KernelIdeal.main_v150)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v147) = v0 c
          ∧ r.2.mem ((c.tc : Thread Cert.KernelIdeal.nD Cert.KernelIdeal.τ).loc Cert.KernelIdeal.main_v150) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v168) = v0 c
          ∧ r.2.mem ((c.tc : Thread Cert.ReferenceIdeal.nD Cert.ReferenceIdeal.τ).loc Cert.ReferenceIdeal.main_v171) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1200000 : Shape := ⟨2, ![2, 1200000]⟩
abbrev S100000x16 : Shape := ⟨2, ![100000, 16]⟩
abbrev S4x64x64 : Shape := ⟨3, ![4, 64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S100000x16 : S_.BroadcastsInDim S100000x16 (![] : Fin 0 → Fin S100000x16.rank)
  reducesTo_S100000x16_S_d0_1 : S100000x16.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part2 {F : FTy → Type} [FloatOps F] (main_arg8 : FVec F S32 .f32) (main_arg9 : FVec F S64x32 .f32) (main_arg10 : FVec F S32 .f32) (main_v33 : IVec S_ 1) : IVec S_ 1 :=
  let main_v34 : FVec F S32 .f32 := Host.absf main_arg8
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S64x32 .f32 := Host.absf main_arg9
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg10
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  main_v48

def fn_part1 {F : FTy → Type} [FloatOps F] (main_arg5 : FVec F S4x64x64 .f32) (main_arg6 : FVec F S64 .f32) (main_arg7 : FVec F S64x32 .f32) (main_arg8 : FVec F S32 .f32) (main_arg9 : FVec F S64x32 .f32) (main_arg10 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S4x64x64 .f32 := Host.absf main_arg5
  let main_cst_6 : FVec F S_ .f32 := constant S_ .f32 0x7F800000#32
  let main_v20 : FVec F S4x64x64 .f32 := broadcastInDim S4x64x64 ![] bcast_S_S4x64x64 main_cst_6
  let main_v21 : IVec S4x64x64 1 := cmpf .olt main_v19 main_v20
  let main_c_7 : IVec S_ 1 := constantI S_ 1 1#1
  let main_v22 : IVec S_ 1 := (fun x v => Host.reduce IntOp.andi x v reducesTo_S4x64x64_S_d0_1_2 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x32 .f32 := Host.absf main_arg7
  let main_cst_10 : FVec F S_ .f32 := constant S_ .f32 0x7F800000#32
  let main_v30 : FVec F S64x32 .f32 := broadcastInDim S64x32 ![] bcast_S_S64x32 main_cst_10
  let main_v31 : IVec S64x32 1 := cmpf .olt main_v29 main_v30
  let main_c_11 : IVec S_ 1 := constantI S_ 1 1#1
  let main_v32 : IVec S_ 1 := (fun x v => Host.reduce IntOp.andi x v reducesTo_S64x32_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x48 .f32) (main_arg1 : IVec S2x1200000 32) (main_arg2 : FVec F S100000x16 .f32) (main_arg3 : FVec F S4x64x64 .f32) (main_arg4 : FVec F S64 .f32) (main_arg5 : FVec F S4x64x64 .f32) (main_arg6 : FVec F S64 .f32) (main_arg7 : FVec F S64x32 .f32) (main_arg8 : FVec F S32 .f32) (main_arg9 : FVec F S64x32 .f32) (main_arg10 : FVec F S32 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S100000x16 .f32 := Host.absf main_arg2
  let main_cst_0 : FVec F S_ .f32 := constant S_ .f32 0x7F800000#32
  let main_v5 : FVec F S100000x16 .f32 := broadcastInDim S100000x16 ![] bcast_S_S100000x16 main_cst_0
  let main_v6 : IVec S100000x16 1 := cmpf .olt main_v4 main_v5
  let main_c_1 : IVec S_ 1 := constantI S_ 1 1#1
  let main_v7 : IVec S_ 1 := (fun x v => Host.reduce IntOp.andi x v reducesTo_S100000x16_S_d0_1 h_S_) main_v6 main_c_1
  let main_v8 : IVec S_ 1 := andi main_v3 main_v7
  let main_v9 : FVec F S4x64x64 .f32 := Host.absf main_arg3
  let main_cst_2 : FVec F S_ .f32 := constant S_ .f32 0x7F800000#32
  let main_v10 : FVec F S4x64x64 .f32 := broadcastInDim S4x64x64 ![] bcast_S_S4x64x64 main_cst_2
  let main_v11 : IVec S4x64x64 1 := cmpf .olt main_v9 main_v10
  let main_c_3 : IVec S_ 1 := constantI S_ 1 1#1
  let main_v12 : IVec S_ 1 := (fun x v => Host.reduce IntOp.andi x v reducesTo_S4x64x64_S_d0_1_2 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_v13 main_v16
-- ==== Kernel.lean ====
abbrev S100000x48 : Shape := ⟨2, ![100000, 48]⟩
abbrev S2x1200000 : Shape := ⟨2, ![2, 1200000]⟩
abbrev S100000x16 : Shape := ⟨2, ![100000, 16]⟩
abbrev S4x64x64 : Shape := ⟨3, ![4, 64, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1200000x64 : Shape := ⟨2, ![1200000, 64]⟩
abbrev S1x64x64 : Shape := ⟨3, ![1, 64, 64]⟩
abbrev S64x64 : Shape := ⟨2, ![64, 64]⟩
abbrev S1x64 : Shape := ⟨2, ![1, 64]⟩
abbrev S5000x64 : Shape := ⟨2, ![5000, 64]⟩
abbrev S1x32 : Shape := ⟨2, ![1, 32]⟩

abbrev nBuf : Space → Nat
  | .hbm => 198
  | .vmem => 34
  | .smem => 0
  | _ => 0

abbrev hbmTy0_0 (i : Nat) : BufTy := match i % 128 with
  | 0 => ⟨S100000x48, .f32⟩
  | 1 => ⟨S2x1200000, .i32⟩
  | 2 => ⟨S100000x16, .f32⟩
  | 3 => ⟨S4x64x64, .f32⟩
  | 4 => ⟨S64, .f32⟩
  | 5 => ⟨S4x64x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S100000x64, .f32⟩
  | 12 => ⟨S1x1200000, .i32⟩
  | 13 => ⟨S1200000, .i32⟩
  | 14 => ⟨S1x1200000, .i32⟩
  | 15 => ⟨S1200000, .i32⟩
  | 16 => ⟨S1200000, .i1⟩
  | 17 => ⟨S_, .f32⟩
  | 18 => ⟨S_, .f32⟩
  | 19 => ⟨S1200000, .f32⟩
  | 20 => ⟨S1200000, .f32⟩
  | 21 => ⟨S1200000, .f32⟩
  | 22 => ⟨S1200000, .f32⟩
  | 23 => ⟨S_, .f32⟩
  | 24 => ⟨S100000, .f32⟩
  | 25 => ⟨S1200000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1200000, .f32⟩
  | 47 => ⟨S1200000, .f32⟩
  | 48 => ⟨S1200000, .f32⟩
  | 49 => ⟨S_, .i32⟩
  | 50 => ⟨S1200000, .i32⟩
  | 51 => ⟨S1200000, .i1⟩
  | 52 => ⟨S_, .i32⟩
  | 53 => ⟨S1200000, .i32⟩
  | 54 => ⟨S1200000, .i32⟩
  | 55 => ⟨S1200000, .i32⟩
  | 56 => ⟨S1200000x1, .i32⟩
  | 57 => ⟨S1200000, .f32⟩
  | 58 => ⟨S1200000, .f32⟩
  | 59 => ⟨S1200000x1, .f32⟩
  | 60 => ⟨S_, .i32⟩
  | 61 => ⟨S1200000, .i32⟩
  | 62 => ⟨S1200000, .i1⟩
  | 63 => ⟨S_, .i32⟩
  | 64 => ⟨S1200000, .i32⟩
  | 65 => ⟨S1200000, .i32⟩
  | 66 => ⟨S1200000, .i32⟩
  | 67 => ⟨S1200000x1, .i32⟩
  | 68 => ⟨S1200000x64, .f32⟩
  | 69 => ⟨S1200000x64, .f32⟩
  | 70 => ⟨S1200000x64, .f32⟩
  | 71 => ⟨S_, .f32⟩
  | 72 => ⟨S100000x64, .f32⟩
  | 73 => ⟨S1200000x1, .i32⟩
  | 74 => ⟨S100000x64, .f32⟩
  | 75 => ⟨S1200000x1, .f32⟩
  | 76 => ⟨S_, .i32⟩
  | 77 => ⟨S1200000, .i32⟩
  | 78 => ⟨S1200000, .i1⟩
  | 79 => ⟨S_, .i32⟩
  | 80 => ⟨S1200000, .i32⟩
  | 81 => ⟨S1200000, .i32⟩
  | 82 => ⟨S1200000, .i32⟩
  | 83 => ⟨S1200000x1, .i32⟩
  | 84 => ⟨S1200000x64, .f32⟩
  | 85 => ⟨S1200000x64, .f32⟩
  | 86 => ⟨S1200000x64, .f32⟩
  | 87 => ⟨S_, .f32⟩
  | 88 => ⟨S100000x64, .f32⟩
  | 89 => ⟨S1200000x1, .i32⟩
  | 90 => ⟨S100000x64, .f32⟩
  | 91 => ⟨S_, .f32⟩
  | 92 => ⟨S100000x64, .f32⟩
  | 93 => ⟨S100000x64, .f32⟩
  | 94 => ⟨S100000x64, .f32⟩
  | 95 => ⟨S1200000x1, .f32⟩
  | 96 => ⟨S_, .i32⟩
  | 97 => ⟨S1200000, .i32⟩
  | 98 => ⟨S1200000, .i1⟩
  | 99 => ⟨S_, .i32⟩
  | 100 => ⟨S1200000, .i32⟩
  | 101 => ⟨S1200000, .i32⟩
  | 102 => ⟨S1200000, .i32⟩
  | 103 => ⟨S1200000x1, .i32⟩
  | 104 => ⟨S1200000x64, .f32⟩
  | 105 => ⟨S1200000x64, .f32⟩
  | 106 => ⟨S1200000x64, .f32⟩
  | 107 => ⟨S_, .f32⟩
  | 108 => ⟨S100000x64, .f32⟩
  | 109 => ⟨S1200000x1, .i32⟩
  | 110 => ⟨S100000x64, .f32⟩
  | 111 => ⟨S_, .f32⟩
  | 112 => ⟨S100000x64, .f32⟩
  | 113 => ⟨S100000x64, .f32⟩
  | 114 => ⟨S100000x64, .f32⟩
  | 115 => ⟨S1x64x64, .f32⟩
  | 116 => ⟨S64x64, .f32⟩
  | 117 => ⟨S1x64x64, .f32⟩
  | 118 => ⟨S64x64, .f32⟩
  | 119 => ⟨S1x64x64, .f32⟩
  | 120 => ⟨S64x64, .f32⟩
  | 121 => ⟨S1x64x64, .f32⟩
  | 122 => ⟨S64x64, .f32⟩
  | 123 => ⟨S1x64, .f32⟩
  | 124 => ⟨S100000x64, .f32⟩
  | 125 => ⟨S1200000x1, .f32⟩
  | 126 => ⟨S_, .i32⟩
  | 127 => ⟨S1200000, .i32⟩
  | _ => ⟨S100000x48, .f32⟩

abbrev hbmTy0_1 (i : Nat) : BufTy := match i % 128 with
  | 0 => ⟨S1200000, .i1⟩
  | 1 => ⟨S_, .i32⟩
  | 2 => ⟨S1200000, .i32⟩
  | 3 => ⟨S1200000, .i32⟩
  | 4 => ⟨S1200000, .i32⟩
  | 5 => ⟨S1200000x1, .i32⟩
  | 6 => ⟨S1200000x64, .f32⟩
  | 7 => ⟨S1200000x64, .f32⟩
  | 8 => ⟨S1200000x64, .f32⟩
  | 9 => ⟨S_, .f32⟩
  | 10 => ⟨S100000x64, .f32⟩
  | 11 => ⟨S1200000x1, .i32⟩
  | 12 => ⟨S100000x64, .f32⟩
  | 13 => ⟨S1200000x1, .f32⟩
  | 14 => ⟨S_, .i32⟩
  | 15 => ⟨S1200000, .i32⟩
  | 16 => ⟨S1200000, .i1⟩
  | 17 => ⟨S_, .i32⟩
  | 18 => ⟨S1200000, .i32⟩
  | 19 => ⟨S1200000, .i32⟩
  | 20 => ⟨S1200000, .i32⟩
  | 21 => ⟨S1200000x1, .i32⟩
  | 22 => ⟨S1200000x64, .f32⟩
  | 23 => ⟨S1200000x64, .f32⟩
  | 24 => ⟨S1200000x64, .f32⟩
  | 25 => ⟨S_, .f32⟩
  | 26 => ⟨S100000x64, .f32⟩
  | 27 => ⟨S1200000x1, .i32⟩
  | 28 => ⟨S100000x64, .f32⟩
  | 29 => ⟨S_, .f32⟩
  | 30 => ⟨S100000x64, .f32⟩
  | 31 => ⟨S100000x64, .f32⟩
  | 32 => ⟨S100000x64, .f32⟩
  | 33 => ⟨S1200000x1, .f32⟩
  | 34 => ⟨S_, .i32⟩
  | 35 => ⟨S1200000, .i32⟩
  | 36 => ⟨S1200000, .i1⟩
  | 37 => ⟨S_, .i32⟩
  | 38 => ⟨S1200000, .i32⟩
  | 39 => ⟨S1200000, .i32⟩
  | 40 => ⟨S1200000, .i32⟩
  | 41 => ⟨S1200000x1, .i32⟩
  | 42 => ⟨S1200000x64, .f32⟩
  | 43 => ⟨S1200000x64, .f32⟩
  | 44 => ⟨S1200000x64, .f32⟩
  | 45 => ⟨S_, .f32⟩
  | 46 => ⟨S100000x64, .f32⟩
  | 47 => ⟨S1200000x1, .i32⟩
  | 48 => ⟨S100000x64, .f32⟩
  | 49 => ⟨S_, .f32⟩
  | 50 => ⟨S100000x64, .f32⟩
  | 51 => ⟨S100000x64, .f32⟩
  | 52 => ⟨S100000x64, .f32⟩
  | 53 => ⟨S1x64x64, .f32⟩
  | 54 => ⟨S64x64, .f32⟩
  | 55 => ⟨S1x64x64, .f32⟩
  | 56 => ⟨S64x64, .f32⟩
  | 57 => ⟨S1x64x64, .f32⟩
  | 58 => ⟨S64x64, .f32⟩
  | 59 => ⟨S1x64x64, .f32⟩
  | 60 => ⟨S64x64, .f32⟩
  | 61 => ⟨S1x64, .f32⟩
  | 62 => ⟨S100000x64, .f32⟩
  | 63 => ⟨S1x64, .f32⟩
  | 64 => ⟨S1x32, .f32⟩
  | 65 => ⟨S1x32, .f32⟩
  | 66 => ⟨S1x32, .f32⟩
  | 67 => ⟨S1x32, .f32⟩
  | 68 => ⟨S1x32, .f32⟩
  | 69 => ⟨S1x32, .f32⟩
  | _ => ⟨S100000x48, .f32⟩

abbrev hbmTy (i : Nat) : BufTy := match i / 128 with
  | 0 => hbmTy0_0 i
  | 1 => hbmTy0_1 i
  | _ => ⟨S100000x48, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x64, .f32⟩
  | .local _ .vmem, ⟨12, _⟩ => ⟨S1x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S64x64, .f32⟩
  | .local _ .vmem, ⟨24, _⟩ => ⟨S64x64, .f32⟩
  | .local _ .vmem, ⟨25, _⟩ => ⟨S64x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_8 : Ref sig .tc := ⟨.hbm, 60, rfl⟩
abbrev main_v35 : Ref sig .tc := ⟨.hbm, 61, rfl⟩
abbrev main_v36 : Ref sig .tc := ⟨.hbm, 62, rfl⟩
abbrev main_c_9 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_10 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_c_12 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_13 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_14 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_15 : Ref sig .tc := ⟨.hbm, 96, rfl⟩
abbrev main_v64 : Ref sig .tc := ⟨.hbm, 97, rfl⟩
abbrev main_v65 : Ref sig .tc := ⟨.hbm, 98, rfl⟩
abbrev main_c_16 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_17 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_cst_18 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_19 : Ref sig .tc := ⟨.hbm, 126, rfl⟩
abbrev main_v90 : Ref sig .tc := ⟨.hbm, 127, rfl⟩
abbrev main_v91 : Ref sig .tc := ⟨.hbm, 128, rfl⟩
abbrev main_c_20 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_21 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_c_22 : Ref sig .tc := ⟨.hbm, 142, rfl⟩
abbrev main_v103 : Ref sig .tc := ⟨.hbm, 143, rfl⟩
abbrev main_v104 : Ref sig .tc := ⟨.hbm, 144, rfl⟩
abbrev main_c_23 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_cst_24 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_cst_25 : Ref sig .tc := ⟨.hbm, 157, rfl⟩
abbrev main_v115 : Ref sig .tc := ⟨.hbm, 158, rfl⟩
abbrev main_v116 : Ref sig .tc := ⟨.hbm, 159, rfl⟩
abbrev main_v117 : Ref sig .tc := ⟨.hbm, 160, rfl⟩
abbrev main_v118 : Ref sig .tc := ⟨.hbm, 161, rfl⟩
abbrev main_c_26 : Ref sig .tc := ⟨.hbm, 162, rfl⟩
abbrev main_v119 : Ref sig .tc := ⟨.hbm, 163, rfl⟩
abbrev main_v120 : Ref sig .tc := ⟨.hbm, 164, rfl⟩
abbrev main_c_27 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_cst_28 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_cst_29 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg5_0 : Ref sig .tc := ⟨.vmem, 24, rfl⟩
abbrev cc1_stg6_0 : Ref sig .tc := ⟨.vmem, 25, rfl⟩
abbrev cc1_stg7_0 : Ref sig .tc := ⟨.vmem, 26, rfl⟩
abbrev cc1_stg8_0 : Ref sig .tc := ⟨.vmem, 27, rfl⟩
abbrev cc1_stg9_0 : Ref sig .tc := ⟨.vmem, 28, rfl⟩
abbrev cc1_stg9_1 : Ref sig .tc := ⟨.vmem, 29, rfl⟩
abbrev cc2_stg0_0 : Ref sig .tc := ⟨.vmem, 30, rfl⟩
abbrev cc2_stg0_1 : Ref sig .tc := ⟨.vmem, 31, rfl⟩
abbrev cc2_stg1_0 : Ref sig .tc := ⟨.vmem, 32, rfl⟩
abbrev cc2_scratch0 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem5_0 : DmaSem sig := 24
abbrev cc1_sem6_0 : DmaSem sig := 25
abbrev cc1_sem7_0 : DmaSem sig := 26
abbrev cc1_sem8_0 : DmaSem sig := 27
abbrev cc1_sem9_0 : DmaSem sig := 28
abbrev cc1_sem9_1 : DmaSem sig := 29
abbrev cc2_sem0_0 : DmaSem sig := 30
abbrev cc2_sem0_1 : DmaSem sig := 31
abbrev cc2_sem1_0 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S5000x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S5000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev grid2 : Pipeline.Grid := ⟨1, ![20], ![false]⟩

def k2_cond2 (i : grid2.Coords) : BitVec 1 :=
  let arg0 : BitVec 32 := BitVec.ofNat 32 (i 0).val
  let c19_i32 : BitVec 32 := 19#32
  let v12 : BitVec 1 := Scalar.cmpi .eq arg0 c19_i32
  let v13 : BitVec 32 := Scalar.extui v12
  let c0_i32_6 : BitVec 32 := 0#32
  let v14 : BitVec 1 := Scalar.cmpi .ne v13 c0_i32_6
  v14

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

class Facts₀ : Prop where
  concatenates_S100000x48_S100000x16_S100000x64_d1 : Shape.Concatenates [S100000x48, S100000x16] S100000x64 1
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S4x64x64_S1x64x64_0_0_0 : S4x64x64.Slices ![0, 0, 0] S1x64x64
  shapeCasts_S1x64x64_S64x64 : S1x64x64.ShapeCasts S64x64
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S64 : S5000x64.Reduces [0] S64
  bcast_S32_S1x32_1 : S32.BroadcastsInDim S1x32 (![1] : Fin 1 → Fin S1x32.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S5000x64_S64x64_S5000x64_1_0_0_1_n_n_wf : DotDims.WF S5000x64 S64x64 S5000x64 [1] [0] [0] [1] [] []
  dot_S1x64_S64x32_S1x32_1_0_0_1_n_n_wf : DotDims.WF S1x64 S64x32 S1x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S5000x64.size a ≤ S100000x64.size a
  hwx0_9 : ∀ i : grid0.Coords, EltTy.bits .f32 = 32 ∨ (Rect.block (s := S100000x64) S5000x64.size (cc0_transform_9 i) (hinb0_9 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S100000x64.size a
  hwx1_3 : ∀ i : grid1.Coords, EltTy.bits .f32 = 32 ∨ (Rect.block (s := S100000x64) S5000x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x64.size a ≤ S64x64.size a
  hwx1_6 : ∀ i : grid1.Coords, EltTy.bits .f32 = 32 ∨ (Rect.block (s := S64x64) S64x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S5000x64.size a ≤ S100000x64.size a
  hwx1_9 : ∀ i : grid1.Coords, EltTy.bits .f32 = 32 ∨ (Rect.block (s := S100000x64) S5000x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf

abbrev win0_0 : Pipeline.Window sig grid0 :=
  Pipeline.Window.ofSpec (Memref.whole main_v0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v46) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v62) S5000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v78) S5000x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v80) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v82) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v84) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v86) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v87) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v88) S5000x64.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v88) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v101) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v117) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v133) S5000x64.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v135) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v137) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v139) S64x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v141) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v142) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v143) S5000x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev win2_0 : Pipeline.Window sig grid2 :=
  Pipeline.Window.ofSpec (Memref.whole main_v143) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v144) S1x64.size cc2_transform_1 reads2_1 true true 1 stage2_1 sem2_1
    hrank2 hreads2_1 hinb2_1 nbuf2_1 (Memref.isWhole_whole _) hwx2_1 hstage2_1

abbrev win2 : Fin 2 → Pipeline.Window sig grid2 := fun | 0 => win2_0 | 1 => win2_1 | ⟨_ + 2, h⟩ => absurd h (Nat.not_lt.2 (Nat.le_add_left _ _))
abbrev spec2 : Fin 2 → Pipeline.WinSpec sig grid2.rank := fun w => (win2 w).toWinSpec

abbrev idle2 : Fin 2 → grid2.Coords → Bool := fun | 0 => fun _ => false | 1 => fun i => !(k2_cond2 i == 1#1) | ⟨_ + 2, h⟩ => absurd h (Nat.not_lt.2 (Nat.le_add_left _ _))

class Facts : Prop extends Facts₀ where

variable [Facts]
-- ==== ReferenceIdeal.lean ====
abbrev S100000x48 : Shape := ⟨2, ![100000, 48]⟩
abbrev S2x1200000 : Shape := ⟨2, ![2, 1200000]⟩
abbrev S100000x16 : Shape := ⟨2, ![100000, 16]⟩
abbrev S4x64x64 : Shape := ⟨3, ![4, 64, 64]⟩
abbrev S64 : Shape := ⟨1, ![64]⟩
abbrev S64x32 : Shape := ⟨2, ![64, 32]⟩
abbrev S32 : Shape := ⟨1, ![32]⟩
abbrev S100000x64 : Shape := ⟨2, ![100000, 64]⟩
abbrev S1x1200000 : Shape := ⟨2, ![1, 1200000]⟩
abbrev S1200000 : Shape := ⟨1, ![1200000]⟩
abbrev S_ : Shape := ⟨0, ![]⟩
abbrev S100000 : Shape := ⟨1, ![100000]⟩
abbrev S1200000x1 : Shape := ⟨2, ![1200000, 1]⟩
abbrev S1x64x64 : Shape := ⟨3, ![1, 64, 64]⟩
abbrev S64x64 : Shape := ⟨2, ![64, 64]⟩
abbrev S1200000x64 : Shape := ⟨2, ![1200000, 64]⟩
abbrev S1x64 : Shape := ⟨2, ![1, 64]⟩
abbrev S1x32 : Shape := ⟨2, ![1, 32]⟩

abbrev nBuf : Space → Nat
  | .hbm => 225
  | .vmem => 0
  | .smem => 0
  | _ => 0

abbrev hbmTy0_0 (i : Nat) : BufTy := match i % 128 with
  | 0 => ⟨S100000x48, .f32⟩
  | 1 => ⟨S2x1200000, .i32⟩
  | 2 => ⟨S100000x16, .f32⟩
  | 3 => ⟨S4x64x64, .f32⟩
  | 4 => ⟨S64, .f32⟩
  | 5 => ⟨S4x64x64, .f32⟩
  | 6 => ⟨S64, .f32⟩
  | 7 => ⟨S64x32, .f32⟩
  | 8 => ⟨S32, .f32⟩
  | 9 => ⟨S64x32, .f32⟩
  | 10 => ⟨S32, .f32⟩
  | 11 => ⟨S100000x64, .f32⟩
  | 12 => ⟨S1x1200000, .i32⟩
  | 13 => ⟨S1200000, .i32⟩
  | 14 => ⟨S1x1200000, .i32⟩
  | 15 => ⟨S1200000, .i32⟩
  | 16 => ⟨S1200000, .i1⟩
  | 17 => ⟨S_, .f32⟩
  | 18 => ⟨S_, .f32⟩
  | 19 => ⟨S1200000, .f32⟩
  | 20 => ⟨S1200000, .f32⟩
  | 21 => ⟨S1200000, .f32⟩
  | 22 => ⟨S1200000, .f32⟩
  | 23 => ⟨S_, .f32⟩
  | 24 => ⟨S100000, .f32⟩
  | 25 => ⟨S1200000x1, .i32⟩
  | 26 => ⟨S100000, .f32⟩
  | 27 => ⟨S_, .f32⟩
  | 28 => ⟨S100000, .f32⟩
  | 29 => ⟨S100000, .i1⟩
  | 30 => ⟨S_, .f32⟩
  | 31 => ⟨S100000, .f32⟩
  | 32 => ⟨S100000, .f32⟩
  | 33 => ⟨S100000, .f32⟩
  | 34 => ⟨S_, .f32⟩
  | 35 => ⟨S_, .f32⟩
  | 36 => ⟨S100000, .f32⟩
  | 37 => ⟨S100000, .f32⟩
  | 38 => ⟨S_, .i32⟩
  | 39 => ⟨S1200000, .i32⟩
  | 40 => ⟨S1200000, .i1⟩
  | 41 => ⟨S_, .i32⟩
  | 42 => ⟨S1200000, .i32⟩
  | 43 => ⟨S1200000, .i32⟩
  | 44 => ⟨S1200000, .i32⟩
  | 45 => ⟨S1200000x1, .i32⟩
  | 46 => ⟨S1200000, .f32⟩
  | 47 => ⟨S1200000, .f32⟩
  | 48 => ⟨S1200000, .f32⟩
  | 49 => ⟨S_, .i32⟩
  | 50 => ⟨S1200000, .i32⟩
  | 51 => ⟨S1200000, .i1⟩
  | 52 => ⟨S_, .i32⟩
  | 53 => ⟨S1200000, .i32⟩
  | 54 => ⟨S1200000, .i32⟩
  | 55 => ⟨S1200000, .i32⟩
  | 56 => ⟨S1200000x1, .i32⟩
  | 57 => ⟨S1200000, .f32⟩
  | 58 => ⟨S1200000, .f32⟩
  | 59 => ⟨S1x64x64, .f32⟩
  | 60 => ⟨S64x64, .f32⟩
  | 61 => ⟨S100000x64, .f32⟩
  | 62 => ⟨S1200000x1, .f32⟩
  | 63 => ⟨S_, .i32⟩
  | 64 => ⟨S1200000, .i32⟩
  | 65 => ⟨S1200000, .i1⟩
  | 66 => ⟨S_, .i32⟩
  | 67 => ⟨S1200000, .i32⟩
  | 68 => ⟨S1200000, .i32⟩
  | 69 => ⟨S1200000, .i32⟩
  | 70 => ⟨S1200000x1, .i32⟩
  | 71 => ⟨S1200000x64, .f32⟩
  | 72 => ⟨S1200000x64, .f32⟩
  | 73 => ⟨S1200000x64, .f32⟩
  | 74 => ⟨S_, .f32⟩
  | 75 => ⟨S100000x64, .f32⟩
  | 76 => ⟨S1200000x1, .i32⟩
  | 77 => ⟨S100000x64, .f32⟩
  | 78 => ⟨S1x64x64, .f32⟩
  | 79 => ⟨S64x64, .f32⟩
  | 80 => ⟨S100000x64, .f32⟩
  | 81 => ⟨S100000x64, .f32⟩
  | 82 => ⟨S1200000x1, .f32⟩
  | 83 => ⟨S_, .i32⟩
  | 84 => ⟨S1200000, .i32⟩
  | 85 => ⟨S1200000, .i1⟩
  | 86 => ⟨S_, .i32⟩
  | 87 => ⟨S1200000, .i32⟩
  | 88 => ⟨S1200000, .i32⟩
  | 89 => ⟨S1200000, .i32⟩
  | 90 => ⟨S1200000x1, .i32⟩
  | 91 => ⟨S1200000x64, .f32⟩
  | 92 => ⟨S1200000x64, .f32⟩
  | 93 => ⟨S1200000x64, .f32⟩
  | 94 => ⟨S_, .f32⟩
  | 95 => ⟨S100000x64, .f32⟩
  | 96 => ⟨S1200000x1, .i32⟩
  | 97 => ⟨S100000x64, .f32⟩
  | 98 => ⟨S_, .f32⟩
  | 99 => ⟨S100000x64, .f32⟩
  | 100 => ⟨S100000x64, .f32⟩
  | 101 => ⟨S100000x64, .f32⟩
  | 102 => ⟨S1x64x64, .f32⟩
  | 103 => ⟨S64x64, .f32⟩
  | 104 => ⟨S100000x64, .f32⟩
  | 105 => ⟨S100000x64, .f32⟩
  | 106 => ⟨S1200000x1, .f32⟩
  | 107 => ⟨S_, .i32⟩
  | 108 => ⟨S1200000, .i32⟩
  | 109 => ⟨S1200000, .i1⟩
  | 110 => ⟨S_, .i32⟩
  | 111 => ⟨S1200000, .i32⟩
  | 112 => ⟨S1200000, .i32⟩
  | 113 => ⟨S1200000, .i32⟩
  | 114 => ⟨S1200000x1, .i32⟩
  | 115 => ⟨S1200000x64, .f32⟩
  | 116 => ⟨S1200000x64, .f32⟩
  | 117 => ⟨S1200000x64, .f32⟩
  | 118 => ⟨S_, .f32⟩
  | 119 => ⟨S100000x64, .f32⟩
  | 120 => ⟨S1200000x1, .i32⟩
  | 121 => ⟨S100000x64, .f32⟩
  | 122 => ⟨S_, .f32⟩
  | 123 => ⟨S100000x64, .f32⟩
  | 124 => ⟨S100000x64, .f32⟩
  | 125 => ⟨S100000x64, .f32⟩
  | 126 => ⟨S1x64x64, .f32⟩
  | 127 => ⟨S64x64, .f32⟩
  | _ => ⟨S100000x48, .f32⟩

abbrev hbmTy0_1 (i : Nat) : BufTy := match i % 128 with
  | 0 => ⟨S100000x64, .f32⟩
  | 1 => ⟨S100000x64, .f32⟩
  | 2 => ⟨S1x64, .f32⟩
  | 3 => ⟨S100000x64, .f32⟩
  | 4 => ⟨S100000x64, .f32⟩
  | 5 => ⟨S_, .f32⟩
  | 6 => ⟨S100000x64, .f32⟩
  | 7 => ⟨S100000x64, .f32⟩
  | 8 => ⟨S1x64x64, .f32⟩
  | 9 => ⟨S64x64, .f32⟩
  | 10 => ⟨S100000x64, .f32⟩
  | 11 => ⟨S1200000x1, .f32⟩
  | 12 => ⟨S_, .i32⟩
  | 13 => ⟨S1200000, .i32⟩
  | 14 => ⟨S1200000, .i1⟩
  | 15 => ⟨S_, .i32⟩
  | 16 => ⟨S1200000, .i32⟩
  | 17 => ⟨S1200000, .i32⟩
  | 18 => ⟨S1200000, .i32⟩
  | 19 => ⟨S1200000x1, .i32⟩
  | 20 => ⟨S1200000x64, .f32⟩
  | 21 => ⟨S1200000x64, .f32⟩
  | 22 => ⟨S1200000x64, .f32⟩
  | 23 => ⟨S_, .f32⟩
  | 24 => ⟨S100000x64, .f32⟩
  | 25 => ⟨S1200000x1, .i32⟩
  | 26 => ⟨S100000x64, .f32⟩
  | 27 => ⟨S1x64x64, .f32⟩
  | 28 => ⟨S64x64, .f32⟩
  | 29 => ⟨S100000x64, .f32⟩
  | 30 => ⟨S100000x64, .f32⟩
  | 31 => ⟨S1200000x1, .f32⟩
  | 32 => ⟨S_, .i32⟩
  | 33 => ⟨S1200000, .i32⟩
  | 34 => ⟨S1200000, .i1⟩
  | 35 => ⟨S_, .i32⟩
  | 36 => ⟨S1200000, .i32⟩
  | 37 => ⟨S1200000, .i32⟩
  | 38 => ⟨S1200000, .i32⟩
  | 39 => ⟨S1200000x1, .i32⟩
  | 40 => ⟨S1200000x64, .f32⟩
  | 41 => ⟨S1200000x64, .f32⟩
  | 42 => ⟨S1200000x64, .f32⟩
  | 43 => ⟨S_, .f32⟩
  | 44 => ⟨S100000x64, .f32⟩
  | 45 => ⟨S1200000x1, .i32⟩
  | 46 => ⟨S100000x64, .f32⟩
  | 47 => ⟨S_, .f32⟩
  | 48 => ⟨S100000x64, .f32⟩
  | 49 => ⟨S100000x64, .f32⟩
  | 50 => ⟨S100000x64, .f32⟩
  | 51 => ⟨S1x64x64, .f32⟩
  | 52 => ⟨S64x64, .f32⟩
  | 53 => ⟨S100000x64, .f32⟩
  | 54 => ⟨S100000x64, .f32⟩
  | 55 => ⟨S1200000x1, .f32⟩
  | 56 => ⟨S_, .i32⟩
  | 57 => ⟨S1200000, .i32⟩
  | 58 => ⟨S1200000, .i1⟩
  | 59 => ⟨S_, .i32⟩
  | 60 => ⟨S1200000, .i32⟩
  | 61 => ⟨S1200000, .i32⟩
  | 62 => ⟨S1200000, .i32⟩
  | 63 => ⟨S1200000x1, .i32⟩
  | 64 => ⟨S1200000x64, .f32⟩
  | 65 => ⟨S1200000x64, .f32⟩
  | 66 => ⟨S1200000x64, .f32⟩
  | 67 => ⟨S_, .f32⟩
  | 68 => ⟨S100000x64, .f32⟩
  | 69 => ⟨S1200000x1, .i32⟩
  | 70 => ⟨S100000x64, .f32⟩
  | 71 => ⟨S_, .f32⟩
  | 72 => ⟨S100000x64, .f32⟩
  | 73 => ⟨S100000x64, .f32⟩
  | 74 => ⟨S100000x64, .f32⟩
  | 75 => ⟨S1x64x64, .f32⟩
  | 76 => ⟨S64x64, .f32⟩
  | 77 => ⟨S100000x64, .f32⟩
  | 78 => ⟨S100000x64, .f32⟩
  | 79 => ⟨S1x64, .f32⟩
  | 80 => ⟨S100000x64, .f32⟩
  | 81 => ⟨S100000x64, .f32⟩
  | 82 => ⟨S_, .f32⟩
  | 83 => ⟨S100000x64, .f32⟩
  | 84 => ⟨S100000x64, .f32⟩
  | 85 => ⟨S_, .f32⟩
  | 86 => ⟨S64, .f32⟩
  | 87 => ⟨S1x64, .f32⟩
  | 88 => ⟨S_, .f32⟩
  | 89 => ⟨S1x64, .f32⟩
  | 90 => ⟨S1x64, .f32⟩
  | 91 => ⟨S1x32, .f32⟩
  | 92 => ⟨S1x32, .f32⟩
  | 93 => ⟨S1x32, .f32⟩
  | 94 => ⟨S1x32, .f32⟩
  | 95 => ⟨S1x32, .f32⟩
  | 96 => ⟨S1x32, .f32⟩
  | _ => ⟨S100000x48, .f32⟩

abbrev hbmTy (i : Nat) : BufTy := match i / 128 with
  | 0 => hbmTy0_0 i
  | 1 => hbmTy0_1 i
  | _ => ⟨S100000x48, .f32⟩

abbrev bufTy : (tb : Table) → Fin (tcTables nBuf tb) → BufTy
  | .hbm, ⟨i, _⟩ => hbmTy i
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_cst_0 : Ref sig .tc := ⟨.hbm, 18, rfl⟩
abbrev main_call0_v0 : Ref sig .tc := ⟨.hbm, 19, rfl⟩
abbrev main_call0_v1 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_cst_3 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_4 : Ref sig .tc := ⟨.hbm, 34, rfl⟩
abbrev main_call1_v0 : Ref sig .tc := ⟨.hbm, 35, rfl⟩
abbrev main_call1_v1 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_5 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_c_6 : Ref sig .tc := ⟨.hbm, 49, rfl⟩
abbrev main_v26 : Ref sig .tc := ⟨.hbm, 50, rfl⟩
abbrev main_v27 : Ref sig .tc := ⟨.hbm, 51, rfl⟩
abbrev main_c_7 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_8 : Ref sig .tc := ⟨.hbm, 63, rfl⟩
abbrev main_v38 : Ref sig .tc := ⟨.hbm, 64, rfl⟩
abbrev main_v39 : Ref sig .tc := ⟨.hbm, 65, rfl⟩
abbrev main_c_9 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_10 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_c_11 : Ref sig .tc := ⟨.hbm, 83, rfl⟩
abbrev main_v55 : Ref sig .tc := ⟨.hbm, 84, rfl⟩
abbrev main_v56 : Ref sig .tc := ⟨.hbm, 85, rfl⟩
abbrev main_c_12 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_cst_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_c_15 : Ref sig .tc := ⟨.hbm, 107, rfl⟩
abbrev main_v75 : Ref sig .tc := ⟨.hbm, 108, rfl⟩
abbrev main_v76 : Ref sig .tc := ⟨.hbm, 109, rfl⟩
abbrev main_c_16 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_17 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_cst_18 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_call2_cst : Ref sig .tc := ⟨.hbm, 133, rfl⟩
abbrev main_call2_v0 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_c_19 : Ref sig .tc := ⟨.hbm, 140, rfl⟩
abbrev main_v102 : Ref sig .tc := ⟨.hbm, 141, rfl⟩
abbrev main_v103 : Ref sig .tc := ⟨.hbm, 142, rfl⟩
abbrev main_c_20 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_cst_21 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_c_22 : Ref sig .tc := ⟨.hbm, 160, rfl⟩
abbrev main_v119 : Ref sig .tc := ⟨.hbm, 161, rfl⟩
abbrev main_v120 : Ref sig .tc := ⟨.hbm, 162, rfl⟩
abbrev main_c_23 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_24 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_cst_25 : Ref sig .tc := ⟨.hbm, 175, rfl⟩
abbrev main_v131 : Ref sig .tc := ⟨.hbm, 176, rfl⟩
abbrev main_v132 : Ref sig .tc := ⟨.hbm, 177, rfl⟩
abbrev main_v133 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_c_26 : Ref sig .tc := ⟨.hbm, 184, rfl⟩
abbrev main_v139 : Ref sig .tc := ⟨.hbm, 185, rfl⟩
abbrev main_v140 : Ref sig .tc := ⟨.hbm, 186, rfl⟩
abbrev main_c_27 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_28 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_cst_29 : Ref sig .tc := ⟨.hbm, 199, rfl⟩
abbrev main_v151 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_call3_cst : Ref sig .tc := ⟨.hbm, 210, rfl⟩
abbrev main_call3_v0 : Ref sig .tc := ⟨.hbm, 211, rfl⟩
abbrev main_v161 : Ref sig .tc := ⟨.hbm, 212, rfl⟩
abbrev main_cst_30 : Ref sig .tc := ⟨.hbm, 213, rfl⟩
abbrev main_v162 : Ref sig .tc := ⟨.hbm, 214, rfl⟩
abbrev main_v163 : Ref sig .tc := ⟨.hbm, 215, rfl⟩
abbrev main_cst_31 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩

abbrev nD : Nat := 1
abbrev τ : Topo := Topo.v7x

variable {F : FTy → Type} [FloatOps F]

class Facts₀ : Prop where
  concatenates_S100000x48_S100000x16_S100000x64_d1 : Shape.Concatenates [S100000x48, S100000x16] S100000x64 1
  slices_S2x1200000_S1x1200000_0_0 : S2x1200000.Slices ![0, 0] S1x1200000
  shapeCasts_S1x1200000_S1200000 : S1x1200000.ShapeCasts S1200000
  slices_S2x1200000_S1x1200000_1_0 : S2x1200000.Slices ![1, 0] S1x1200000
  bcast_S_S1200000 : S_.BroadcastsInDim S1200000 (![] : Fin 0 → Fin S1200000.rank)
  bcast_S_S100000 : S_.BroadcastsInDim S100000 (![] : Fin 0 → Fin S100000.rank)
  bcast_S1200000_S1200000x1_0 : S1200000.BroadcastsInDim S1200000x1 (![0] : Fin 1 → Fin S1200000x1.rank)
  slices_S4x64x64_S1x64x64_0_0_0 : S4x64x64.Slices ![0, 0, 0] S1x64x64
  shapeCasts_S1x64x64_S64x64 : S1x64x64.ShapeCasts S64x64
  bcast_S1200000x1_S1200000x64_0_1 : S1200000x1.BroadcastsInDim S1200000x64 (![0, 1] : Fin 2 → Fin S1200000x64.rank)
  bcast_S_S100000x64 : S_.BroadcastsInDim S100000x64 (![] : Fin 0 → Fin S100000x64.rank)
  slices_S4x64x64_S1x64x64_1_0_0 : S4x64x64.Slices ![1, 0, 0] S1x64x64
  slices_S4x64x64_S1x64x64_2_0_0 : S4x64x64.Slices ![2, 0, 0] S1x64x64
  slices_S4x64x64_S1x64x64_3_0_0 : S4x64x64.Slices ![3, 0, 0] S1x64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S1x64 : S_.BroadcastsInDim S1x64 (![] : Fin 0 → Fin S1x64.rank)
  bcast_S32_S1x32_1 : S32.BroadcastsInDim S1x32 (![1] : Fin 1 → Fin S1x32.rank)
  scatter_S100000_S1200000x1_S1200000_n_0_0_1_wf : ScatterDims.WF S100000 S1200000x1 S1200000 [] [0] [0] 1
  gather_S100000_S1200000x1_S1200000_n_0_n_n_0_1_1_wf : GatherDims.WF S100000 S1200000x1 S1200000 [] [0] [] [0] [] 1 ![1]
  dot_S100000x64_S64x64_S100000x64_1_0_0_1_n_n_wf : DotDims.WF S100000x64 S64x64 S100000x64 [1] [0] [0] [1] [] []
  gather_S100000x64_S1200000x1_S1200000x64_1_0_n_n_0_1_164_wf : GatherDims.WF S100000x64 S1200000x1 S1200000x64 [1] [0] [] [0] [] 1 ![1, 64]
  scatter_S100000x64_S1200000x1_S1200000x64_1_0_0_1_wf : ScatterDims.WF S100000x64 S1200000x1 S1200000x64 [1] [0] [0] 1
  dot_S1x64_S64x32_S1x32_1_0_0_1_n_n_wf : DotDims.WF S1x64 S64x32 S1x32 [1] [0] [0] [1] [] []

variable [Facts₀]

def scatter_S100000_S1200000x1_S1200000_n_0_0_1 : ScatterDims S100000 S1200000x1 S1200000 where
  updateWindowDims := []
  insertedWindowDims := [0]
  scatterDimsToOperandDims := [0]
  indexVectorDim := 1
  wf := scatter_S100000_S1200000x1_S1200000_n_0_0_1_wf
def gather_S100000_S1200000x1_S1200000_n_0_n_n_0_1_1 : GatherDims S100000 S1200000x1 S1200000 where
  offsetDims := []
  collapsedSliceDims := [0]
  operandBatchingDims := []
  startIndicesBatchingDims := []
  startIndexMap := [0]
  indexVectorDim := 1
  sliceSizes := ![1]
  wf := gather_S100000_S1200000x1_S1200000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1200000x1_S1200000x64_1_0_n_n_0_1_164 : GatherDims S100000x64 S1200000x1 S1200000x64 where
  offsetDims := [1]
  collapsedSliceDims := [0]
  operandBatchingDims := []
  startIndicesBatchingDims := []
  startIndexMap := [0]
  indexVectorDim := 1
  sliceSizes := ![1, 64]
  wf := gather_S100000x64_S1200000x1_S1200000x64_1_0_n_n_0_1_164_wf
def scatter_S100000x64_S1200000x1_S1200000x64_1_0_0_1 : ScatterDims S100000x64 S1200000x1 S1200000x64 where
  updateWindowDims := [1]
  insertedWindowDims := [0]
  scatterDimsToOperandDims := [0]
  indexVectorDim := 1
  wf := scatter_S100000x64_S1200000x1_S1200000x64_1_0_0_1_wf
def dot_S1x64_S64x32_S1x32_1_0_0_1_n_n : DotDims S1x64 S64x32 S1x32 where
  lhsContracting := [1]
  rhsContracting := [0]
  lhsNonContracting := [0]
  rhsNonContracting := [1]
  lhsBatch := []
  rhsBatch := []
  wf := dot_S1x64_S64x32_S1x32_1_0_0_1_n_n_wf

class Facts : Prop extends Facts₀ where

variable [Facts]
-- ==== Proof.K.Combine.lean ====
import proofs.«178208_j6545530159343_2_alg».proof.Proof.Gen.Kernel.Launch
import proofs.«178208_j6545530159343_2_alg».proof.Proof.Gen.Kernel.Skeleton
import proofs.«178208_j6545530159343_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two combine kernels, point by point

Regions 0 and 1 of @main run the same kernel on a grid of 20 points. At each point the body loads four
row blocks `[5000,64]`, four whole weight matrices `[64,64]` and a bias row `[1,64]`, and stores
`max (Σₖ bf16(xₖ) · bf16(Wₖ) + b) 0` over the whole output block. Everything here is stated at a parameter
`V`, the core's buffer contents when the region is entered:

* the block each window shows at a point (`iblkK`);
* what an input window's staging buffer holds before the body: its block, whether the pipeline fetched it
  at that point or not (a weight or the bias is fetched at the first point only, and its block index never
  moves afterwards);
* what the one store leaves in the output's staging buffer, as a function of the nine input blocks
  (`outK_9`);
* the body's triple, the proof data and the body obligation of the launch theorem.
-/

-- membership in a rectangle of 5000 rows: the structural look recurses once per coordinate of the long axis
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes: each is the whole of its buffer -/

/-- The whole of a `[5000,64]` buffer. -/
abbrev rRows : Rect S5000x64 := Rect.unit (s := S5000x64) ![0, 0] S5000x64.size inb_S5000x64_S5000x64_0_0
/-- The whole of a `[64,64]` buffer. -/
abbrev rMat : Rect S64x64 := Rect.unit (s := S64x64) ![0, 0] S64x64.size inb_S64x64_S64x64_0_0
/-- The whole of a `[1,64]` buffer. -/
abbrev rBias : Rect S1x64 := Rect.unit (s := S1x64) ![0, 0] S1x64.size inb_S1x64_S1x64_0_0

/-- One store through the whole rectangle covers the buffer (checked by evaluation: one block, at offset 0). -/
theorem cover_rows (p0 : rRows.shape.Idx → Elt F .f32) (y : S5000x64.Idx) :
    ∃ pc ∈ ([⟨rRows, p0⟩] : List (View.Piece (Elt F) S5000x64 .f32)), y ∈ pc.1.set :=
  View.cover_of_tiled [⟨rRows, p0⟩] S5000x64.size (by rfl) y

section Regions
-- the TensorCore's buffer contents when a region is entered
variable (V : (c : Dev nD) → (b : Ref sig .tc) → Buf (Elt F) ((c : Thread nD τ).loc b))

/-! # Region 0 of @main: `cc0__combine_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's buffer

For any proof data whose array is `V`'s and whose body leaves the block in place, an input window's current staging
buffer holds the window's block at every point. Where the pipeline fetched it this is the fetch; where it did not
(windows 4 to 8 after the first point) the block index has not moved since the point before, so the buffer still holds
the same block. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- Window 9's staging buffer after the body, from the nine input blocks: the one store, through the whole rectangle,
    of `max (x0·W4 + x1·W5 + x2·W6 + x3·W7 + bias) 0` in the skeleton's payloads. -/
def out0_9 (x0 x1 x2 x3 : Vec F S5000x64 .f32) (x4 x5 x6 x7 : Vec F S64x64 .f32) (x8 : Vec F S1x64 .f32) : Vec F S5000x64 .f32 :=
  View.canon [⟨rRows, k0_pay1 (k0_pay2 (View.ld x0 rRows) (View.ld x4 rMat) (View.ld x1 rRows) (View.ld x5 rMat) (View.ld x2 rRows) (View.ld x6 rMat) (View.ld x3 rRows) (View.ld x7 rMat) (View.ld x8 rBias)) (k0_pay3 (F := F))⟩]

/-! ## The body's triple -/

set_option maxHeartbeats 4000000 in
/-- The kernel body on whole staging memrefs, the inputs' at read contents `xW` and the output's at anything, runs to the
    continuation holding the inputs' as they were and the output's at `out0_9` of the inputs. The body also loads the
    output's buffer once before storing; the value is not used, so any contents serve. -/
theorem sound_kernel0 (c : Dev nD) (E : Set ℕ) (i : grid0.Coords)
    (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S5000x64 .f32) (harg9 : arg9.IsWhole)
    (x0 x1 x2 x3 : Vec F S5000x64 .f32) (x4 x5 x6 x7 : Vec F S64x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ K ⟨⟩))
      ⊢ wp frame (wpE (defs₀ (F := F)) Variants.none c none) E (cc0__combine_kernel i arg0 harg0 arg1 harg1 arg2 harg2 arg3 harg3 arg4 harg4 arg5 harg5 arg6 harg6 arg7 harg7 arg8 harg8 arg9 harg9) K := by
  simp only [cc0__combine_kernel_eq_skeleton]; unfold cc0__combine_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_rows _)

/-! ## The pipeline's proof data -/

/-- The proof data of pipeline 0 on core `c`: the arrays as the region finds them (`V`); after the body at point `t`
    each input's buffer at its block and the output's at `out0_9` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`: the invariant, the core's dues, and the ten windows' current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: `cc1__combine_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in each input window's buffer

For any proof data whose array is `V`'s and whose body leaves the block in place, an input window's current staging
buffer holds the window's block at every point. Where the pipeline fetched it this is the fetch; where it did not
(windows 4 to 8 after the first point) the block index has not moved since the point before, so the buffer still holds
the same block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- Window 9's staging buffer after the body, from the nine input blocks: the one store, through the whole rectangle,
    of `max (x0·W4 + x1·W5 + x2·W6 + x3·W7 + bias) 0` in the skeleton's payloads. -/
def out1_9 (x0 x1 x2 x3 : Vec F S5000x64 .f32) (x4 x5 x6 x7 : Vec F S64x64 .f32) (x8 : Vec F S1x64 .f32) : Vec F S5000x64 .f32 :=
  View.canon [⟨rRows, k1_pay1 (k1_pay2 (View.ld x0 rRows) (View.ld x4 rMat) (View.ld x1 rRows) (View.ld x5 rMat) (View.ld x2 rRows) (View.ld x6 rMat) (View.ld x3 rRows) (View.ld x7 rMat) (View.ld x8 rBias)) (k1_pay3 (F := F))⟩]

/-! ## The body's triple -/

set_option maxHeartbeats 4000000 in
/-- The kernel body on whole staging memrefs, the inputs' at read contents `xW` and the output's at anything, runs to the
    continuation holding the inputs' as they were and the output's at `out1_9` of the inputs. The body also loads the
    output's buffer once before storing; the value is not used, so any contents serve. -/
theorem sound_kernel1 (c : Dev nD) (E : Set ℕ) (i : grid1.Coords)
    (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S5000x64 .f32) (harg9 : arg9.IsWhole)
    (x0 x1 x2 x3 : Vec F S5000x64 .f32) (x4 x5 x6 x7 : Vec F S64x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__combine_kernel i arg0 harg0 arg1 harg1 arg2 harg2 arg3 harg3 arg4 harg4 arg5 harg5 arg6 harg6 arg7 harg7 arg8 harg8 arg9 harg9) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_rows _)

/-! ## The pipeline's proof data -/

/-- The proof data of pipeline 1 on core `c`: the arrays as the region finds them (`V`); after the body at point `t`
    each input's buffer at its block and the output's at `out1_9` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`: the invariant, the core's dues, and the ten windows' current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Pool.lean ====
/-
  Region 2 of @main: the mean-pool kernel, at the buffer contents `V` the region is entered with.

  The kernel walks a grid of twenty points. At each point it adds the column sums of one [5000, 64] block of its input
  to a [1, 64] scratch that it CARRIES from point to point; at the first point it zeroes the scratch before adding, and
  at the last point it stores the scratch, scaled, into its [1, 64] output, which is written back there and nowhere
  else. So the scratch after `n` points is a recursion on `n` (`acc2`), the invariant between points holds the scratch
  at that value (at anything before the first point), and the body is run once per control case: the first point, a
  point strictly between, the last point.
-/
import proofs.«178208_j6545530159343_2_alg».proof.Proof.Gen.Kernel.Launch
import proofs.«178208_j6545530159343_2_alg».proof.Proof.Gen.Kernel.Skeleton
import proofs.«178208_j6545530159343_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions of the body, decided over the grid -/

/-- The condition of the first `scf.if`: the grid coordinate is zero. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the second `scf.if`: the grid coordinate is the last one. -/
abbrev cond2_1 (i : grid2.Coords) : Prop := k2_cond2 i = 1#1
/-- It holds at the last point only. -/
theorem hcond2_1 : ∀ t : Fin cfg2.N, cond2_1 (grid2.coords t) ↔ t.val = 19 :=
  (by decide +kernel : ∀ t : Fin grid2.N, cond2_1 (grid2.coords t) ↔ t.val = 19)

/-- The input window is never idle. -/
theorem liveAt2_0 : ∀ t : Fin cfg2.N, cfg2.idle 0 (grid2.coords t) = false := by decide +kernel
/-- Off the last point the output window is idle, -/
theorem idleAt2_1 : ∀ t : Fin cfg2.N, ¬cond2_1 (grid2.coords t) → cfg2.idle 1 (grid2.coords t) = true := by decide +kernel
/-- and is not written back; -/
theorem noFlush2_1 : ∀ t : Fin cfg2.N, ¬cond2_1 (grid2.coords t) → (cfg2.win 1).flush t = false := by decide +kernel
/-- at the last point it is live. -/
theorem liveAt2_1 : ∀ t : Fin cfg2.N, cond2_1 (grid2.coords t) → cfg2.idle 1 (grid2.coords t) = false := by decide +kernel

/-! ## The body's three control cases, on any whole memrefs

Every load and store of the body is through the rectangle that is the whole of its buffer, so a load reads the
contents and a store leaves its payload. -/

/-- The zero offsets of the body's rectangles. -/
theorem off0 : (![0, 0] : Fin 2 → Nat) = fun _ => 0 := by funext a; fin_cases a <;> rfl

/-- One store of `w` through the whole of a buffer, whatever was stored before, reads back as `w`. -/
theorem read_store_whole {S : Shape} {sp : Space} (v : View sig .tc sp S .f32) (f : v.ty.Contents (Elt F))
    {off : Fin S.rank → Nat} (h : off = fun _ => 0) (inb : ∀ a, off a + S.size a ≤ S.size a)
    (w : S.Idx → Elt F .f32) (L : List (View.Piece (Elt F) S .f32)) :
    v.read (Elt F) (v.writes (Elt F) f ((⟨Rect.unit off S.size inb, w⟩ : View.Piece (Elt F) S .f32) :: L)) = w := by
  rw [View.read_writes_eq_canon _ _ _ (fun y => ⟨_, List.mem_cons_self, View.mem_set_unit_zero h inb y⟩),
    View.canon_cons_unit_zero h]

/-- A load through the whole of a buffer reads its contents. -/
theorem load_whole {S : Shape} {sp : Space} (v : View sig .tc sp S .f32) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

set_option maxHeartbeats 1000000 in
/-- A point that is neither the first nor the last: the scratch at `s` is left at `k2_pay2 s x`, the output buffer untouched. -/
theorem run2_mid (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (hc0 : ¬cond2_0 i) (hc1 : ¬cond2_1 i)
    (x : Vec F S5000x64 .f32) (s : Vec F S1x64 .f32) (K : PUnit → sProp 𝕄) :
    iprop(owns (c : Thread nD τ) arg1 fullShare x ∗ owns (c : Thread nD τ) arg3 fullShare s
        ∗ (iprop(owns (c : Thread nD τ) arg1 fullShare x ∗ owns (c : Thread nD τ) arg3 fullShare (k2_pay2 s x)) -∗ K ⟨⟩))
      ⊢ wp frame (wpE (defs₀ (F := F)) Variants.none c none) E (cc2__mean_pool_kernel i arg1 harg1 arg2 harg2 arg3 harg3) K := by
  simp only [cc2__mean_pool_kernel_eq_skeleton]; unfold cc2__mean_pool_kernel_skel
  unfold owns
  iintro ⟨⟨%f1, %hf1, H1⟩, ⟨%f3, %hf3, H3⟩, Hk⟩
  subst hf1; subst hf3
  sl_exec (disch := first | exact hc0 | exact hc1)
  sl_step
  iapply Hk
  isplitl [H1]
  · iexists f1; isplitr; · ipureintro; rfl
    iexact H1
  iexists _; isplitr
  swap; · iexact H3
  ipureintro
  rw [read_store_whole _ _ off0, load_whole _ _ off0, load_whole _ _ off0]

set_option maxHeartbeats 1000000 in
/-- The first point: the scratch, at anything, is zeroed (`k2_pay1`) and left at `k2_pay2 k2_pay1 x`. -/
theorem run2_first (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (hc0 : cond2_0 i) (hc1 : ¬cond2_1 i)
    (x : Vec F S5000x64 .f32) (K : PUnit → sProp 𝕄) :
    iprop(owns (c : Thread nD τ) arg1 fullShare x ∗ (∃ d, owns (c : Thread nD τ) arg3 fullShare d)
        ∗ (iprop(owns (c : Thread nD τ) arg1 fullShare x ∗ owns (c : Thread nD τ) arg3 fullShare (k2_pay2 (k2_pay1 (F := F)) x)) -∗ K ⟨⟩))
      ⊢ wp frame (wpE (defs₀ (F := F)) Variants.none c none) E (cc2__mean_pool_kernel i arg1 harg1 arg2 harg2 arg3 harg3) K := by
  simp only [cc2__mean_pool_kernel_eq_skeleton]; unfold cc2__mean_pool_kernel_skel
  unfold owns
  iintro ⟨⟨%f1, %hf1, H1⟩, ⟨%d3, %f3, -, H3⟩, Hk⟩
  subst hf1
  sl_exec (disch := first | exact hc0 | exact hc1)
  sl_step
  iapply Hk
  isplitl [H1]
  · iexists f1; isplitr; · ipureintro; rfl
    iexact H1
  iexists _; isplitr
  swap; · iexact H3
  ipureintro
  sl_unfold_run_names
  first
    | rw [read_store_whole _ _ off0, View.readCov_unit_zero _ off0, load_whole _ _ off0]
    | (fail "first: pure goal")

set_option maxHeartbeats 1000000 in
/-- The last point: the scratch at `s` is left at `k2_pay2 s x` and the output buffer, at anything, at `k2_pay3` of that. -/
theorem run2_last (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (hc0 : ¬cond2_0 i) (hc1 : cond2_1 i)
    (x : Vec F S5000x64 .f32) (s : Vec F S1x64 .f32) (K : PUnit → sProp 𝕄) :
    iprop(owns (c : Thread nD τ) arg1 fullShare x ∗ owns (c : Thread nD τ) arg3 fullShare s ∗ (∃ d, owns (c : Thread nD τ) arg2 fullShare d)
        ∗ (iprop(owns (c : Thread nD τ) arg1 fullShare x ∗ owns (c : Thread nD τ) arg3 fullShare (k2_pay2 s x)
            ∗ owns (c : Thread nD τ) arg2 fullShare (k2_pay3 (k2_pay2 s x))) -∗ K ⟨⟩))
      ⊢ wp frame (wpE (defs₀ (F := F)) Variants.none c none) E (cc2__mean_pool_kernel i arg1 harg1 arg2 harg2 arg3 harg3) K := by
  simp only [cc2__mean_pool_kernel_eq_skeleton]; unfold cc2__mean_pool_kernel_skel
  unfold owns
  iintro ⟨⟨%f1, %hf1, H1⟩, ⟨%f3, %hf3, H3⟩, ⟨%d2, %f2, -, H2⟩, Hk⟩
  subst hf1; subst hf3
  sl_exec (disch := first | exact hc0 | exact hc1)
  sl_step
  iapply Hk
  isplitl [H1]
  · iexists f1; isplitr; · ipureintro; rfl
    iexact H1
  isplitl [H3]
  · iexists _; isplitr
    swap; · iexact H3
    ipureintro
    sl_unfold_run_names
    first
      | rw [read_store_whole _ _ off0, load_whole _ _ off0, load_whole _ _ off0]
      | (fail "last: scratch pure goal")
  iexists _; isplitr
  swap; · iexact H2
  ipureintro
  sl_unfold_run_names
  first
    | rw [read_store_whole _ _ off0, View.readCov_unit_zero _ off0, load_whole _ _ off0, load_whole _ _ off0]
    | (fail "last: output pure goal")

/-! ## The scratch and what rides beside it -/

/-- The carried scratch operand, the whole of its scoped buffer. -/
abbrev scM2 : Memref sig .tc .vmem S1x64 .f32 := Memref.whole cc2_scratch0

/-- What the region's invariant carries beside the scratch: every other scoped buffer that is no staging buffer of
    this call, at some contents each, and the generator register at some state. The body uses neither. -/
def rest2 (c : Dev nD) : sProp 𝕄 :=
  iprop(Pipeline.scopedRestBut (Ix := Unit) (Name := ℕ) (U := UR sig nD τ) (Lvl := ℕ) (Val := Elt F) spec2 c [cc2_scratch0]
    ∗ ∃ r, prngReg c r)

section Region

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, fetched there or not, for any proof data
    whose array is `V`'s and whose body leaves the block in place: the window is an input, never idle, its blocks tile
    the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl

/-! ## The running sum -/

/-- A position of the grid from any number (the grid has twenty points). -/
theorem pt2_lt (n : ℕ) : n % 20 < cfg2.N := by
  rw [show cfg2.N = 20 from N_2]; exact Nat.mod_lt _ (by decide)

/-- The input's block at position `n` of the grid (past the grid the positions wrap around, so that the recursion below
    is total; no point reads there). -/
def blkAt2 (c : Dev nD) (n : ℕ) : Vec F S5000x64 .f32 := iblk2 V c 0 ⟨n % 20, pt2_lt n⟩

theorem blkAt2_val (c : Dev nD) (t : Fin cfg2.N) : blkAt2 V c t.val = iblk2 V c 0 t := by
  have hN : t.val < 20 := lt_of_lt_of_eq t.isLt (show cfg2.N = 20 from N_2)
  have e : (⟨t.val % 20, pt2_lt t.val⟩ : Fin cfg2.N) = t := Fin.ext (Nat.mod_eq_of_lt hN)
  unfold blkAt2; rw [e]

/-- THE ACCUMULATION. What the scratch holds after `n` points: zeros (the first point's reset) plus the column sums of
    blocks `0 … n - 1`, added one block at a time in the order of the grid. Position `0` is the reset value: the first
    point stores it before it reads the scratch, so what the scratch held at entry is never read. -/
def acc2 (c : Dev nD) : ℕ → Vec F S1x64 .f32
  | 0 => k2_pay1
  | n + 1 => k2_pay2 (acc2 c n) (blkAt2 V c n)

theorem acc2_zero (c : Dev nD) : acc2 V c 0 = k2_pay1 := rfl
theorem acc2_succ (c : Dev nD) (n : ℕ) : acc2 V c (n + 1) = k2_pay2 (acc2 V c n) (blkAt2 V c n) := rfl
theorem acc2_of_eq_zero (c : Dev nD) (n : ℕ) (h : n = 0) : acc2 V c n = k2_pay1 := by subst h; rfl
/-- After point `t`: what was there before it, plus block `t`'s column sums. -/
theorem acc2_at (c : Dev nD) (t : Fin cfg2.N) : acc2 V c (t.val + 1) = k2_pay2 (acc2 V c t.val) (iblk2 V c 0 t) := by
  rw [acc2_succ, blkAt2_val]
/-- After the last point: all twenty blocks. -/
theorem acc2_last (c : Dev nD) (t : Fin cfg2.N) (h : t.val = 19) : acc2 V c 20 = k2_pay2 (acc2 V c t.val) (iblk2 V c 0 t) := by
  rw [← acc2_at, h]

/-! ## The invariant -/

/-- The region's invariant before position `n`: before the first point the scratch at anything (what the launch hands
    over), afterwards at the running sum of the points before; beside it, untouched, the other scoped buffers and the
    generator register. -/
def Phi2 (c : Dev nD) : ℕ → sProp 𝕄
  | 0 => iprop((∃ d, owns (c : Thread nD τ) scM2 fullShare d) ∗ rest2 c)
  | n + 1 => iprop(owns (c : Thread nD τ) scM2 fullShare (acc2 V c (n + 1)) ∗ rest2 c)

theorem Phi2_of_eq_zero (c : Dev nD) (n : ℕ) (h : n = 0) :
    Phi2 V c n = iprop((∃ d, owns (c : Thread nD τ) scM2 fullShare d) ∗ rest2 c) := by subst h; rfl
theorem Phi2_succ (c : Dev nD) (n : ℕ) :
    Phi2 V c (n + 1) = iprop(owns (c : Thread nD τ) scM2 fullShare (acc2 V c (n + 1)) ∗ rest2 c) := rfl
theorem Phi2_pos (c : Dev nD) (n : ℕ) (h : n ≠ 0) :
    Phi2 V c n = iprop(owns (c : Thread nD τ) scM2 fullShare (acc2 V c n) ∗ rest2 c) := by
  cases n with
  | zero => exact absurd rfl h
  | succ n => rfl

/-! ## The pipeline's proof data -/

/-- The proof data of the mean-pool pipeline on core `c`: the arrays as the region finds them (`V`); after the body at
    point `t` the input's buffer at its block and the output's at the scaled total `k2_pay3 (acc2 … 20)` — stored at the
    last point only; at the others the window is idle and the obligation asks its buffer back as found, so the value
    stated there is not read —; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => k2_pay3 (acc2 V c 20)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = k2_pay3 (acc2 V c 20) := by dsimp only [dat2]
/-- What the last point writes back: the total of the twenty blocks, scaled. -/
theorem after2_1_last (c : Dev nD) (t : Fin cfg2.N) (h : t.val = 19) : (dat2 V c).after 1 t = k2_pay3 (acc2 V c 20) :=
  after2_1 V c t

theorem before2_0 (c : Dev nD) (t : Fin cfg2.N) (d) : (dat2 V c).before 0 t d = iblk2 V c 0 t :=
  before2_0_of V (dat2 V c) (A_eq2 V c 0) (after2_0 V c) t d

theorem Phi2_castSucc (c : Dev nD) (t : Fin cfg2.N) : (dat2 V c).Φ t.castSucc = Phi2 V c t.val := by
  dsimp only [dat2]; simp only [Fin.coe_castSucc]
theorem Phi2_succ_pt (c : Dev nD) (t : Fin cfg2.N) : (dat2 V c).Φ t.succ = Phi2 V c (t.val + 1) := by
  dsimp only [dat2]; simp only [Fin.val_succ]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 2000000 in
/-- The body at any point, by the point's control case. The input's buffer holds its block; the invariant hands over the
    scratch — at anything at the first point, where the body resets it, at the running sum afterwards — and takes it back
    one block further; off the last point the output's buffer goes back as found (the window idle, not written back), at
    the last it is stored at the scaled total. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [Phi2_castSucc, Phi2_succ_pt, Phi2_succ, acc2_at]
  rw [show (dat2 V c).leavesExact 0 t = owns (c : Thread nD τ) (st2_0 t) fullShare ((dat2 V c).after 0 t) from by
    unfold Dat.leavesExact; rw [liveAt2_0 t], after2_0]
  have hN : t.val < 20 := lt_of_lt_of_eq t.isLt (show cfg2.N = 20 from N_2)
  by_cases h19 : t.val = 19
  · have hc1 : cond2_1 (grid2.coords t) := (hcond2_1 t).mpr h19
    have hc0 : ¬cond2_0 (grid2.coords t) := fun h => by have := (hcond2_0 t).mp h; omega
    rw [show (dat2 V c).leavesExact 1 t = owns (c : Thread nD τ) (st2_1 t) fullShare ((dat2 V c).after 1 t) from by
      unfold Dat.leavesExact; rw [liveAt2_1 t hc1], after2_1, acc2_last V c t h19]
    rw [Phi2_pos V c t.val (by omega)]
    iintro ⟨⟨HS, Hr⟩, Ho, ⟨%d0, H0⟩, ⟨%d1, H1⟩⟩
    iapply (run2_last c Set.univ _ _ _ _ _ _ _ hc0 hc1 (iblk2 V c 0 t) (acc2 V c t.val) _)
    isplitl [H0]; · iexact H0
    isplitl [HS]; · iexact HS
    isplitl [H1]; · iexists _; iexact H1
    iintro ⟨H0, HS, H1⟩
    isplitl [HS Hr]
    · isplitl [HS]; · iexact HS
      iexact Hr
    isplitl [Ho]; · iexact Ho
    isplitl [H0]; · iexact H0
    iexact H1
  · have hc1 : ¬cond2_1 (grid2.coords t) := fun h => h19 ((hcond2_1 t).mp h)
    rw [Dat.leavesExact_idle (dat2 V c) 1 t (idleAt2_1 t hc1) (noFlush2_1 t hc1)]
    by_cases h0 : t.val = 0
    · have hc0 : cond2_0 (grid2.coords t) := (hcond2_0 t).mpr h0
      rw [Phi2_of_eq_zero V c t.val h0, acc2_of_eq_zero V c t.val h0]
      iintro ⟨⟨HS, Hr⟩, Ho, ⟨%d0, H0⟩, ⟨%d1, H1⟩⟩
      iapply (run2_first c Set.univ _ _ _ _ _ _ _ hc0 hc1 (iblk2 V c 0 t) _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1
    · have hc0 : ¬cond2_0 (grid2.coords t) := fun h => h0 ((hcond2_0 t).mp h)
      rw [Phi2_pos V c t.val h0]
      iintro ⟨⟨HS, Hr⟩, Ho, ⟨%d0, H0⟩, ⟨%d1, H1⟩⟩
      iapply (run2_mid c Set.univ _ _ _ _ _ _ _ hc0 hc1 (iblk2 V c 0 t) (acc2 V c t.val) _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- ENTRY. The generator register and the call's scoped rest — the scratch at anything, split off the other scoped
    buffers — make the invariant before the first point; the call has no prefetched table. -/
theorem hin2 (c : Dev nD) :
    iprop((∃ r, prngReg c r)
        ∗ Pipeline.prefHeld (Ix := Unit) (Name := ℕ) (U := UR sig nD τ) (Lvl := ℕ) (pcfgs (F := F) 2).pre c (fun _ => fullShare) ((cfgs 2).toPCfg_adm (Val := Elt F)).1
        ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Phi2 V c 0 from rfl, Phi2_of_eq_zero V c 0 rfl, scopedRest2_split]
  unfold rest2
  simp only [scM2, owns_whole]
  iintro ⟨Hp, -, ⟨Hs, Hb⟩⟩
  isplitl [Hs]; · iexact Hs
  isplitl [Hb]; · iexact Hb
  iexact Hp

/-- EXIT. After the last point the invariant gives the register and the scoped rest back, the scratch's contents
    forgotten; the kernel has no semaphore of its own. -/
theorem hout2 (c : Dev nD) :
    ((dat2 V c).Φ (Fin.last cfg2.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec2 c) := by
  rw [Pipeline.ownSems0_none, show (dat2 V c).Φ (Fin.last cfg2.N) = Phi2 V c cfg2.N from rfl,
    Phi2_pos V c cfg2.N (by rw [show cfg2.N = 20 from N_2]; decide), scopedRest2_split]
  unfold rest2
  simp only [scM2, owns_whole]
  iintro ⟨HS, Hb, Hp⟩
  isplitl [Hp]; · iexact Hp
  isplitr; · iempintro
  isplitl [HS]; · iexists _; iexact HS
  iexact Hb

end Region

end Cert.Kernel.Hand

end
-- ==== Proof.K.HostKeeps.lean ====
/-
  No host operation of @main writes an argument array, and none allocates a buffer: per stretch of host
  operations, each argument's buffer holds after the stretch what it held before it.
-/
import proofs.«178208_j6545530159343_2_alg».proof.Proof.Gen.Kernel.Launch
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.StableHlo
open Idealize.SL Idealize.SL.Sem

variable {F : FTy → Type} [FloatOps F]

/-- No operation of this stretch allocates a buffer. -/
theorem hostOps0_fresh : (hostOps0 : List (HloOp τ sig (Elt F))).Forall fun op => op.fresh = ∅ := by
  simp only [List.Forall]; repeat' constructor
set_option maxHeartbeats 4000000 in
theorem hostOps0_keeps_main_arg0 (V : Valuation τ sig (Elt F)) :
    StableHlo.after (hostOps0 (F := F)) V (Proc.devRef .tc main_arg0) = V (Proc.devRef .tc main_arg0) := by
  after_results_simp
set_option maxHeartbeats 4000000 in
theorem hostOps0_keeps_main_arg1 (V : Valuation τ sig (Elt F)) :
    StableHlo.after (hostOps0 (F := F)) V (Proc.devRef .tc main_arg1) = V (Proc.devRef .tc main_arg1) := by
  after_results_simp
set_option maxHeartbeats 4000000 in
theorem hostOps0_keeps_main_arg2 (V : Valuation τ sig (Elt F)) :
    StableHlo.after (hostOps0 (F := F)) V (Proc.devRef .tc main_arg2) = V (Proc.devRef .tc main_arg2) := by
  after_results_simp
set_option maxHeartbeats 4000000 in
theorem hostOps0_keeps_main_arg3 (V : Valuation τ sig (Elt F)) :
    StableHlo.after (hostOps0 (F := F)) V (Proc.devRef .tc main_arg3) = V (Proc.devRef .tc main_arg3) := by
  after_results_simp
set_option maxHeartbeats 4000000 in
theorem hostOps0_keeps_main_arg4 (V : Valuation τ sig (Elt F)) :
    StableHlo.after (hostOps0 (F := F)) V (Proc.devRef .tc main_arg4) = V (Proc.devRef .tc main_arg4) := by
  after_results_simp
set_option maxHeartbeats 4000000 in
theorem hostOps0_keeps_main_arg5 (V : Valuation τ sig (Elt F)) :
    StableHlo.after (hostOps0 (F := F)) V (Proc.devRef .tc main_arg5) = V (Proc.devRef .tc main_arg5) := by
  after_results_simp
set_option maxHeartbeats 4000000 in
theorem hostOps0_keeps_main_arg6 (V : Valuation τ sig (Elt F)) :
    StableHlo.after (hostOps0 (F := F)) V (Proc.devRef .tc main_arg6) = V (Proc.devRef .tc main_arg6) := by
  after_results_simp
set_option maxHeartbeats 4000000 in
theorem hostOps0_keeps_main_arg7 (V : Valuation τ sig (Elt F)) :
    StableHlo.after (hostOps0 (F := F)) V (Proc.devRef .tc main_arg7) = V (Proc.devRef .tc main_arg7) := by
  after_results_simp
set_option maxHeartbeats 4000000 in
theorem hostOps0_keeps_main_arg8 (V : Valuation τ sig (Elt F)) :
    StableHlo.after (hostOps0 (F := F)) V (Proc.devRef .tc main_arg8) = V (Proc.devRef .tc main_arg8) := by
  after_results_simp
set_option maxHeartbeats 4000000 in
theorem hostOps0_keeps_main_arg9 (V : Valuation τ sig (Elt F)) :
    StableHlo.after (hostOps0 (F := F)) V (Proc.devRef .tc main_arg9) = V (Proc.devRef .tc main_arg9) := by
  after_results_simp
set_option maxHeartbeats 4000000 in
theorem hostOps0_keeps_main_arg10 (V : Valuation τ sig (Elt F)) :
    StableHlo.after (hostOps0 (F := F)) V (Proc.devRef .tc main_arg10) = V (Proc.devRef .tc main_arg10) := by
  after_results_simp
/-- No operation of this stretch allocates a buffer. -/
theorem hostOps0_1_fresh : (hostOps0_1 : List (HloOp τ sig (Elt F))).Forall fun op => op.fresh = ∅ := by
  simp only [List.Forall]; repeat' constructor
set_option maxHeartbeats 4000000 in
theorem hostOps0_1_keeps_main_arg0 (V : Valuation τ sig (Elt F)) :
    StableHlo.after (hostOps0_1 (F := F)) V (Proc.devRef .tc main_arg0) = V (Proc.devRef .tc main_arg0) := by
  after_results_simp
set_option maxHeartbeats 4000000 in
theorem hostOps0_1_keeps_main_arg1 (V : Valuation τ sig (Elt F)) :
    StableHlo.after (hostOps0_1 (F := F)) V (Proc.devRef .tc main_arg1) = V (Proc.devRef .tc main_arg1) := by
  after_results_simp
set_option maxHeartbeats 4000000 in
theorem hostOps0_1_keeps_main_arg2 (V : Valuation τ sig (Elt F)) :
    StableHlo.after (hostOps0_1 (F := F)) V (Proc.devRef .tc main_arg2) = V (Proc.devRef .tc main_arg2) := by
  after_results_simp
set_option maxHeartbeats 4000000 in
theorem hostOps0_1_keeps_main_arg3 (V : Valuation τ sig (Elt F)) :
    StableHlo.after (hostOps0_1 (F := F)) V (Proc.devRef .tc main_arg3) = V (Proc.devRef .tc main_arg3) := by
  after_results_simp
set_option maxHeartbeats 4000000 in
theorem hostOps0_1_keeps_main_arg4 (V : Valuation τ sig (Elt F)) :
    StableHlo.after (hostOps0_1 (F := F)) V (Proc.devRef .tc main_arg4) = V (Proc.devRef .tc main_arg4) := by
  after_results_simp
set_option maxHeartbeats 4000000 in
theorem hostOps0_1_keeps_main_arg5 (V : Valuation τ sig (Elt F)) :
    StableHlo.after (hostOps0_1 (F := F)) V (Proc.devRef .tc main_arg5) = V (Proc.devRef .tc main_arg5) := by
  after_results_simp
set_option maxHeartbeats 4000000 in
theorem hostOps0_1_keeps_main_arg6 (V : Valuation τ sig (Elt F)) :
    StableHlo.after (hostOps0_1 (F := F)) V (Proc.devRef .tc main_arg6) = V (Proc.devRef .tc main_arg6) := by
  after_results_simp
set_option maxHeartbeats 4000000 in
theorem hostOps0_1_keeps_main_arg7 (V : Valuation τ sig (Elt F)) :
    StableHlo.after (hostOps0_1 (F := F)) V (Proc.devRef .tc main_arg7) = V (Proc.devRef .tc main_arg7) := by
  after_results_simp
set_option maxHeartbeats 4000000 in
theorem hostOps0_1_keeps_main_arg8 (V : Valuation τ sig (Elt F)) :
    StableHlo.after (hostOps0_1 (F := F)) V (Proc.devRef .tc main_arg8) = V (Proc.devRef .tc main_arg8) := by
  after_results_simp
set_option maxHeartbeats 4000000 in
theorem hostOps0_1_keeps_main_arg9 (V : Valuation τ sig (Elt F)) :
    StableHlo.after (hostOps0_1 (F := F)) V (Proc.devRef .tc main_arg9) = V (Proc.devRef .tc main_arg9) := by
  after_results_simp
set_option maxHeartbeats 4000000 in
theorem hostOps0_1_keeps_main_arg10 (V : Valuation τ sig (Elt F)) :
    StableHlo.after (hostOps0_1 (F := F)) V (Proc.devRef .tc main_arg10) = V (Proc.devRef .tc main_arg10) := by
  after_results_simp
/-- No operation of this stretch allocates a buffer. -/
theorem hostOps0_2_fresh : (hostOps0_2 : List (HloOp τ sig (Elt F))).Forall fun op => op.fresh = ∅ := by
  simp only [List.Forall]; repeat' constructor
set_option maxHeartbeats 4000000 in
theorem hostOps0_2_keeps_main_arg0 (V : Valuation τ sig (Elt F)) :
    StableHlo.after (hostOps0_2 (F := F)) V (Proc.devRef .tc main_arg0) = V (Proc.devRef .tc main_arg0) := by
  after_results_simp
set_option maxHeartbeats 4000000 in
theorem hostOps0_2_keeps_main_arg1 (V : Valuation τ sig (Elt F)) :
    StableHlo.after (hostOps0_2 (F := F)) V (Proc.devRef .tc main_arg1) = V (Proc.devRef .tc main_arg1) := by
  after_results_simp
set_option maxHeartbeats 4000000 in
theorem hostOps0_2_keeps_main_arg2 (V : Valuation τ sig (Elt F)) :
    StableHlo.after (hostOps0_2 (F := F)) V (Proc.devRef .tc main_arg2) = V (Proc.devRef .tc main_arg2) := by
  after_results_simp
set_option maxHeartbeats 4000000 in
theorem hostOps0_2_keeps_main_arg3 (V : Valuation τ sig (Elt F)) :
    StableHlo.after (hostOps0_2 (F := F)) V (Proc.devRef .tc main_arg3) = V (Proc.devRef .tc main_arg3) := by
  after_results_simp
set_option maxHeartbeats 4000000 in
theorem hostOps0_2_keeps_main_arg4 (V : Valuation τ sig (Elt F)) :
    StableHlo.after (hostOps0_2 (F := F)) V (Proc.devRef .tc main_arg4) = V (Proc.devRef .tc main_arg4) := by
  after_results_simp
set_option maxHeartbeats 4000000 in
theorem hostOps0_2_keeps_main_arg5 (V : Valuation τ sig (Elt F)) :
    StableHlo.after (hostOps0_2 (F := F)) V (Proc.devRef .tc main_arg5) = V (Proc.devRef .tc main_arg5) := by
  after_results_simp
set_option maxHeartbeats 4000000 in
theorem hostOps0_2_keeps_main_arg6 (V : Valuation τ sig (Elt F)) :
    StableHlo.after (hostOps0_2 (F := F)) V (Proc.devRef .tc main_arg6) = V (Proc.devRef .tc main_arg6) := by
  after_results_simp
set_option maxHeartbeats 4000000 in
theorem hostOps0_2_keeps_main_arg7 (V : Valuation τ sig (Elt F)) :
    StableHlo.after (hostOps0_2 (F := F)) V (Proc.devRef .tc main_arg7) = V (Proc.devRef .tc main_arg7) := by
  after_results_simp
set_option maxHeartbeats 4000000 in
theorem hostOps0_2_keeps_main_arg8 (V : Valuation τ sig (Elt F)) :
    StableHlo.after (hostOps0_2 (F := F)) V (Proc.devRef .tc main_arg8) = V (Proc.devRef .tc main_arg8) := by
  after_results_simp
set_option maxHeartbeats 4000000 in
theorem hostOps0_2_keeps_main_arg9 (V : Valuation τ sig (Elt F)) :
    StableHlo.after (hostOps0_2 (F := F)) V (Proc.devRef .tc main_arg9) = V (Proc.devRef .tc main_arg9) := by
  after_results_simp
set_option maxHeartbeats 4000000 in
theorem hostOps0_2_keeps_main_arg10 (V : Valuation τ sig (Elt F)) :
    StableHlo.after (hostOps0_2 (F := F)) V (Proc.devRef .tc main_arg10) = V (Proc.devRef .tc main_arg10) := by
  after_results_simp
/-- No operation of this stretch allocates a buffer. -/
theorem hostOps0_3_fresh : (hostOps0_3 : List (HloOp τ sig (Elt F))).Forall fun op => op.fresh = ∅ := by
  simp only [List.Forall]; repeat' constructor
set_option maxHeartbeats 4000000 in
theorem hostOps0_3_keeps_main_arg0 (V : Valuation τ sig (Elt F)) :
    StableHlo.after (hostOps0_3 (F := F)) V (Proc.devRef .tc main_arg0) = V (Proc.devRef .tc main_arg0) := by
  after_results_simp
set_option maxHeartbeats 4000000 in
theorem hostOps0_3_keeps_main_arg1 (V : Valuation τ sig (Elt F)) :
    StableHlo.after (hostOps0_3 (F := F)) V (Proc.devRef .tc main_arg1) = V (Proc.devRef .tc main_arg1) := by
  after_results_simp
set_option maxHeartbeats 4000000 in
theorem hostOps0_3_keeps_main_arg2 (V : Valuation τ sig (Elt F)) :
    StableHlo.after (hostOps0_3 (F := F)) V (Proc.devRef .tc main_arg2) = V (Proc.devRef .tc main_arg2) := by
  after_results_simp
set_option maxHeartbeats 4000000 in
theorem hostOps0_3_keeps_main_arg3 (V : Valuation τ sig (Elt F)) :
    StableHlo.after (hostOps0_3 (F := F)) V (Proc.devRef .tc main_arg3) = V (Proc.devRef .tc main_arg3) := by
  after_results_simp
set_option maxHeartbeats 4000000 in
theorem hostOps0_3_keeps_main_arg4 (V : Valuation τ sig (Elt F)) :
    StableHlo.after (hostOps0_3 (F := F)) V (Proc.devRef .tc main_arg4) = V (Proc.devRef .tc main_arg4) := by
  after_results_simp
set_option maxHeartbeats 4000000 in
theorem hostOps0_3_keeps_main_arg5 (V : Valuation τ sig (Elt F)) :
    StableHlo.after (hostOps0_3 (F := F)) V (Proc.devRef .tc main_arg5) = V (Proc.devRef .tc main_arg5) := by
  after_results_simp
set_option maxHeartbeats 4000000 in
theorem hostOps0_3_keeps_main_arg6 (V : Valuation τ sig (Elt F)) :
    StableHlo.after (hostOps0_3 (F := F)) V (Proc.devRef .tc main_arg6) = V (Proc.devRef .tc main_arg6) := by
  after_results_simp
set_option maxHeartbeats 4000000 in
theorem hostOps0_3_keeps_main_arg7 (V : Valuation τ sig (Elt F)) :
    StableHlo.after (hostOps0_3 (F := F)) V (Proc.devRef .tc main_arg7) = V (Proc.devRef .tc main_arg7) := by
  after_results_simp
set_option maxHeartbeats 4000000 in
theorem hostOps0_3_keeps_main_arg8 (V : Valuation τ sig (Elt F)) :
    StableHlo.after (hostOps0_3 (F := F)) V (Proc.devRef .tc main_arg8) = V (Proc.devRef .tc main_arg8) := by
  after_results_simp
set_option maxHeartbeats 4000000 in
theorem hostOps0_3_keeps_main_arg9 (V : Valuation τ sig (Elt F)) :
    StableHlo.after (hostOps0_3 (F := F)) V (Proc.devRef .tc main_arg9) = V (Proc.devRef .tc main_arg9) := by
  after_results_simp
set_option maxHeartbeats 4000000 in
theorem hostOps0_3_keeps_main_arg10 (V : Valuation τ sig (Elt F)) :
    StableHlo.after (hostOps0_3 (F := F)) V (Proc.devRef .tc main_arg10) = V (Proc.devRef .tc main_arg10) := by
  after_results_simp
/-- No operation of this stretch allocates a buffer. -/
theorem hostOps0_4_fresh : (hostOps0_4 : List (HloOp τ sig (Elt F))).Forall fun op => op.fresh = ∅ := by
  simp only [List.Forall]; repeat' constructor
set_option maxHeartbeats 4000000 in
theorem hostOps0_4_keeps_main_arg0 (V : Valuation τ sig (Elt F)) :
    StableHlo.after (hostOps0_4 (F := F)) V (Proc.devRef .tc main_arg0) = V (Proc.devRef .tc main_arg0) := by
  after_results_simp
set_option maxHeartbeats 4000000 in
theorem hostOps0_4_keeps_main_arg1 (V : Valuation τ sig (Elt F)) :
    StableHlo.after (hostOps0_4 (F := F)) V (Proc.devRef .tc main_arg1) = V (Proc.devRef .tc main_arg1) := by
  after_results_simp
set_option maxHeartbeats 4000000 in
theorem hostOps0_4_keeps_main_arg2 (V : Valuation τ sig (Elt F)) :
    StableHlo.after (hostOps0_4 (F := F)) V (Proc.devRef .tc main_arg2) = V (Proc.devRef .tc main_arg2) := by
  after_results_simp
set_option maxHeartbeats 4000000 in
theorem hostOps0_4_keeps_main_arg3 (V : Valuation τ sig (Elt F)) :
    StableHlo.after (hostOps0_4 (F := F)) V (Proc.devRef .tc main_arg3) = V (Proc.devRef .tc main_arg3) := by
  after_results_simp
set_option maxHeartbeats 4000000 in
theorem hostOps0_4_keeps_main_arg4 (V : Valuation τ sig (Elt F)) :
    StableHlo.after (hostOps0_4 (F := F)) V (Proc.devRef .tc main_arg4) = V (Proc.devRef .tc main_arg4) := by
  after_results_simp
set_option maxHeartbeats 4000000 in
theorem hostOps0_4_keeps_main_arg5 (V : Valuation τ sig (Elt F)) :
    StableHlo.after (hostOps0_4 (F := F)) V (Proc.devRef .tc main_arg5) = V (Proc.devRef .tc main_arg5) := by
  after_results_simp
set_option maxHeartbeats 4000000 in
theorem hostOps0_4_keeps_main_arg6 (V : Valuation τ sig (Elt F)) :
    StableHlo.after (hostOps0_4 (F := F)) V (Proc.devRef .tc main_arg6) = V (Proc.devRef .tc main_arg6) := by
  after_results_simp
set_option maxHeartbeats 4000000 in
theorem hostOps0_4_keeps_main_arg7 (V : Valuation τ sig (Elt F)) :
    StableHlo.after (hostOps0_4 (F := F)) V (Proc.devRef .tc main_arg7) = V (Proc.devRef .tc main_arg7) := by
  after_results_simp
set_option maxHeartbeats 4000000 in
theorem hostOps0_4_keeps_main_arg8 (V : Valuation τ sig (Elt F)) :
    StableHlo.after (hostOps0_4 (F := F)) V (Proc.devRef .tc main_arg8) = V (Proc.devRef .tc main_arg8) := by
  after_results_simp
set_option maxHeartbeats 4000000 in
theorem hostOps0_4_keeps_main_arg9 (V : Valuation τ sig (Elt F)) :
    StableHlo.after (hostOps0_4 (F := F)) V (Proc.devRef .tc main_arg9) = V (Proc.devRef .tc main_arg9) := by
  after_results_simp
set_option maxHeartbeats 4000000 in
theorem hostOps0_4_keeps_main_arg10 (V : Valuation τ sig (Elt F)) :
    StableHlo.after (hostOps0_4 (F := F)) V (Proc.devRef .tc main_arg10) = V (Proc.devRef .tc main_arg10) := by
  after_results_simp
/-- No operation of this stretch allocates a buffer. -/
theorem hostOps1_fresh : (hostOps1 : List (HloOp τ sig (Elt F))).Forall fun op => op.fresh = ∅ := by
  simp only [List.Forall]; repeat' constructor
set_option maxHeartbeats 4000000 in
theorem hostOps1_keeps_main_arg0 (V : Valuation τ sig (Elt F)) :
    StableHlo.after (hostOps1 (F := F)) V (Proc.devRef .tc main_arg0) = V (Proc.devRef .tc main_arg0) := by
  after_results_simp
set_option maxHeartbeats 4000000 in
theorem hostOps1_keeps_main_arg1 (V : Valuation τ sig (Elt F)) :
    StableHlo.after (hostOps1 (F := F)) V (Proc.devRef .tc main_arg1) = V (Proc.devRef .tc main_arg1) := by
  after_results_simp
set_option maxHeartbeats 4000000 in
theorem hostOps1_keeps_main_arg2 (V : Valuation τ sig (Elt F)) :
    StableHlo.after (hostOps1 (F := F)) V (Proc.devRef .tc main_arg2) = V (Proc.devRef .tc main_arg2) := by
  after_results_simp
set_option maxHeartbeats 4000000 in
theorem hostOps1_keeps_main_arg3 (V : Valuation τ sig (Elt F)) :
    StableHlo.after (hostOps1 (F := F)) V (Proc.devRef .tc main_arg3) = V (Proc.devRef .tc main_arg3) := by
  after_results_simp
set_option maxHeartbeats 4000000 in
theorem hostOps1_keeps_main_arg4 (V : Valuation τ sig (Elt F)) :
    StableHlo.after (hostOps1 (F := F)) V (Proc.devRef .tc main_arg4) = V (Proc.devRef .tc main_arg4) := by
  after_results_simp
set_option maxHeartbeats 4000000 in
theorem hostOps1_keeps_main_arg5 (V : Valuation τ sig (Elt F)) :
    StableHlo.after (hostOps1 (F := F)) V (Proc.devRef .tc main_arg5) = V (Proc.devRef .tc main_arg5) := by
  after_results_simp
set_option maxHeartbeats 4000000 in
theorem hostOps1_keeps_main_arg6 (V : Valuation τ sig (Elt F)) :
    StableHlo.after (hostOps1 (F := F)) V (Proc.devRef .tc main_arg6) = V (Proc.devRef .tc main_arg6) := by
  after_results_simp
set_option maxHeartbeats 4000000 in
theorem hostOps1_keeps_main_arg7 (V : Valuation τ sig (Elt F)) :
    StableHlo.after (hostOps1 (F := F)) V (Proc.devRef .tc main_arg7) = V (Proc.devRef .tc main_arg7) := by
  after_results_simp
set_option maxHeartbeats 4000000 in
theorem hostOps1_keeps_main_arg8 (V : Valuation τ sig (Elt F)) :
    StableHlo.after (hostOps1 (F := F)) V (Proc.devRef .tc main_arg8) = V (Proc.devRef .tc main_arg8) := by
  after_results_simp
set_option maxHeartbeats 4000000 in
theorem hostOps1_keeps_main_arg9 (V : Valuation τ sig (Elt F)) :
    StableHlo.after (hostOps1 (F := F)) V (Proc.devRef .tc main_arg9) = V (Proc.devRef .tc main_arg9) := by
  after_results_simp
set_option maxHeartbeats 4000000 in
theorem hostOps1_keeps_main_arg10 (V : Valuation τ sig (Elt F)) :
    StableHlo.after (hostOps1 (F := F)) V (Proc.devRef .tc main_arg10) = V (Proc.devRef .tc main_arg10) := by
  after_results_simp
/-- No operation of this stretch allocates a buffer. -/
theorem hostOps3_fresh : (hostOps3 : List (HloOp τ sig (Elt F))).Forall fun op => op.fresh = ∅ := by
  simp only [List.Forall]; repeat' constructor
set_option maxHeartbeats 4000000 in
theorem hostOps3_keeps_main_arg0 (V : Valuation τ sig (Elt F)) :
    StableHlo.after (hostOps3 (F := F)) V (Proc.devRef .tc main_arg0) = V (Proc.devRef .tc main_arg0) := by
  after_results_simp
set_option maxHeartbeats 4000000 in
theorem hostOps3_keeps_main_arg1 (V : Valuation τ sig (Elt F)) :
    StableHlo.after (hostOps3 (F := F)) V (Proc.devRef .tc main_arg1) = V (Proc.devRef .tc main_arg1) := by
  after_results_simp
set_option maxHeartbeats 4000000 in
theorem hostOps3_keeps_main_arg2 (V : Valuation τ sig (Elt F)) :
    StableHlo.after (hostOps3 (F := F)) V (Proc.devRef .tc main_arg2) = V (Proc.devRef .tc main_arg2) := by
  after_results_simp
set_option maxHeartbeats 4000000 in
theorem hostOps3_keeps_main_arg3 (V : Valuation τ sig (Elt F)) :
    StableHlo.after (hostOps3 (F := F)) V (Proc.devRef .tc main_arg3) = V (Proc.devRef .tc main_arg3) := by
  after_results_simp
set_option maxHeartbeats 4000000 in
theorem hostOps3_keeps_main_arg4 (V : Valuation τ sig (Elt F)) :
    StableHlo.after (hostOps3 (F := F)) V (Proc.devRef .tc main_arg4) = V (Proc.devRef .tc main_arg4) := by
  after_results_simp
set_option maxHeartbeats 4000000 in
theorem hostOps3_keeps_main_arg5 (V : Valuation τ sig (Elt F)) :
    StableHlo.after (hostOps3 (F := F)) V (Proc.devRef .tc main_arg5) = V (Proc.devRef .tc main_arg5) := by
  after_results_simp
set_option maxHeartbeats 4000000 in
theorem hostOps3_keeps_main_arg6 (V : Valuation τ sig (Elt F)) :
    StableHlo.after (hostOps3 (F := F)) V (Proc.devRef .tc main_arg6) = V (Proc.devRef .tc main_arg6) := by
  after_results_simp
set_option maxHeartbeats 4000000 in
theorem hostOps3_keeps_main_arg7 (V : Valuation τ sig (Elt F)) :
    StableHlo.after (hostOps3 (F := F)) V (Proc.devRef .tc main_arg7) = V (Proc.devRef .tc main_arg7) := by
  after_results_simp
set_option maxHeartbeats 4000000 in
theorem hostOps3_keeps_main_arg8 (V : Valuation τ sig (Elt F)) :
    StableHlo.after (hostOps3 (F := F)) V (Proc.devRef .tc main_arg8) = V (Proc.devRef .tc main_arg8) := by
  after_results_simp
set_option maxHeartbeats 4000000 in
theorem hostOps3_keeps_main_arg9 (V : Valuation τ sig (Elt F)) :
    StableHlo.after (hostOps3 (F := F)) V (Proc.devRef .tc main_arg9) = V (Proc.devRef .tc main_arg9) := by
  after_results_simp
set_option maxHeartbeats 4000000 in
theorem hostOps3_keeps_main_arg10 (V : Valuation τ sig (Elt F)) :
    StableHlo.after (hostOps3 (F := F)) V (Proc.devRef .tc main_arg10) = V (Proc.devRef .tc main_arg10) := by
  after_results_simp

end Cert.Kernel.Hand

end
-- ==== Proof.K.Run.lean ====
/-
  The run of the program's @main: ten items in order — five stretches of host operations, the first combine
  region, a stretch of host operations, the second combine region, the pooling region, and a last stretch.
  Between two items every unscoped buffer of a core holds a definite array, named here by a fold from the
  launch memory: a host stretch maps the buffers through its operations, a region replaces the arrays its
  windows write back by what its grid leaves in them and keeps every other buffer. The launch theorem for a
  sequence of host segments and kernel regions then says that every weakly fair execution terminates without
  a fault in a memory that holds, at every unscoped buffer, the last array of the fold. No host operation
  and no write-back touches an argument, so the arguments are read back through the fold unchanged.
-/
import proofs.«178208_j6545530159343_2_alg».proof.Proof.K.Combine
import proofs.«178208_j6545530159343_2_alg».proof.Proof.K.Pool
import proofs.«178208_j6545530159343_2_alg».proof.Proof.K.HostKeeps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays between the items -/

/-- A core's buffers at launch. -/
abbrev W0 : Dev nD → Valuation τ sig (Elt F) := fun c b => (s₀ m ρ).mem ((c : Dev nD), b)
/-- After each of the five host stretches before the first region. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- The same read at the TensorCore's references: what the first combine region finds. -/
abbrev V5 : (c : Dev nD) → (b : Ref sig .tc) → Buf (Elt F) ((c : Thread nD τ).loc b) := fun c b => W5 m ρ c b
/-- After the first combine region: its windows' arrays at what the grid leaves, every other buffer kept. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host stretch between the two combine regions. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- After the second combine region. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the pooling region, entered straight from the second combine region's exit. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After the last host stretch: what the final memory holds. -/
abbrev W10 : Dev nD → Valuation τ sig (Elt F) := fun c => StableHlo.after hostOps3 (W9 m ρ c)

/-! ## No item writes an argument -/

/-- `main_arg0` reaches the end as launched: no host operation writes it and it is no window's array. -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := hostOps3_keeps_main_arg0 _
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := hostOps1_keeps_main_arg0 _
    _ = W5 m ρ c (Proc.devRef .tc main_arg0) := W6_of_ne m ρ c main_arg0 (by decide)
    _ = W4 m ρ c (Proc.devRef .tc main_arg0) := hostOps0_4_keeps_main_arg0 _
    _ = W3 m ρ c (Proc.devRef .tc main_arg0) := hostOps0_3_keeps_main_arg0 _
    _ = W2 m ρ c (Proc.devRef .tc main_arg0) := hostOps0_2_keeps_main_arg0 _
    _ = W1 m ρ c (Proc.devRef .tc main_arg0) := hostOps0_1_keeps_main_arg0 _
    _ = W0 m ρ c (Proc.devRef .tc main_arg0) := hostOps0_keeps_main_arg0 _
    _ = m ((c : Thread nD τ).loc main_arg0) := rfl
/-- `main_arg1` reaches the end as launched: no host operation writes it and it is no window's array. -/
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := hostOps3_keeps_main_arg1 _
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := hostOps1_keeps_main_arg1 _
    _ = W5 m ρ c (Proc.devRef .tc main_arg1) := W6_of_ne m ρ c main_arg1 (by decide)
    _ = W4 m ρ c (Proc.devRef .tc main_arg1) := hostOps0_4_keeps_main_arg1 _
    _ = W3 m ρ c (Proc.devRef .tc main_arg1) := hostOps0_3_keeps_main_arg1 _
    _ = W2 m ρ c (Proc.devRef .tc main_arg1) := hostOps0_2_keeps_main_arg1 _
    _ = W1 m ρ c (Proc.devRef .tc main_arg1) := hostOps0_1_keeps_main_arg1 _
    _ = W0 m ρ c (Proc.devRef .tc main_arg1) := hostOps0_keeps_main_arg1 _
    _ = m ((c : Thread nD τ).loc main_arg1) := rfl
/-- `main_arg2` reaches the end as launched: no host operation writes it and it is no window's array. -/
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := hostOps3_keeps_main_arg2 _
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := hostOps1_keeps_main_arg2 _
    _ = W5 m ρ c (Proc.devRef .tc main_arg2) := W6_of_ne m ρ c main_arg2 (by decide)
    _ = W4 m ρ c (Proc.devRef .tc main_arg2) := hostOps0_4_keeps_main_arg2 _
    _ = W3 m ρ c (Proc.devRef .tc main_arg2) := hostOps0_3_keeps_main_arg2 _
    _ = W2 m ρ c (Proc.devRef .tc main_arg2) := hostOps0_2_keeps_main_arg2 _
    _ = W1 m ρ c (Proc.devRef .tc main_arg2) := hostOps0_1_keeps_main_arg2 _
    _ = W0 m ρ c (Proc.devRef .tc main_arg2) := hostOps0_keeps_main_arg2 _
    _ = m ((c : Thread nD τ).loc main_arg2) := rfl
/-- `main_arg3` reaches the end as launched: no host operation writes it and it is no window's array. -/
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := hostOps3_keeps_main_arg3 _
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := hostOps1_keeps_main_arg3 _
    _ = W5 m ρ c (Proc.devRef .tc main_arg3) := W6_of_ne m ρ c main_arg3 (by decide)
    _ = W4 m ρ c (Proc.devRef .tc main_arg3) := hostOps0_4_keeps_main_arg3 _
    _ = W3 m ρ c (Proc.devRef .tc main_arg3) := hostOps0_3_keeps_main_arg3 _
    _ = W2 m ρ c (Proc.devRef .tc main_arg3) := hostOps0_2_keeps_main_arg3 _
    _ = W1 m ρ c (Proc.devRef .tc main_arg3) := hostOps0_1_keeps_main_arg3 _
    _ = W0 m ρ c (Proc.devRef .tc main_arg3) := hostOps0_keeps_main_arg3 _
    _ = m ((c : Thread nD τ).loc main_arg3) := rfl
/-- `main_arg4` reaches the end as launched: no host operation writes it and it is no window's array. -/
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := hostOps3_keeps_main_arg4 _
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := hostOps1_keeps_main_arg4 _
    _ = W5 m ρ c (Proc.devRef .tc main_arg4) := W6_of_ne m ρ c main_arg4 (by decide)
    _ = W4 m ρ c (Proc.devRef .tc main_arg4) := hostOps0_4_keeps_main_arg4 _
    _ = W3 m ρ c (Proc.devRef .tc main_arg4) := hostOps0_3_keeps_main_arg4 _
    _ = W2 m ρ c (Proc.devRef .tc main_arg4) := hostOps0_2_keeps_main_arg4 _
    _ = W1 m ρ c (Proc.devRef .tc main_arg4) := hostOps0_1_keeps_main_arg4 _
    _ = W0 m ρ c (Proc.devRef .tc main_arg4) := hostOps0_keeps_main_arg4 _
    _ = m ((c : Thread nD τ).loc main_arg4) := rfl
/-- `main_arg5` reaches the end as launched: no host operation writes it and it is no window's array. -/
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := hostOps3_keeps_main_arg5 _
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := hostOps1_keeps_main_arg5 _
    _ = W5 m ρ c (Proc.devRef .tc main_arg5) := W6_of_ne m ρ c main_arg5 (by decide)
    _ = W4 m ρ c (Proc.devRef .tc main_arg5) := hostOps0_4_keeps_main_arg5 _
    _ = W3 m ρ c (Proc.devRef .tc main_arg5) := hostOps0_3_keeps_main_arg5 _
    _ = W2 m ρ c (Proc.devRef .tc main_arg5) := hostOps0_2_keeps_main_arg5 _
    _ = W1 m ρ c (Proc.devRef .tc main_arg5) := hostOps0_1_keeps_main_arg5 _
    _ = W0 m ρ c (Proc.devRef .tc main_arg5) := hostOps0_keeps_main_arg5 _
    _ = m ((c : Thread nD τ).loc main_arg5) := rfl
/-- `main_arg6` reaches the end as launched: no host operation writes it and it is no window's array. -/
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := hostOps3_keeps_main_arg6 _
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := hostOps1_keeps_main_arg6 _
    _ = W5 m ρ c (Proc.devRef .tc main_arg6) := W6_of_ne m ρ c main_arg6 (by decide)
    _ = W4 m ρ c (Proc.devRef .tc main_arg6) := hostOps0_4_keeps_main_arg6 _
    _ = W3 m ρ c (Proc.devRef .tc main_arg6) := hostOps0_3_keeps_main_arg6 _
    _ = W2 m ρ c (Proc.devRef .tc main_arg6) := hostOps0_2_keeps_main_arg6 _
    _ = W1 m ρ c (Proc.devRef .tc main_arg6) := hostOps0_1_keeps_main_arg6 _
    _ = W0 m ρ c (Proc.devRef .tc main_arg6) := hostOps0_keeps_main_arg6 _
    _ = m ((c : Thread nD τ).loc main_arg6) := rfl
/-- `main_arg7` reaches the end as launched: no host operation writes it and it is no window's array. -/
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := hostOps3_keeps_main_arg7 _
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := hostOps1_keeps_main_arg7 _
    _ = W5 m ρ c (Proc.devRef .tc main_arg7) := W6_of_ne m ρ c main_arg7 (by decide)
    _ = W4 m ρ c (Proc.devRef .tc main_arg7) := hostOps0_4_keeps_main_arg7 _
    _ = W3 m ρ c (Proc.devRef .tc main_arg7) := hostOps0_3_keeps_main_arg7 _
    _ = W2 m ρ c (Proc.devRef .tc main_arg7) := hostOps0_2_keeps_main_arg7 _
    _ = W1 m ρ c (Proc.devRef .tc main_arg7) := hostOps0_1_keeps_main_arg7 _
    _ = W0 m ρ c (Proc.devRef .tc main_arg7) := hostOps0_keeps_main_arg7 _
    _ = m ((c : Thread nD τ).loc main_arg7) := rfl
/-- `main_arg8` reaches the end as launched: no host operation writes it and it is no window's array. -/
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := hostOps3_keeps_main_arg8 _
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := hostOps1_keeps_main_arg8 _
    _ = W5 m ρ c (Proc.devRef .tc main_arg8) := W6_of_ne m ρ c main_arg8 (by decide)
    _ = W4 m ρ c (Proc.devRef .tc main_arg8) := hostOps0_4_keeps_main_arg8 _
    _ = W3 m ρ c (Proc.devRef .tc main_arg8) := hostOps0_3_keeps_main_arg8 _
    _ = W2 m ρ c (Proc.devRef .tc main_arg8) := hostOps0_2_keeps_main_arg8 _
    _ = W1 m ρ c (Proc.devRef .tc main_arg8) := hostOps0_1_keeps_main_arg8 _
    _ = W0 m ρ c (Proc.devRef .tc main_arg8) := hostOps0_keeps_main_arg8 _
    _ = m ((c : Thread nD τ).loc main_arg8) := rfl
/-- `main_arg9` reaches the end as launched: no host operation writes it and it is no window's array. -/
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := hostOps3_keeps_main_arg9 _
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := hostOps1_keeps_main_arg9 _
    _ = W5 m ρ c (Proc.devRef .tc main_arg9) := W6_of_ne m ρ c main_arg9 (by decide)
    _ = W4 m ρ c (Proc.devRef .tc main_arg9) := hostOps0_4_keeps_main_arg9 _
    _ = W3 m ρ c (Proc.devRef .tc main_arg9) := hostOps0_3_keeps_main_arg9 _
    _ = W2 m ρ c (Proc.devRef .tc main_arg9) := hostOps0_2_keeps_main_arg9 _
    _ = W1 m ρ c (Proc.devRef .tc main_arg9) := hostOps0_1_keeps_main_arg9 _
    _ = W0 m ρ c (Proc.devRef .tc main_arg9) := hostOps0_keeps_main_arg9 _
    _ = m ((c : Thread nD τ).loc main_arg9) := rfl
/-- `main_arg10` reaches the end as launched: no host operation writes it and it is no window's array. -/
theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := hostOps3_keeps_main_arg10 _
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := hostOps1_keeps_main_arg10 _
    _ = W5 m ρ c (Proc.devRef .tc main_arg10) := W6_of_ne m ρ c main_arg10 (by decide)
    _ = W4 m ρ c (Proc.devRef .tc main_arg10) := hostOps0_4_keeps_main_arg10 _
    _ = W3 m ρ c (Proc.devRef .tc main_arg10) := hostOps0_3_keeps_main_arg10 _
    _ = W2 m ρ c (Proc.devRef .tc main_arg10) := hostOps0_2_keeps_main_arg10 _
    _ = W1 m ρ c (Proc.devRef .tc main_arg10) := hostOps0_1_keeps_main_arg10 _
    _ = W0 m ρ c (Proc.devRef .tc main_arg10) := hostOps0_keeps_main_arg10 _
    _ = m ((c : Thread nD τ).loc main_arg10) := rfl

/-! ## The proof data of the three regions and the thread state -/

/-- No pipeline has a prefetched table. -/
abbrev adm : (p : Fin 3) → (pcfgs (F := F) p).Adm := fun p => (cfgs p).toPCfg_adm
/-- Each pipeline's proof data at the arrays its region is entered with. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the arrays before it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at the array before it, left with
    every unscoped buffer at the array after it. Its windows' arrays are split out of the unscoped buffers at
    entry and put back, at what the grid leaves in them, at exit; the generator register passes through the
    region's invariant; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the array before it, left with
    every unscoped buffer at the array after it. Its windows' arrays are split out of the unscoped buffers at
    entry and put back, at what the grid leaves in them, at exit; the generator register passes through the
    region's invariant; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the array before it, left with
    every unscoped buffer at the array after it. Its windows' arrays are split out of the unscoped buffers at
    entry and put back, at what the grid leaves in them, at exit; the generator register passes through the
    region's invariant; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (V8 m ρ) c
  hout c := hout2 (V8 m ρ) c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .region (reg2 m ρ),
    .host (hseg hostOps3 hostOps3_sub hostOps3_fresh (W9 m ρ)) ]
/-- @main is the run of the segments. -/
theorem main_run (c : Dev nD) : main (F := F) c = Pipeline.Seg.run (segs m ρ) := (main_chain c).trans (by chain_rfl)

set_option backward.isDefEq.respectTransparency.types false in
/-- Every weakly fair execution of @main from the memory `m` with zero counters terminates, faults nowhere, and
    ends in a memory that holds at every unscoped buffer of every core the last array of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W10 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c)⟩) (run_main m ρ)

end Cert.Kernel.Hand

end
-- ==== Proof.KI.Combine.lean ====
import proofs.«178208_j6545530159343_2_alg».proof.Proof.Gen.KernelIdeal.Launch
import proofs.«178208_j6545530159343_2_alg».proof.Proof.Gen.KernelIdeal.Skeleton
import proofs.«178208_j6545530159343_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The two combine kernels, point by point

Regions 0 and 1 of @main run the same kernel on a grid of 20 points. At each point the body loads four
row blocks `[5000,64]`, four whole weight matrices `[64,64]` and a bias row `[1,64]`, and stores
`max (Σₖ bf16(xₖ) · bf16(Wₖ) + b) 0` over the whole output block. Everything here is stated at a parameter
`V`, the core's buffer contents when the region is entered:

* the block each window shows at a point (`iblkK`);
* what an input window's staging buffer holds before the body: its block, whether the pipeline fetched it
  at that point or not (a weight or the bias is fetched at the first point only, and its block index never
  moves afterwards);
* what the one store leaves in the output's staging buffer, as a function of the nine input blocks
  (`outK_9`);
* the body's triple, the proof data and the body obligation of the launch theorem.
-/

-- membership in a rectangle of 5000 rows: the structural look recurses once per coordinate of the long axis
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The rectangles the body reads and writes: each is the whole of its buffer -/

/-- The whole of a `[5000,64]` buffer. -/
abbrev rRows : Rect S5000x64 := Rect.unit (s := S5000x64) ![0, 0] S5000x64.size inb_S5000x64_S5000x64_0_0
/-- The whole of a `[64,64]` buffer. -/
abbrev rMat : Rect S64x64 := Rect.unit (s := S64x64) ![0, 0] S64x64.size inb_S64x64_S64x64_0_0
/-- The whole of a `[1,64]` buffer. -/
abbrev rBias : Rect S1x64 := Rect.unit (s := S1x64) ![0, 0] S1x64.size inb_S1x64_S1x64_0_0

/-- One store through the whole rectangle covers the buffer (checked by evaluation: one block, at offset 0). -/
theorem cover_rows (p0 : rRows.shape.Idx → Elt F .f32) (y : S5000x64.Idx) :
    ∃ pc ∈ ([⟨rRows, p0⟩] : List (View.Piece (Elt F) S5000x64 .f32)), y ∈ pc.1.set :=
  View.cover_of_tiled [⟨rRows, p0⟩] S5000x64.size (by rfl) y

section Regions
-- the TensorCore's buffer contents when a region is entered
variable (V : (c : Dev nD) → (b : Ref sig .tc) → Buf (Elt F) ((c : Thread nD τ).loc b))

/-! # Region 0 of @main: `cc0__combine_kernel` (pipeline 0), at the entry contents `V` -/

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body finds in each input window's buffer

For any proof data whose array is `V`'s and whose body leaves the block in place, an input window's current staging
buffer holds the window's block at every point. Where the pipeline fetched it this is the fetch; where it did not
(windows 4 to 8 after the first point) the block index has not moved since the point before, so the buffer still holds
the same block. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)

theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)

/-! ## What the body leaves in the output window's buffer -/

/-- Window 9's staging buffer after the body, from the nine input blocks: the one store, through the whole rectangle,
    of `max (x0·W4 + x1·W5 + x2·W6 + x3·W7 + bias) 0` in the skeleton's payloads. -/
def out0_9 (x0 x1 x2 x3 : Vec F S5000x64 .f32) (x4 x5 x6 x7 : Vec F S64x64 .f32) (x8 : Vec F S1x64 .f32) : Vec F S5000x64 .f32 :=
  View.canon [⟨rRows, k0_pay1 (k0_pay2 (View.ld x0 rRows) (View.ld x4 rMat) (View.ld x1 rRows) (View.ld x5 rMat) (View.ld x2 rRows) (View.ld x6 rMat) (View.ld x3 rRows) (View.ld x7 rMat) (View.ld x8 rBias)) (k0_pay3 (F := F))⟩]

/-! ## The body's triple -/

set_option maxHeartbeats 4000000 in
/-- The kernel body on whole staging memrefs, the inputs' at read contents `xW` and the output's at anything, runs to the
    continuation holding the inputs' as they were and the output's at `out0_9` of the inputs. The body also loads the
    output's buffer once before storing; the value is not used, so any contents serve. -/
theorem sound_kernel0 (c : Dev nD) (E : Set ℕ) (i : grid0.Coords)
    (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S5000x64 .f32) (harg9 : arg9.IsWhole)
    (x0 x1 x2 x3 : Vec F S5000x64 .f32) (x4 x5 x6 x7 : Vec F S64x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out0_9 x0 x1 x2 x3 x4 x5 x6 x7 x8)) -∗ K ⟨⟩))
      ⊢ wp frame (wpE (defs₀ (F := F)) Variants.none c none) E (cc0__combine_kernel i arg0 harg0 arg1 harg1 arg2 harg2 arg3 harg3 arg4 harg4 arg5 harg5 arg6 harg6 arg7 harg7 arg8 harg8 arg9 harg9) K := by
  simp only [cc0__combine_kernel_eq_skeleton]; unfold cc0__combine_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_rows _)

/-! ## The pipeline's proof data -/

/-- The proof data of pipeline 0 on core `c`: the arrays as the region finds them (`V`); after the body at point `t`
    each input's buffer at its block and the output's at `out0_9` of the input blocks; the invariant is the scoped rest
    and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => out0_9 (iblk0 V c 0 t) (iblk0 V c 1 t) (iblk0 V c 2 t) (iblk0 V c 3 t) (iblk0 V c 4 t) (iblk0 V c 5 t) (iblk0 V c 6 t) (iblk0 V c 7 t) (iblk0 V c 8 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) (iblk0 V c 8 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d

/-! ## The body obligation, at a generic point -/

/-- What the body is called with at point `t`: the invariant, the core's dues, and the ten windows' current buffers, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 4000000 in
/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation0 (c : Dev nD) : BodyObligation (dat0 (F := F) V c) (defs₀ (F := F)) Variants.none () Set.univ := fun t => by
  rw [bigSep_W0, bigSep_W0]
  exact sound_body0 V c t

/-! # Region 1 of @main: `cc1__combine_kernel` (pipeline 1), at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## What the body finds in each input window's buffer

For any proof data whose array is `V`'s and whose body leaves the block in place, an input window's current staging
buffer holds the window's block at every point. Where the pipeline fetched it this is the fetch; where it did not
(windows 4 to 8 after the first point) the block index has not moved since the point before, so the buffer still holds
the same block. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

/-- Window 9's staging buffer after the body, from the nine input blocks: the one store, through the whole rectangle,
    of `max (x0·W4 + x1·W5 + x2·W6 + x3·W7 + bias) 0` in the skeleton's payloads. -/
def out1_9 (x0 x1 x2 x3 : Vec F S5000x64 .f32) (x4 x5 x6 x7 : Vec F S64x64 .f32) (x8 : Vec F S1x64 .f32) : Vec F S5000x64 .f32 :=
  View.canon [⟨rRows, k1_pay1 (k1_pay2 (View.ld x0 rRows) (View.ld x4 rMat) (View.ld x1 rRows) (View.ld x5 rMat) (View.ld x2 rRows) (View.ld x6 rMat) (View.ld x3 rRows) (View.ld x7 rMat) (View.ld x8 rBias)) (k1_pay3 (F := F))⟩]

/-! ## The body's triple -/

set_option maxHeartbeats 4000000 in
/-- The kernel body on whole staging memrefs, the inputs' at read contents `xW` and the output's at anything, runs to the
    continuation holding the inputs' as they were and the output's at `out1_9` of the inputs. The body also loads the
    output's buffer once before storing; the value is not used, so any contents serve. -/
theorem sound_kernel1 (c : Dev nD) (E : Set ℕ) (i : grid1.Coords)
    (arg0 : Memref sig .tc .vmem S5000x64 .f32) (harg0 : arg0.IsWhole) (arg1 : Memref sig .tc .vmem S5000x64 .f32) (harg1 : arg1.IsWhole) (arg2 : Memref sig .tc .vmem S5000x64 .f32) (harg2 : arg2.IsWhole) (arg3 : Memref sig .tc .vmem S5000x64 .f32) (harg3 : arg3.IsWhole) (arg4 : Memref sig .tc .vmem S64x64 .f32) (harg4 : arg4.IsWhole) (arg5 : Memref sig .tc .vmem S64x64 .f32) (harg5 : arg5.IsWhole) (arg6 : Memref sig .tc .vmem S64x64 .f32) (harg6 : arg6.IsWhole) (arg7 : Memref sig .tc .vmem S64x64 .f32) (harg7 : arg7.IsWhole) (arg8 : Memref sig .tc .vmem S1x64 .f32) (harg8 : arg8.IsWhole) (arg9 : Memref sig .tc .vmem S5000x64 .f32) (harg9 : arg9.IsWhole)
    (x0 x1 x2 x3 : Vec F S5000x64 .f32) (x4 x5 x6 x7 : Vec F S64x64 .f32) (x8 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (out1_9 x0 x1 x2 x3 x4 x5 x6 x7 x8)) -∗ K ⟨⟩))
      ⊢ wp frame (wpE (defs₀ (F := F)) Variants.none c none) E (cc1__combine_kernel i arg0 harg0 arg1 harg1 arg2 harg2 arg3 harg3 arg4 harg4 arg5 harg5 arg6 harg6 arg7 harg7 arg8 harg8 arg9 harg9) K := by
  simp only [cc1__combine_kernel_eq_skeleton]; unfold cc1__combine_kernel_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
  subst hf0; subst hf1; subst hf2; subst hf3; subst hf4; subst hf5; subst hf6; subst hf7; subst hf8
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  iexists _; isplitr
  swap; · iexact H9
  ipureintro
  exact View.read_writes_eq_canon _ _ _ (cover_rows _)

/-! ## The pipeline's proof data -/

/-- The proof data of pipeline 1 on core `c`: the arrays as the region finds them (`V`); after the body at point `t`
    each input's buffer at its block and the output's at `out1_9` of the input blocks; the invariant is the scoped rest
    and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => out1_9 (iblk1 V c 0 t) (iblk1 V c 1 t) (iblk1 V c 2 t) (iblk1 V c 3 t) (iblk1 V c 4 t) (iblk1 V c 5 t) (iblk1 V c 6 t) (iblk1 V c 7 t) (iblk1 V c 8 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = out1_9 (iblk1 V c 0 t) (iblk1 V c 1 t) (iblk1 V c 2 t) (iblk1 V c 3 t) (iblk1 V c 4 t) (iblk1 V c 5 t) (iblk1 V c 6 t) (iblk1 V c 7 t) (iblk1 V c 8 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d

/-! ## The body obligation, at a generic point -/

/-- What the body is called with at point `t`: the invariant, the core's dues, and the ten windows' current buffers, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t))

set_option maxHeartbeats 4000000 in
/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel1 c Set.univ _ _ _ _ _ _ _ _ _ _ _ _ _ _ _ _ _ _ _ _ _ (iblk1 V c 0 t) (iblk1 V c 1 t) (iblk1 V c 2 t) (iblk1 V c 3 t) (iblk1 V c 4 t) (iblk1 V c 5 t) (iblk1 V c 6 t) (iblk1 V c 7 t) (iblk1 V c 8 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The launch theorem's body obligation, at every point. -/
theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Pool.lean ====
/-
  Region 2 of @main: the mean-pool kernel, at the buffer contents `V` the region is entered with.

  The kernel walks a grid of twenty points. At each point it adds the column sums of one [5000, 64] block of its input
  to a [1, 64] scratch that it CARRIES from point to point; at the first point it zeroes the scratch before adding, and
  at the last point it stores the scratch, scaled, into its [1, 64] output, which is written back there and nowhere
  else. So the scratch after `n` points is a recursion on `n` (`acc2`), the invariant between points holds the scratch
  at that value (at anything before the first point), and the body is run once per control case: the first point, a
  point strictly between, the last point.
-/
import proofs.«178208_j6545530159343_2_alg».proof.Proof.Gen.KernelIdeal.Launch
import proofs.«178208_j6545530159343_2_alg».proof.Proof.Gen.KernelIdeal.Skeleton
import proofs.«178208_j6545530159343_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The two conditions of the body, decided over the grid -/

/-- The condition of the first `scf.if`: the grid coordinate is zero. -/
abbrev cond2_0 (i : grid2.Coords) : Prop :=
  (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val = 0 :=
  (by decide +kernel : ∀ t : Fin grid2.N, cond2_0 (grid2.coords t) ↔ t.val = 0)

/-- The condition of the second `scf.if`: the grid coordinate is the last one. -/
abbrev cond2_1 (i : grid2.Coords) : Prop := k2_cond2 i = 1#1
/-- It holds at the last point only. -/
theorem hcond2_1 : ∀ t : Fin cfg2.N, cond2_1 (grid2.coords t) ↔ t.val = 19 :=
  (by decide +kernel : ∀ t : Fin grid2.N, cond2_1 (grid2.coords t) ↔ t.val = 19)

/-- The input window is never idle. -/
theorem liveAt2_0 : ∀ t : Fin cfg2.N, cfg2.idle 0 (grid2.coords t) = false := by decide +kernel
/-- Off the last point the output window is idle, -/
theorem idleAt2_1 : ∀ t : Fin cfg2.N, ¬cond2_1 (grid2.coords t) → cfg2.idle 1 (grid2.coords t) = true := by decide +kernel
/-- and is not written back; -/
theorem noFlush2_1 : ∀ t : Fin cfg2.N, ¬cond2_1 (grid2.coords t) → (cfg2.win 1).flush t = false := by decide +kernel
/-- at the last point it is live. -/
theorem liveAt2_1 : ∀ t : Fin cfg2.N, cond2_1 (grid2.coords t) → cfg2.idle 1 (grid2.coords t) = false := by decide +kernel

/-! ## The body's three control cases, on any whole memrefs

Every load and store of the body is through the rectangle that is the whole of its buffer, so a load reads the
contents and a store leaves its payload. -/

/-- The zero offsets of the body's rectangles. -/
theorem off0 : (![0, 0] : Fin 2 → Nat) = fun _ => 0 := by funext a; fin_cases a <;> rfl

/-- One store of `w` through the whole of a buffer, whatever was stored before, reads back as `w`. -/
theorem read_store_whole {S : Shape} {sp : Space} (v : View sig .tc sp S .f32) (f : v.ty.Contents (Elt F))
    {off : Fin S.rank → Nat} (h : off = fun _ => 0) (inb : ∀ a, off a + S.size a ≤ S.size a)
    (w : S.Idx → Elt F .f32) (L : List (View.Piece (Elt F) S .f32)) :
    v.read (Elt F) (v.writes (Elt F) f ((⟨Rect.unit off S.size inb, w⟩ : View.Piece (Elt F) S .f32) :: L)) = w := by
  rw [View.read_writes_eq_canon _ _ _ (fun y => ⟨_, List.mem_cons_self, View.mem_set_unit_zero h inb y⟩),
    View.canon_cons_unit_zero h]

/-- A load through the whole of a buffer reads its contents. -/
theorem load_whole {S : Shape} {sp : Space} (v : View sig .tc sp S .f32) (f : v.ty.Contents (Elt F))
    {off : Fin S.rank → Nat} (h : off = fun _ => 0) (inb : ∀ a, off a + S.size a ≤ S.size a) :
    v.readAt (Elt F) (Rect.unit off S.size inb).toLoadRect f = v.read (Elt F) f := by
  rw [View.readAt_eq_ld, View.ld_unit_zero h]

set_option maxHeartbeats 1000000 in
/-- A point that is neither the first nor the last: the scratch at `s` is left at `k2_pay2 s x`, the output buffer untouched. -/
theorem run2_mid (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (hc0 : ¬cond2_0 i) (hc1 : ¬cond2_1 i)
    (x : Vec F S5000x64 .f32) (s : Vec F S1x64 .f32) (K : PUnit → sProp 𝕄) :
    iprop(owns (c : Thread nD τ) arg1 fullShare x ∗ owns (c : Thread nD τ) arg3 fullShare s
        ∗ (iprop(owns (c : Thread nD τ) arg1 fullShare x ∗ owns (c : Thread nD τ) arg3 fullShare (k2_pay2 s x)) -∗ K ⟨⟩))
      ⊢ wp frame (wpE (defs₀ (F := F)) Variants.none c none) E (cc2__mean_pool_kernel i arg1 harg1 arg2 harg2 arg3 harg3) K := by
  simp only [cc2__mean_pool_kernel_eq_skeleton]; unfold cc2__mean_pool_kernel_skel
  unfold owns
  iintro ⟨⟨%f1, %hf1, H1⟩, ⟨%f3, %hf3, H3⟩, Hk⟩
  subst hf1; subst hf3
  sl_exec (disch := first | exact hc0 | exact hc1)
  sl_step
  iapply Hk
  isplitl [H1]
  · iexists f1; isplitr; · ipureintro; rfl
    iexact H1
  iexists _; isplitr
  swap; · iexact H3
  ipureintro
  rw [read_store_whole _ _ off0, load_whole _ _ off0, load_whole _ _ off0]

set_option maxHeartbeats 1000000 in
/-- The first point: the scratch, at anything, is zeroed (`k2_pay1`) and left at `k2_pay2 k2_pay1 x`. -/
theorem run2_first (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (hc0 : cond2_0 i) (hc1 : ¬cond2_1 i)
    (x : Vec F S5000x64 .f32) (K : PUnit → sProp 𝕄) :
    iprop(owns (c : Thread nD τ) arg1 fullShare x ∗ (∃ d, owns (c : Thread nD τ) arg3 fullShare d)
        ∗ (iprop(owns (c : Thread nD τ) arg1 fullShare x ∗ owns (c : Thread nD τ) arg3 fullShare (k2_pay2 (k2_pay1 (F := F)) x)) -∗ K ⟨⟩))
      ⊢ wp frame (wpE (defs₀ (F := F)) Variants.none c none) E (cc2__mean_pool_kernel i arg1 harg1 arg2 harg2 arg3 harg3) K := by
  simp only [cc2__mean_pool_kernel_eq_skeleton]; unfold cc2__mean_pool_kernel_skel
  unfold owns
  iintro ⟨⟨%f1, %hf1, H1⟩, ⟨%d3, %f3, -, H3⟩, Hk⟩
  subst hf1
  sl_exec (disch := first | exact hc0 | exact hc1)
  sl_step
  iapply Hk
  isplitl [H1]
  · iexists f1; isplitr; · ipureintro; rfl
    iexact H1
  iexists _; isplitr
  swap; · iexact H3
  ipureintro
  sl_unfold_run_names
  first
    | rw [read_store_whole _ _ off0, View.readCov_unit_zero _ off0, load_whole _ _ off0]
    | (fail "first: pure goal")

set_option maxHeartbeats 1000000 in
/-- The last point: the scratch at `s` is left at `k2_pay2 s x` and the output buffer, at anything, at `k2_pay3` of that. -/
theorem run2_last (c : Dev nD) (E : Set ℕ) (i : grid2.Coords)
    (arg1 : Memref sig .tc .vmem S5000x64 .f32) (harg1 : arg1.IsWhole) (arg2 : Memref sig .tc .vmem S1x64 .f32) (harg2 : arg2.IsWhole)
    (arg3 : Memref sig .tc .vmem S1x64 .f32) (harg3 : arg3.IsWhole) (hc0 : ¬cond2_0 i) (hc1 : cond2_1 i)
    (x : Vec F S5000x64 .f32) (s : Vec F S1x64 .f32) (K : PUnit → sProp 𝕄) :
    iprop(owns (c : Thread nD τ) arg1 fullShare x ∗ owns (c : Thread nD τ) arg3 fullShare s ∗ (∃ d, owns (c : Thread nD τ) arg2 fullShare d)
        ∗ (iprop(owns (c : Thread nD τ) arg1 fullShare x ∗ owns (c : Thread nD τ) arg3 fullShare (k2_pay2 s x)
            ∗ owns (c : Thread nD τ) arg2 fullShare (k2_pay3 (k2_pay2 s x))) -∗ K ⟨⟩))
      ⊢ wp frame (wpE (defs₀ (F := F)) Variants.none c none) E (cc2__mean_pool_kernel i arg1 harg1 arg2 harg2 arg3 harg3) K := by
  simp only [cc2__mean_pool_kernel_eq_skeleton]; unfold cc2__mean_pool_kernel_skel
  unfold owns
  iintro ⟨⟨%f1, %hf1, H1⟩, ⟨%f3, %hf3, H3⟩, ⟨%d2, %f2, -, H2⟩, Hk⟩
  subst hf1; subst hf3
  sl_exec (disch := first | exact hc0 | exact hc1)
  sl_step
  iapply Hk
  isplitl [H1]
  · iexists f1; isplitr; · ipureintro; rfl
    iexact H1
  isplitl [H3]
  · iexists _; isplitr
    swap; · iexact H3
    ipureintro
    sl_unfold_run_names
    first
      | rw [read_store_whole _ _ off0, load_whole _ _ off0, load_whole _ _ off0]
      | (fail "last: scratch pure goal")
  iexists _; isplitr
  swap; · iexact H2
  ipureintro
  sl_unfold_run_names
  first
    | rw [read_store_whole _ _ off0, View.readCov_unit_zero _ off0, load_whole _ _ off0, load_whole _ _ off0]
    | (fail "last: output pure goal")

/-! ## The scratch and what rides beside it -/

/-- The carried scratch operand, the whole of its scoped buffer. -/
abbrev scM2 : Memref sig .tc .vmem S1x64 .f32 := Memref.whole cc2_scratch0

/-- What the region's invariant carries beside the scratch: every other scoped buffer that is no staging buffer of
    this call, at some contents each, and the generator register at some state. The body uses neither. -/
def rest2 (c : Dev nD) : sProp 𝕄 :=
  iprop(Pipeline.scopedRestBut (Ix := Unit) (Name := ℕ) (U := UR sig nD τ) (Lvl := ℕ) (Val := Elt F) spec2 c [cc2_scratch0]
    ∗ ∃ r, prngReg c r)

section Region

-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The input window's current staging buffer holds its block at every point, fetched there or not, for any proof data
    whose array is `V`'s and whose body leaves the block in place: the window is an input, never idle, its blocks tile
    the array. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t := by
  have hkeep : ∀ t, (cfg2.win 0).cut (cfg2.grid.coords t) (dat.after 0 t) = dat.blockOf 0 t := fun t => by
    rw [hafter]; unfold Dat.blockOf iblk2; rw [hA]; try rfl
  rw [dat.before_in_eq_fetched 0 rfl (fun _ => rfl) (fun _ _ _ => rfl) hkeep t d]
  unfold Dat.fetched Dat.blockOf iblk2; rw [hA]; try rfl

/-! ## The running sum -/

/-- A position of the grid from any number (the grid has twenty points). -/
theorem pt2_lt (n : ℕ) : n % 20 < cfg2.N := by
  rw [show cfg2.N = 20 from N_2]; exact Nat.mod_lt _ (by decide)

/-- The input's block at position `n` of the grid (past the grid the positions wrap around, so that the recursion below
    is total; no point reads there). -/
def blkAt2 (c : Dev nD) (n : ℕ) : Vec F S5000x64 .f32 := iblk2 V c 0 ⟨n % 20, pt2_lt n⟩

theorem blkAt2_val (c : Dev nD) (t : Fin cfg2.N) : blkAt2 V c t.val = iblk2 V c 0 t := by
  have hN : t.val < 20 := lt_of_lt_of_eq t.isLt (show cfg2.N = 20 from N_2)
  have e : (⟨t.val % 20, pt2_lt t.val⟩ : Fin cfg2.N) = t := Fin.ext (Nat.mod_eq_of_lt hN)
  unfold blkAt2; rw [e]

/-- THE ACCUMULATION. What the scratch holds after `n` points: zeros (the first point's reset) plus the column sums of
    blocks `0 … n - 1`, added one block at a time in the order of the grid. Position `0` is the reset value: the first
    point stores it before it reads the scratch, so what the scratch held at entry is never read. -/
def acc2 (c : Dev nD) : ℕ → Vec F S1x64 .f32
  | 0 => k2_pay1
  | n + 1 => k2_pay2 (acc2 c n) (blkAt2 V c n)

theorem acc2_zero (c : Dev nD) : acc2 V c 0 = k2_pay1 := rfl
theorem acc2_succ (c : Dev nD) (n : ℕ) : acc2 V c (n + 1) = k2_pay2 (acc2 V c n) (blkAt2 V c n) := rfl
theorem acc2_of_eq_zero (c : Dev nD) (n : ℕ) (h : n = 0) : acc2 V c n = k2_pay1 := by subst h; rfl
/-- After point `t`: what was there before it, plus block `t`'s column sums. -/
theorem acc2_at (c : Dev nD) (t : Fin cfg2.N) : acc2 V c (t.val + 1) = k2_pay2 (acc2 V c t.val) (iblk2 V c 0 t) := by
  rw [acc2_succ, blkAt2_val]
/-- After the last point: all twenty blocks. -/
theorem acc2_last (c : Dev nD) (t : Fin cfg2.N) (h : t.val = 19) : acc2 V c 20 = k2_pay2 (acc2 V c t.val) (iblk2 V c 0 t) := by
  rw [← acc2_at, h]

/-! ## The invariant -/

/-- The region's invariant before position `n`: before the first point the scratch at anything (what the launch hands
    over), afterwards at the running sum of the points before; beside it, untouched, the other scoped buffers and the
    generator register. -/
def Phi2 (c : Dev nD) : ℕ → sProp 𝕄
  | 0 => iprop((∃ d, owns (c : Thread nD τ) scM2 fullShare d) ∗ rest2 c)
  | n + 1 => iprop(owns (c : Thread nD τ) scM2 fullShare (acc2 V c (n + 1)) ∗ rest2 c)

theorem Phi2_of_eq_zero (c : Dev nD) (n : ℕ) (h : n = 0) :
    Phi2 V c n = iprop((∃ d, owns (c : Thread nD τ) scM2 fullShare d) ∗ rest2 c) := by subst h; rfl
theorem Phi2_succ (c : Dev nD) (n : ℕ) :
    Phi2 V c (n + 1) = iprop(owns (c : Thread nD τ) scM2 fullShare (acc2 V c (n + 1)) ∗ rest2 c) := rfl
theorem Phi2_pos (c : Dev nD) (n : ℕ) (h : n ≠ 0) :
    Phi2 V c n = iprop(owns (c : Thread nD τ) scM2 fullShare (acc2 V c n) ∗ rest2 c) := by
  cases n with
  | zero => exact absurd rfl h
  | succ n => rfl

/-! ## The pipeline's proof data -/

/-- The proof data of the mean-pool pipeline on core `c`: the arrays as the region finds them (`V`); after the body at
    point `t` the input's buffer at its block and the output's at the scaled total `k2_pay3 (acc2 … 20)` — stored at the
    last point only; at the others the window is idle and the obligation asks its buffer back as found, so the value
    stated there is not read —; the invariant `Phi2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => k2_pay3 (acc2 V c 20)
  Φ t := Phi2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = k2_pay3 (acc2 V c 20) := by dsimp only [dat2]
/-- What the last point writes back: the total of the twenty blocks, scaled. -/
theorem after2_1_last (c : Dev nD) (t : Fin cfg2.N) (h : t.val = 19) : (dat2 V c).after 1 t = k2_pay3 (acc2 V c 20) :=
  after2_1 V c t

theorem before2_0 (c : Dev nD) (t : Fin cfg2.N) (d) : (dat2 V c).before 0 t d = iblk2 V c 0 t :=
  before2_0_of V (dat2 V c) (A_eq2 V c 0) (after2_0 V c) t d

theorem Phi2_castSucc (c : Dev nD) (t : Fin cfg2.N) : (dat2 V c).Φ t.castSucc = Phi2 V c t.val := by
  dsimp only [dat2]; simp only [Fin.coe_castSucc]
theorem Phi2_succ_pt (c : Dev nD) (t : Fin cfg2.N) : (dat2 V c).Φ t.succ = Phi2 V c (t.val + 1) := by
  dsimp only [dat2]; simp only [Fin.val_succ]

/-! ## The body obligation -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t)

set_option maxHeartbeats 2000000 in
/-- The body at any point, by the point's control case. The input's buffer holds its block; the invariant hands over the
    scratch — at anything at the first point, where the body resets it, at the running sum afterwards — and takes it back
    one block further; off the last point the output's buffer goes back as found (the window idle, not written back), at
    the last it is stored at the scaled total. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0]
  rw [show (dat2 V c).owesAt () t.succ = (dat2 V c).owesAt () t.castSucc from rfl]
  rw [Phi2_castSucc, Phi2_succ_pt, Phi2_succ, acc2_at]
  rw [show (dat2 V c).leavesExact 0 t = owns (c : Thread nD τ) (st2_0 t) fullShare ((dat2 V c).after 0 t) from by
    unfold Dat.leavesExact; rw [liveAt2_0 t], after2_0]
  have hN : t.val < 20 := lt_of_lt_of_eq t.isLt (show cfg2.N = 20 from N_2)
  by_cases h19 : t.val = 19
  · have hc1 : cond2_1 (grid2.coords t) := (hcond2_1 t).mpr h19
    have hc0 : ¬cond2_0 (grid2.coords t) := fun h => by have := (hcond2_0 t).mp h; omega
    rw [show (dat2 V c).leavesExact 1 t = owns (c : Thread nD τ) (st2_1 t) fullShare ((dat2 V c).after 1 t) from by
      unfold Dat.leavesExact; rw [liveAt2_1 t hc1], after2_1, acc2_last V c t h19]
    rw [Phi2_pos V c t.val (by omega)]
    iintro ⟨⟨HS, Hr⟩, Ho, ⟨%d0, H0⟩, ⟨%d1, H1⟩⟩
    iapply (run2_last c Set.univ _ _ _ _ _ _ _ hc0 hc1 (iblk2 V c 0 t) (acc2 V c t.val) _)
    isplitl [H0]; · iexact H0
    isplitl [HS]; · iexact HS
    isplitl [H1]; · iexists _; iexact H1
    iintro ⟨H0, HS, H1⟩
    isplitl [HS Hr]
    · isplitl [HS]; · iexact HS
      iexact Hr
    isplitl [Ho]; · iexact Ho
    isplitl [H0]; · iexact H0
    iexact H1
  · have hc1 : ¬cond2_1 (grid2.coords t) := fun h => h19 ((hcond2_1 t).mp h)
    rw [Dat.leavesExact_idle (dat2 V c) 1 t (idleAt2_1 t hc1) (noFlush2_1 t hc1)]
    by_cases h0 : t.val = 0
    · have hc0 : cond2_0 (grid2.coords t) := (hcond2_0 t).mpr h0
      rw [Phi2_of_eq_zero V c t.val h0, acc2_of_eq_zero V c t.val h0]
      iintro ⟨⟨HS, Hr⟩, Ho, ⟨%d0, H0⟩, ⟨%d1, H1⟩⟩
      iapply (run2_first c Set.univ _ _ _ _ _ _ _ hc0 hc1 (iblk2 V c 0 t) _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1
    · have hc0 : ¬cond2_0 (grid2.coords t) := fun h => h0 ((hcond2_0 t).mp h)
      rw [Phi2_pos V c t.val h0]
      iintro ⟨⟨HS, Hr⟩, Ho, ⟨%d0, H0⟩, ⟨%d1, H1⟩⟩
      iapply (run2_mid c Set.univ _ _ _ _ _ _ _ hc0 hc1 (iblk2 V c 0 t) (acc2 V c t.val) _)
      isplitl [H0]; · iexact H0
      isplitl [HS]; · iexact HS
      iintro ⟨H0, HS⟩
      isplitl [HS Hr]
      · isplitl [HS]; · iexact HS
        iexact Hr
      isplitl [Ho]; · iexact Ho
      isplitl [H0]; · iexact H0
      iexists _; iexact H1

/-- The body obligation, at every point. -/
theorem body_obligation2 (c : Dev nD) : BodyObligation (dat2 (F := F) V c) (defs₀ (F := F)) Variants.none () Set.univ := fun t => by
  rw [bigSep_W2, bigSep_W2]
  exact sound_body2 V c t

/-! ## Into the invariant and out of it -/

/-- ENTRY. The generator register and the call's scoped rest — the scratch at anything, split off the other scoped
    buffers — make the invariant before the first point; the call has no prefetched table. -/
theorem hin2 (c : Dev nD) :
    iprop((∃ r, prngReg c r)
        ∗ Pipeline.prefHeld (Ix := Unit) (Name := ℕ) (U := UR sig nD τ) (Lvl := ℕ) (pcfgs (F := F) 2).pre c (fun _ => fullShare) ((cfgs 2).toPCfg_adm (Val := Elt F)).1
        ∗ Pipeline.scopedRest (Ix := Unit) (Name := ℕ) (U := UR sig nD τ) (Lvl := ℕ) (Val := Elt F) spec2 c)
      ⊢ ((dat2 V c).Φ 0 : sProp 𝕄) := by
  rw [show (dat2 V c).Φ 0 = Phi2 V c 0 from rfl, Phi2_of_eq_zero V c 0 rfl, scopedRest2_split]
  unfold rest2
  simp only [scM2, owns_whole]
  iintro ⟨Hp, -, ⟨Hs, Hb⟩⟩
  isplitl [Hs]; · iexact Hs
  isplitl [Hb]; · iexact Hb
  iexact Hp

/-- EXIT. After the last point the invariant gives the register and the scoped rest back, the scratch's contents
    forgotten; the kernel has no semaphore of its own. -/
theorem hout2 (c : Dev nD) :
    ((dat2 V c).Φ (Fin.last cfg2.N) : sProp 𝕄)
      ⊢ iprop((∃ r, prngReg c r) ∗ Pipeline.ownSems0 (fun k : PEmpty => k.elim) c
          ∗ Pipeline.scopedRest (Ix := Unit) (Name := ℕ) (U := UR sig nD τ) (Lvl := ℕ) (Val := Elt F) spec2 c) := by
  rw [Pipeline.ownSems0_none, show (dat2 V c).Φ (Fin.last cfg2.N) = Phi2 V c cfg2.N from rfl,
    Phi2_pos V c cfg2.N (by rw [show cfg2.N = 20 from N_2]; decide), scopedRest2_split]
  unfold rest2
  simp only [scM2, owns_whole]
  iintro ⟨HS, Hb, Hp⟩
  isplitl [Hp]; · iexact Hp
  isplitr; · iempintro
  isplitl [HS]; · iexists _; iexact HS
  iexact Hb

end Region

end Cert.KernelIdeal.Hand

end
-- ==== Proof.KI.HostKeeps.lean ====
/-
  No host operation of @main writes an argument array, and none allocates a buffer: per stretch of host
  operations, each argument's buffer holds after the stretch what it held before it.
-/
import proofs.«178208_j6545530159343_2_alg».proof.Proof.Gen.KernelIdeal.Launch
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F] [Named F]

/-- No operation of this stretch allocates a buffer. -/
theorem hostOps0_fresh : (hostOps0 : List (HloOp τ sig (Elt F))).Forall fun op => op.fresh = ∅ := by
  simp only [List.Forall]; repeat' constructor
set_option maxHeartbeats 4000000 in
theorem hostOps0_keeps_main_arg0 (V : Valuation τ sig (Elt F)) :
    StableHlo.after (hostOps0 (F := F)) V (Proc.devRef .tc main_arg0) = V (Proc.devRef .tc main_arg0) := by
  after_results_simp
set_option maxHeartbeats 4000000 in
theorem hostOps0_keeps_main_arg1 (V : Valuation τ sig (Elt F)) :
    StableHlo.after (hostOps0 (F := F)) V (Proc.devRef .tc main_arg1) = V (Proc.devRef .tc main_arg1) := by
  after_results_simp
set_option maxHeartbeats 4000000 in
theorem hostOps0_keeps_main_arg2 (V : Valuation τ sig (Elt F)) :
    StableHlo.after (hostOps0 (F := F)) V (Proc.devRef .tc main_arg2) = V (Proc.devRef .tc main_arg2) := by
  after_results_simp
set_option maxHeartbeats 4000000 in
theorem hostOps0_keeps_main_arg3 (V : Valuation τ sig (Elt F)) :
    StableHlo.after (hostOps0 (F := F)) V (Proc.devRef .tc main_arg3) = V (Proc.devRef .tc main_arg3) := by
  after_results_simp
set_option maxHeartbeats 4000000 in
theorem hostOps0_keeps_main_arg4 (V : Valuation τ sig (Elt F)) :
    StableHlo.after (hostOps0 (F := F)) V (Proc.devRef .tc main_arg4) = V (Proc.devRef .tc main_arg4) := by
  after_results_simp
set_option maxHeartbeats 4000000 in
theorem hostOps0_keeps_main_arg5 (V : Valuation τ sig (Elt F)) :
    StableHlo.after (hostOps0 (F := F)) V (Proc.devRef .tc main_arg5) = V (Proc.devRef .tc main_arg5) := by
  after_results_simp
set_option maxHeartbeats 4000000 in
theorem hostOps0_keeps_main_arg6 (V : Valuation τ sig (Elt F)) :
    StableHlo.after (hostOps0 (F := F)) V (Proc.devRef .tc main_arg6) = V (Proc.devRef .tc main_arg6) := by
  after_results_simp
set_option maxHeartbeats 4000000 in
theorem hostOps0_keeps_main_arg7 (V : Valuation τ sig (Elt F)) :
    StableHlo.after (hostOps0 (F := F)) V (Proc.devRef .tc main_arg7) = V (Proc.devRef .tc main_arg7) := by
  after_results_simp
set_option maxHeartbeats 4000000 in
theorem hostOps0_keeps_main_arg8 (V : Valuation τ sig (Elt F)) :
    StableHlo.after (hostOps0 (F := F)) V (Proc.devRef .tc main_arg8) = V (Proc.devRef .tc main_arg8) := by
  after_results_simp
set_option maxHeartbeats 4000000 in
theorem hostOps0_keeps_main_arg9 (V : Valuation τ sig (Elt F)) :
    StableHlo.after (hostOps0 (F := F)) V (Proc.devRef .tc main_arg9) = V (Proc.devRef .tc main_arg9) := by
  after_results_simp
set_option maxHeartbeats 4000000 in
theorem hostOps0_keeps_main_arg10 (V : Valuation τ sig (Elt F)) :
    StableHlo.after (hostOps0 (F := F)) V (Proc.devRef .tc main_arg10) = V (Proc.devRef .tc main_arg10) := by
  after_results_simp
/-- No operation of this stretch allocates a buffer. -/
theorem hostOps0_1_fresh : (hostOps0_1 : List (HloOp τ sig (Elt F))).Forall fun op => op.fresh = ∅ := by
  simp only [List.Forall]; repeat' constructor
set_option maxHeartbeats 4000000 in
theorem hostOps0_1_keeps_main_arg0 (V : Valuation τ sig (Elt F)) :
    StableHlo.after (hostOps0_1 (F := F)) V (Proc.devRef .tc main_arg0) = V (Proc.devRef .tc main_arg0) := by
  after_results_simp
set_option maxHeartbeats 4000000 in
theorem hostOps0_1_keeps_main_arg1 (V : Valuation τ sig (Elt F)) :
    StableHlo.after (hostOps0_1 (F := F)) V (Proc.devRef .tc main_arg1) = V (Proc.devRef .tc main_arg1) := by
  after_results_simp
set_option maxHeartbeats 4000000 in
theorem hostOps0_1_keeps_main_arg2 (V : Valuation τ sig (Elt F)) :
    StableHlo.after (hostOps0_1 (F := F)) V (Proc.devRef .tc main_arg2) = V (Proc.devRef .tc main_arg2) := by
  after_results_simp
set_option maxHeartbeats 4000000 in
theorem hostOps0_1_keeps_main_arg3 (V : Valuation τ sig (Elt F)) :
    StableHlo.after (hostOps0_1 (F := F)) V (Proc.devRef .tc main_arg3) = V (Proc.devRef .tc main_arg3) := by
  after_results_simp
set_option maxHeartbeats 4000000 in
theorem hostOps0_1_keeps_main_arg4 (V : Valuation τ sig (Elt F)) :
    StableHlo.after (hostOps0_1 (F := F)) V (Proc.devRef .tc main_arg4) = V (Proc.devRef .tc main_arg4) := by
  after_results_simp
set_option maxHeartbeats 4000000 in
theorem hostOps0_1_keeps_main_arg5 (V : Valuation τ sig (Elt F)) :
    StableHlo.after (hostOps0_1 (F := F)) V (Proc.devRef .tc main_arg5) = V (Proc.devRef .tc main_arg5) := by
  after_results_simp
set_option maxHeartbeats 4000000 in
theorem hostOps0_1_keeps_main_arg6 (V : Valuation τ sig (Elt F)) :
    StableHlo.after (hostOps0_1 (F := F)) V (Proc.devRef .tc main_arg6) = V (Proc.devRef .tc main_arg6) := by
  after_results_simp
set_option maxHeartbeats 4000000 in
theorem hostOps0_1_keeps_main_arg7 (V : Valuation τ sig (Elt F)) :
    StableHlo.after (hostOps0_1 (F := F)) V (Proc.devRef .tc main_arg7) = V (Proc.devRef .tc main_arg7) := by
  after_results_simp
set_option maxHeartbeats 4000000 in
theorem hostOps0_1_keeps_main_arg8 (V : Valuation τ sig (Elt F)) :
    StableHlo.after (hostOps0_1 (F := F)) V (Proc.devRef .tc main_arg8) = V (Proc.devRef .tc main_arg8) := by
  after_results_simp
set_option maxHeartbeats 4000000 in
theorem hostOps0_1_keeps_main_arg9 (V : Valuation τ sig (Elt F)) :
    StableHlo.after (hostOps0_1 (F := F)) V (Proc.devRef .tc main_arg9) = V (Proc.devRef .tc main_arg9) := by
  after_results_simp
set_option maxHeartbeats 4000000 in
theorem hostOps0_1_keeps_main_arg10 (V : Valuation τ sig (Elt F)) :
    StableHlo.after (hostOps0_1 (F := F)) V (Proc.devRef .tc main_arg10) = V (Proc.devRef .tc main_arg10) := by
  after_results_simp
/-- No operation of this stretch allocates a buffer. -/
theorem hostOps0_2_fresh : (hostOps0_2 : List (HloOp τ sig (Elt F))).Forall fun op => op.fresh = ∅ := by
  simp only [List.Forall]; repeat' constructor
set_option maxHeartbeats 4000000 in
theorem hostOps0_2_keeps_main_arg0 (V : Valuation τ sig (Elt F)) :
    StableHlo.after (hostOps0_2 (F := F)) V (Proc.devRef .tc main_arg0) = V (Proc.devRef .tc main_arg0) := by
  after_results_simp
set_option maxHeartbeats 4000000 in
theorem hostOps0_2_keeps_main_arg1 (V : Valuation τ sig (Elt F)) :
    StableHlo.after (hostOps0_2 (F := F)) V (Proc.devRef .tc main_arg1) = V (Proc.devRef .tc main_arg1) := by
  after_results_simp
set_option maxHeartbeats 4000000 in
theorem hostOps0_2_keeps_main_arg2 (V : Valuation τ sig (Elt F)) :
    StableHlo.after (hostOps0_2 (F := F)) V (Proc.devRef .tc main_arg2) = V (Proc.devRef .tc main_arg2) := by
  after_results_simp
set_option maxHeartbeats 4000000 in
theorem hostOps0_2_keeps_main_arg3 (V : Valuation τ sig (Elt F)) :
    StableHlo.after (hostOps0_2 (F := F)) V (Proc.devRef .tc main_arg3) = V (Proc.devRef .tc main_arg3) := by
  after_results_simp
set_option maxHeartbeats 4000000 in
theorem hostOps0_2_keeps_main_arg4 (V : Valuation τ sig (Elt F)) :
    StableHlo.after (hostOps0_2 (F := F)) V (Proc.devRef .tc main_arg4) = V (Proc.devRef .tc main_arg4) := by
  after_results_simp
set_option maxHeartbeats 4000000 in
theorem hostOps0_2_keeps_main_arg5 (V : Valuation τ sig (Elt F)) :
    StableHlo.after (hostOps0_2 (F := F)) V (Proc.devRef .tc main_arg5) = V (Proc.devRef .tc main_arg5) := by
  after_results_simp
set_option maxHeartbeats 4000000 in
theorem hostOps0_2_keeps_main_arg6 (V : Valuation τ sig (Elt F)) :
    StableHlo.after (hostOps0_2 (F := F)) V (Proc.devRef .tc main_arg6) = V (Proc.devRef .tc main_arg6) := by
  after_results_simp
set_option maxHeartbeats 4000000 in
theorem hostOps0_2_keeps_main_arg7 (V : Valuation τ sig (Elt F)) :
    StableHlo.after (hostOps0_2 (F := F)) V (Proc.devRef .tc main_arg7) = V (Proc.devRef .tc main_arg7) := by
  after_results_simp
set_option maxHeartbeats 4000000 in
theorem hostOps0_2_keeps_main_arg8 (V : Valuation τ sig (Elt F)) :
    StableHlo.after (hostOps0_2 (F := F)) V (Proc.devRef .tc main_arg8) = V (Proc.devRef .tc main_arg8) := by
  after_results_simp
set_option maxHeartbeats 4000000 in
theorem hostOps0_2_keeps_main_arg9 (V : Valuation τ sig (Elt F)) :
    StableHlo.after (hostOps0_2 (F := F)) V (Proc.devRef .tc main_arg9) = V (Proc.devRef .tc main_arg9) := by
  after_results_simp
set_option maxHeartbeats 4000000 in
theorem hostOps0_2_keeps_main_arg10 (V : Valuation τ sig (Elt F)) :
    StableHlo.after (hostOps0_2 (F := F)) V (Proc.devRef .tc main_arg10) = V (Proc.devRef .tc main_arg10) := by
  after_results_simp
/-- No operation of this stretch allocates a buffer. -/
theorem hostOps0_3_fresh : (hostOps0_3 : List (HloOp τ sig (Elt F))).Forall fun op => op.fresh = ∅ := by
  simp only [List.Forall]; repeat' constructor
set_option maxHeartbeats 4000000 in
theorem hostOps0_3_keeps_main_arg0 (V : Valuation τ sig (Elt F)) :
    StableHlo.after (hostOps0_3 (F := F)) V (Proc.devRef .tc main_arg0) = V (Proc.devRef .tc main_arg0) := by
  after_results_simp
set_option maxHeartbeats 4000000 in
theorem hostOps0_3_keeps_main_arg1 (V : Valuation τ sig (Elt F)) :
    StableHlo.after (hostOps0_3 (F := F)) V (Proc.devRef .tc main_arg1) = V (Proc.devRef .tc main_arg1) := by
  after_results_simp
set_option maxHeartbeats 4000000 in
theorem hostOps0_3_keeps_main_arg2 (V : Valuation τ sig (Elt F)) :
    StableHlo.after (hostOps0_3 (F := F)) V (Proc.devRef .tc main_arg2) = V (Proc.devRef .tc main_arg2) := by
  after_results_simp
set_option maxHeartbeats 4000000 in
theorem hostOps0_3_keeps_main_arg3 (V : Valuation τ sig (Elt F)) :
    StableHlo.after (hostOps0_3 (F := F)) V (Proc.devRef .tc main_arg3) = V (Proc.devRef .tc main_arg3) := by
  after_results_simp
set_option maxHeartbeats 4000000 in
theorem hostOps0_3_keeps_main_arg4 (V : Valuation τ sig (Elt F)) :
    StableHlo.after (hostOps0_3 (F := F)) V (Proc.devRef .tc main_arg4) = V (Proc.devRef .tc main_arg4) := by
  after_results_simp
set_option maxHeartbeats 4000000 in
theorem hostOps0_3_keeps_main_arg5 (V : Valuation τ sig (Elt F)) :
    StableHlo.after (hostOps0_3 (F := F)) V (Proc.devRef .tc main_arg5) = V (Proc.devRef .tc main_arg5) := by
  after_results_simp
set_option maxHeartbeats 4000000 in
theorem hostOps0_3_keeps_main_arg6 (V : Valuation τ sig (Elt F)) :
    StableHlo.after (hostOps0_3 (F := F)) V (Proc.devRef .tc main_arg6) = V (Proc.devRef .tc main_arg6) := by
  after_results_simp
set_option maxHeartbeats 4000000 in
theorem hostOps0_3_keeps_main_arg7 (V : Valuation τ sig (Elt F)) :
    StableHlo.after (hostOps0_3 (F := F)) V (Proc.devRef .tc main_arg7) = V (Proc.devRef .tc main_arg7) := by
  after_results_simp
set_option maxHeartbeats 4000000 in
theorem hostOps0_3_keeps_main_arg8 (V : Valuation τ sig (Elt F)) :
    StableHlo.after (hostOps0_3 (F := F)) V (Proc.devRef .tc main_arg8) = V (Proc.devRef .tc main_arg8) := by
  after_results_simp
set_option maxHeartbeats 4000000 in
theorem hostOps0_3_keeps_main_arg9 (V : Valuation τ sig (Elt F)) :
    StableHlo.after (hostOps0_3 (F := F)) V (Proc.devRef .tc main_arg9) = V (Proc.devRef .tc main_arg9) := by
  after_results_simp
set_option maxHeartbeats 4000000 in
theorem hostOps0_3_keeps_main_arg10 (V : Valuation τ sig (Elt F)) :
    StableHlo.after (hostOps0_3 (F := F)) V (Proc.devRef .tc main_arg10) = V (Proc.devRef .tc main_arg10) := by
  after_results_simp
/-- No operation of this stretch allocates a buffer. -/
theorem hostOps0_4_fresh : (hostOps0_4 : List (HloOp τ sig (Elt F))).Forall fun op => op.fresh = ∅ := by
  simp only [List.Forall]; repeat' constructor
set_option maxHeartbeats 4000000 in
theorem hostOps0_4_keeps_main_arg0 (V : Valuation τ sig (Elt F)) :
    StableHlo.after (hostOps0_4 (F := F)) V (Proc.devRef .tc main_arg0) = V (Proc.devRef .tc main_arg0) := by
  after_results_simp
set_option maxHeartbeats 4000000 in
theorem hostOps0_4_keeps_main_arg1 (V : Valuation τ sig (Elt F)) :
    StableHlo.after (hostOps0_4 (F := F)) V (Proc.devRef .tc main_arg1) = V (Proc.devRef .tc main_arg1) := by
  after_results_simp
set_option maxHeartbeats 4000000 in
theorem hostOps0_4_keeps_main_arg2 (V : Valuation τ sig (Elt F)) :
    StableHlo.after (hostOps0_4 (F := F)) V (Proc.devRef .tc main_arg2) = V (Proc.devRef .tc main_arg2) := by
  after_results_simp
set_option maxHeartbeats 4000000 in
theorem hostOps0_4_keeps_main_arg3 (V : Valuation τ sig (Elt F)) :
    StableHlo.after (hostOps0_4 (F := F)) V (Proc.devRef .tc main_arg3) = V (Proc.devRef .tc main_arg3) := by
  after_results_simp
set_option maxHeartbeats 4000000 in
theorem hostOps0_4_keeps_main_arg4 (V : Valuation τ sig (Elt F)) :
    StableHlo.after (hostOps0_4 (F := F)) V (Proc.devRef .tc main_arg4) = V (Proc.devRef .tc main_arg4) := by
  after_results_simp
set_option maxHeartbeats 4000000 in
theorem hostOps0_4_keeps_main_arg5 (V : Valuation τ sig (Elt F)) :
    StableHlo.after (hostOps0_4 (F := F)) V (Proc.devRef .tc main_arg5) = V (Proc.devRef .tc main_arg5) := by
  after_results_simp
set_option maxHeartbeats 4000000 in
theorem hostOps0_4_keeps_main_arg6 (V : Valuation τ sig (Elt F)) :
    StableHlo.after (hostOps0_4 (F := F)) V (Proc.devRef .tc main_arg6) = V (Proc.devRef .tc main_arg6) := by
  after_results_simp
set_option maxHeartbeats 4000000 in
theorem hostOps0_4_keeps_main_arg7 (V : Valuation τ sig (Elt F)) :
    StableHlo.after (hostOps0_4 (F := F)) V (Proc.devRef .tc main_arg7) = V (Proc.devRef .tc main_arg7) := by
  after_results_simp
set_option maxHeartbeats 4000000 in
theorem hostOps0_4_keeps_main_arg8 (V : Valuation τ sig (Elt F)) :
    StableHlo.after (hostOps0_4 (F := F)) V (Proc.devRef .tc main_arg8) = V (Proc.devRef .tc main_arg8) := by
  after_results_simp
set_option maxHeartbeats 4000000 in
theorem hostOps0_4_keeps_main_arg9 (V : Valuation τ sig (Elt F)) :
    StableHlo.after (hostOps0_4 (F := F)) V (Proc.devRef .tc main_arg9) = V (Proc.devRef .tc main_arg9) := by
  after_results_simp
set_option maxHeartbeats 4000000 in
theorem hostOps0_4_keeps_main_arg10 (V : Valuation τ sig (Elt F)) :
    StableHlo.after (hostOps0_4 (F := F)) V (Proc.devRef .tc main_arg10) = V (Proc.devRef .tc main_arg10) := by
  after_results_simp
/-- No operation of this stretch allocates a buffer. -/
theorem hostOps1_fresh : (hostOps1 : List (HloOp τ sig (Elt F))).Forall fun op => op.fresh = ∅ := by
  simp only [List.Forall]; repeat' constructor
set_option maxHeartbeats 4000000 in
theorem hostOps1_keeps_main_arg0 (V : Valuation τ sig (Elt F)) :
    StableHlo.after (hostOps1 (F := F)) V (Proc.devRef .tc main_arg0) = V (Proc.devRef .tc main_arg0) := by
  after_results_simp
set_option maxHeartbeats 4000000 in
theorem hostOps1_keeps_main_arg1 (V : Valuation τ sig (Elt F)) :
    StableHlo.after (hostOps1 (F := F)) V (Proc.devRef .tc main_arg1) = V (Proc.devRef .tc main_arg1) := by
  after_results_simp
set_option maxHeartbeats 4000000 in
theorem hostOps1_keeps_main_arg2 (V : Valuation τ sig (Elt F)) :
    StableHlo.after (hostOps1 (F := F)) V (Proc.devRef .tc main_arg2) = V (Proc.devRef .tc main_arg2) := by
  after_results_simp
set_option maxHeartbeats 4000000 in
theorem hostOps1_keeps_main_arg3 (V : Valuation τ sig (Elt F)) :
    StableHlo.after (hostOps1 (F := F)) V (Proc.devRef .tc main_arg3) = V (Proc.devRef .tc main_arg3) := by
  after_results_simp
set_option maxHeartbeats 4000000 in
theorem hostOps1_keeps_main_arg4 (V : Valuation τ sig (Elt F)) :
    StableHlo.after (hostOps1 (F := F)) V (Proc.devRef .tc main_arg4) = V (Proc.devRef .tc main_arg4) := by
  after_results_simp
set_option maxHeartbeats 4000000 in
theorem hostOps1_keeps_main_arg5 (V : Valuation τ sig (Elt F)) :
    StableHlo.after (hostOps1 (F := F)) V (Proc.devRef .tc main_arg5) = V (Proc.devRef .tc main_arg5) := by
  after_results_simp
set_option maxHeartbeats 4000000 in
theorem hostOps1_keeps_main_arg6 (V : Valuation τ sig (Elt F)) :
    StableHlo.after (hostOps1 (F := F)) V (Proc.devRef .tc main_arg6) = V (Proc.devRef .tc main_arg6) := by
  after_results_simp
set_option maxHeartbeats 4000000 in
theorem hostOps1_keeps_main_arg7 (V : Valuation τ sig (Elt F)) :
    StableHlo.after (hostOps1 (F := F)) V (Proc.devRef .tc main_arg7) = V (Proc.devRef .tc main_arg7) := by
  after_results_simp
set_option maxHeartbeats 4000000 in
theorem hostOps1_keeps_main_arg8 (V : Valuation τ sig (Elt F)) :
    StableHlo.after (hostOps1 (F := F)) V (Proc.devRef .tc main_arg8) = V (Proc.devRef .tc main_arg8) := by
  after_results_simp
set_option maxHeartbeats 4000000 in
theorem hostOps1_keeps_main_arg9 (V : Valuation τ sig (Elt F)) :
    StableHlo.after (hostOps1 (F := F)) V (Proc.devRef .tc main_arg9) = V (Proc.devRef .tc main_arg9) := by
  after_results_simp
set_option maxHeartbeats 4000000 in
theorem hostOps1_keeps_main_arg10 (V : Valuation τ sig (Elt F)) :
    StableHlo.after (hostOps1 (F := F)) V (Proc.devRef .tc main_arg10) = V (Proc.devRef .tc main_arg10) := by
  after_results_simp
/-- No operation of this stretch allocates a buffer. -/
theorem hostOps3_fresh : (hostOps3 : List (HloOp τ sig (Elt F))).Forall fun op => op.fresh = ∅ := by
  simp only [List.Forall]; repeat' constructor
set_option maxHeartbeats 4000000 in
theorem hostOps3_keeps_main_arg0 (V : Valuation τ sig (Elt F)) :
    StableHlo.after (hostOps3 (F := F)) V (Proc.devRef .tc main_arg0) = V (Proc.devRef .tc main_arg0) := by
  after_results_simp
set_option maxHeartbeats 4000000 in
theorem hostOps3_keeps_main_arg1 (V : Valuation τ sig (Elt F)) :
    StableHlo.after (hostOps3 (F := F)) V (Proc.devRef .tc main_arg1) = V (Proc.devRef .tc main_arg1) := by
  after_results_simp
set_option maxHeartbeats 4000000 in
theorem hostOps3_keeps_main_arg2 (V : Valuation τ sig (Elt F)) :
    StableHlo.after (hostOps3 (F := F)) V (Proc.devRef .tc main_arg2) = V (Proc.devRef .tc main_arg2) := by
  after_results_simp
set_option maxHeartbeats 4000000 in
theorem hostOps3_keeps_main_arg3 (V : Valuation τ sig (Elt F)) :
    StableHlo.after (hostOps3 (F := F)) V (Proc.devRef .tc main_arg3) = V (Proc.devRef .tc main_arg3) := by
  after_results_simp
set_option maxHeartbeats 4000000 in
theorem hostOps3_keeps_main_arg4 (V : Valuation τ sig (Elt F)) :
    StableHlo.after (hostOps3 (F := F)) V (Proc.devRef .tc main_arg4) = V (Proc.devRef .tc main_arg4) := by
  after_results_simp
set_option maxHeartbeats 4000000 in
theorem hostOps3_keeps_main_arg5 (V : Valuation τ sig (Elt F)) :
    StableHlo.after (hostOps3 (F := F)) V (Proc.devRef .tc main_arg5) = V (Proc.devRef .tc main_arg5) := by
  after_results_simp
set_option maxHeartbeats 4000000 in
theorem hostOps3_keeps_main_arg6 (V : Valuation τ sig (Elt F)) :
    StableHlo.after (hostOps3 (F := F)) V (Proc.devRef .tc main_arg6) = V (Proc.devRef .tc main_arg6) := by
  after_results_simp
set_option maxHeartbeats 4000000 in
theorem hostOps3_keeps_main_arg7 (V : Valuation τ sig (Elt F)) :
    StableHlo.after (hostOps3 (F := F)) V (Proc.devRef .tc main_arg7) = V (Proc.devRef .tc main_arg7) := by
  after_results_simp
set_option maxHeartbeats 4000000 in
theorem hostOps3_keeps_main_arg8 (V : Valuation τ sig (Elt F)) :
    StableHlo.after (hostOps3 (F := F)) V (Proc.devRef .tc main_arg8) = V (Proc.devRef .tc main_arg8) := by
  after_results_simp
set_option maxHeartbeats 4000000 in
theorem hostOps3_keeps_main_arg9 (V : Valuation τ sig (Elt F)) :
    StableHlo.after (hostOps3 (F := F)) V (Proc.devRef .tc main_arg9) = V (Proc.devRef .tc main_arg9) := by
  after_results_simp
set_option maxHeartbeats 4000000 in
theorem hostOps3_keeps_main_arg10 (V : Valuation τ sig (Elt F)) :
    StableHlo.after (hostOps3 (F := F)) V (Proc.devRef .tc main_arg10) = V (Proc.devRef .tc main_arg10) := by
  after_results_simp

end Cert.KernelIdeal.Hand

end
-- ==== Proof.KI.Run.lean ====
/-
  The run of the program's @main: ten items in order — five stretches of host operations, the first combine
  region, a stretch of host operations, the second combine region, the pooling region, and a last stretch.
  Between two items every unscoped buffer of a core holds a definite array, named here by a fold from the
  launch memory: a host stretch maps the buffers through its operations, a region replaces the arrays its
  windows write back by what its grid leaves in them and keeps every other buffer. The launch theorem for a
  sequence of host segments and kernel regions then says that every weakly fair execution terminates without
  a fault in a memory that holds, at every unscoped buffer, the last array of the fold. No host operation
  and no write-back touches an argument, so the arguments are read back through the fold unchanged.
-/
import proofs.«178208_j6545530159343_2_alg».proof.Proof.KI.Combine
import proofs.«178208_j6545530159343_2_alg».proof.Proof.KI.Pool
import proofs.«178208_j6545530159343_2_alg».proof.Proof.KI.HostKeeps
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays between the items -/

/-- A core's buffers at launch. -/
abbrev W0 : Dev nD → Valuation τ sig (Elt F) := fun c b => (s₀ m ρ).mem ((c : Dev nD), b)
/-- After each of the five host stretches before the first region. -/
abbrev W1 : Dev nD → Valuation τ sig (Elt F) := fun c => StableHlo.after hostOps0 (W0 m ρ c)
abbrev W2 : Dev nD → Valuation τ sig (Elt F) := fun c => StableHlo.after hostOps0_1 (W1 m ρ c)
abbrev W3 : Dev nD → Valuation τ sig (Elt F) := fun c => StableHlo.after hostOps0_2 (W2 m ρ c)
abbrev W4 : Dev nD → Valuation τ sig (Elt F) := fun c => StableHlo.after hostOps0_3 (W3 m ρ c)
abbrev W5 : Dev nD → Valuation τ sig (Elt F) := fun c => StableHlo.after hostOps0_4 (W4 m ρ c)
/-- The same read at the TensorCore's references: what the first combine region finds. -/
abbrev V5 : (c : Dev nD) → (b : Ref sig .tc) → Buf (Elt F) ((c : Thread nD τ).loc b) := fun c b => W5 m ρ c b
/-- After the first combine region: its windows' arrays at what the grid leaves, every other buffer kept. -/
def W6 (c : Dev nD) : Valuation τ sig (Elt F) :=
  Pipeline.withArrays spec0 c (W5 m ρ c) fun w => (dat0 (V5 m ρ) c).arrAt w cfg0.N
theorem W6_arr (c : Dev nD) (w : Fin cfg0.W) :
    W6 m ρ c (Proc.devRef .tc (Pipeline.arrRef spec0 w)) = (dat0 (V5 m ρ) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m ρ c (Proc.devRef .tc b) = W5 m ρ c (Proc.devRef .tc b) := by
  unfold W6; exact Pipeline.withArrays_of_ne spec0 c _ _ b hb
abbrev V6 : (c : Dev nD) → (b : Ref sig .tc) → Buf (Elt F) ((c : Thread nD τ).loc b) := fun c b => W6 m ρ c b
theorem hF0 (c : Dev nD) (w : Fin cfg0.W) : (dat0 (V5 m ρ) c).arrAt w cfg0.N = V6 m ρ c (Pipeline.arrRef spec0 w) :=
  (W6_arr m ρ c w).symm
theorem hrest0 (c : Dev nD) : ∀ b, b ∉ Finset.univ.image (Pipeline.arrRef spec0) → V6 m ρ c b = V5 m ρ c b :=
  fun b hb => W6_of_ne m ρ c b fun w e => hb (Finset.mem_image.mpr ⟨w, Finset.mem_univ _, e⟩)

/-- After the host stretch between the two combine regions. -/
abbrev W7 : Dev nD → Valuation τ sig (Elt F) := fun c => StableHlo.after hostOps1 (W6 m ρ c)
abbrev V7 : (c : Dev nD) → (b : Ref sig .tc) → Buf (Elt F) ((c : Thread nD τ).loc b) := fun c b => W7 m ρ c b
/-- After the second combine region. -/
def W8 (c : Dev nD) : Valuation τ sig (Elt F) :=
  Pipeline.withArrays spec1 c (W7 m ρ c) fun w => (dat1 (V7 m ρ) c).arrAt w cfg1.N
theorem W8_arr (c : Dev nD) (w : Fin cfg1.W) :
    W8 m ρ c (Proc.devRef .tc (Pipeline.arrRef spec1 w)) = (dat1 (V7 m ρ) c).arrAt w cfg1.N := by
  unfold W8; exact Pipeline.withArrays_arr spec1 launch1.win.arr_inj c _ _ w
theorem W8_of_ne (c : Dev nD) (b : Ref sig .tc) (hb : ∀ w, Pipeline.arrRef spec1 w ≠ b) :
    W8 m ρ c (Proc.devRef .tc b) = W7 m ρ c (Proc.devRef .tc b) := by
  unfold W8; exact Pipeline.withArrays_of_ne spec1 c _ _ b hb
abbrev V8 : (c : Dev nD) → (b : Ref sig .tc) → Buf (Elt F) ((c : Thread nD τ).loc b) := fun c b => W8 m ρ c b
theorem hF1 (c : Dev nD) (w : Fin cfg1.W) : (dat1 (V7 m ρ) c).arrAt w cfg1.N = V8 m ρ c (Pipeline.arrRef spec1 w) :=
  (W8_arr m ρ c w).symm
theorem hrest1 (c : Dev nD) : ∀ b, b ∉ Finset.univ.image (Pipeline.arrRef spec1) → V8 m ρ c b = V7 m ρ c b :=
  fun b hb => W8_of_ne m ρ c b fun w e => hb (Finset.mem_image.mpr ⟨w, Finset.mem_univ _, e⟩)

/-- After the pooling region, entered straight from the second combine region's exit. -/
def W9 (c : Dev nD) : Valuation τ sig (Elt F) :=
  Pipeline.withArrays spec2 c (W8 m ρ c) fun w => (dat2 (V8 m ρ) c).arrAt w cfg2.N
theorem W9_arr (c : Dev nD) (w : Fin cfg2.W) :
    W9 m ρ c (Proc.devRef .tc (Pipeline.arrRef spec2 w)) = (dat2 (V8 m ρ) c).arrAt w cfg2.N := by
  unfold W9; exact Pipeline.withArrays_arr spec2 launch2.win.arr_inj c _ _ w
theorem W9_of_ne (c : Dev nD) (b : Ref sig .tc) (hb : ∀ w, Pipeline.arrRef spec2 w ≠ b) :
    W9 m ρ c (Proc.devRef .tc b) = W8 m ρ c (Proc.devRef .tc b) := by
  unfold W9; exact Pipeline.withArrays_of_ne spec2 c _ _ b hb
abbrev V9 : (c : Dev nD) → (b : Ref sig .tc) → Buf (Elt F) ((c : Thread nD τ).loc b) := fun c b => W9 m ρ c b
theorem hF2 (c : Dev nD) (w : Fin cfg2.W) : (dat2 (V8 m ρ) c).arrAt w cfg2.N = V9 m ρ c (Pipeline.arrRef spec2 w) :=
  (W9_arr m ρ c w).symm
theorem hrest2 (c : Dev nD) : ∀ b, b ∉ Finset.univ.image (Pipeline.arrRef spec2) → V9 m ρ c b = V8 m ρ c b :=
  fun b hb => W9_of_ne m ρ c b fun w e => hb (Finset.mem_image.mpr ⟨w, Finset.mem_univ _, e⟩)

/-- After the last host stretch: what the final memory holds. -/
abbrev W10 : Dev nD → Valuation τ sig (Elt F) := fun c => StableHlo.after hostOps3 (W9 m ρ c)

/-! ## No item writes an argument -/

/-- `main_arg0` reaches the end as launched: no host operation writes it and it is no window's array. -/
theorem W10_main_arg0 (c : Dev nD) : W10 m ρ c (Proc.devRef .tc main_arg0) = m ((c : Thread nD τ).loc main_arg0) :=
  calc W10 m ρ c (Proc.devRef .tc main_arg0)
    _ = W9 m ρ c (Proc.devRef .tc main_arg0) := hostOps3_keeps_main_arg0 _
    _ = W8 m ρ c (Proc.devRef .tc main_arg0) := W9_of_ne m ρ c main_arg0 (by decide)
    _ = W7 m ρ c (Proc.devRef .tc main_arg0) := W8_of_ne m ρ c main_arg0 (by decide)
    _ = W6 m ρ c (Proc.devRef .tc main_arg0) := hostOps1_keeps_main_arg0 _
    _ = W5 m ρ c (Proc.devRef .tc main_arg0) := W6_of_ne m ρ c main_arg0 (by decide)
    _ = W4 m ρ c (Proc.devRef .tc main_arg0) := hostOps0_4_keeps_main_arg0 _
    _ = W3 m ρ c (Proc.devRef .tc main_arg0) := hostOps0_3_keeps_main_arg0 _
    _ = W2 m ρ c (Proc.devRef .tc main_arg0) := hostOps0_2_keeps_main_arg0 _
    _ = W1 m ρ c (Proc.devRef .tc main_arg0) := hostOps0_1_keeps_main_arg0 _
    _ = W0 m ρ c (Proc.devRef .tc main_arg0) := hostOps0_keeps_main_arg0 _
    _ = m ((c : Thread nD τ).loc main_arg0) := rfl
/-- `main_arg1` reaches the end as launched: no host operation writes it and it is no window's array. -/
theorem W10_main_arg1 (c : Dev nD) : W10 m ρ c (Proc.devRef .tc main_arg1) = m ((c : Thread nD τ).loc main_arg1) :=
  calc W10 m ρ c (Proc.devRef .tc main_arg1)
    _ = W9 m ρ c (Proc.devRef .tc main_arg1) := hostOps3_keeps_main_arg1 _
    _ = W8 m ρ c (Proc.devRef .tc main_arg1) := W9_of_ne m ρ c main_arg1 (by decide)
    _ = W7 m ρ c (Proc.devRef .tc main_arg1) := W8_of_ne m ρ c main_arg1 (by decide)
    _ = W6 m ρ c (Proc.devRef .tc main_arg1) := hostOps1_keeps_main_arg1 _
    _ = W5 m ρ c (Proc.devRef .tc main_arg1) := W6_of_ne m ρ c main_arg1 (by decide)
    _ = W4 m ρ c (Proc.devRef .tc main_arg1) := hostOps0_4_keeps_main_arg1 _
    _ = W3 m ρ c (Proc.devRef .tc main_arg1) := hostOps0_3_keeps_main_arg1 _
    _ = W2 m ρ c (Proc.devRef .tc main_arg1) := hostOps0_2_keeps_main_arg1 _
    _ = W1 m ρ c (Proc.devRef .tc main_arg1) := hostOps0_1_keeps_main_arg1 _
    _ = W0 m ρ c (Proc.devRef .tc main_arg1) := hostOps0_keeps_main_arg1 _
    _ = m ((c : Thread nD τ).loc main_arg1) := rfl
/-- `main_arg2` reaches the end as launched: no host operation writes it and it is no window's array. -/
theorem W10_main_arg2 (c : Dev nD) : W10 m ρ c (Proc.devRef .tc main_arg2) = m ((c : Thread nD τ).loc main_arg2) :=
  calc W10 m ρ c (Proc.devRef .tc main_arg2)
    _ = W9 m ρ c (Proc.devRef .tc main_arg2) := hostOps3_keeps_main_arg2 _
    _ = W8 m ρ c (Proc.devRef .tc main_arg2) := W9_of_ne m ρ c main_arg2 (by decide)
    _ = W7 m ρ c (Proc.devRef .tc main_arg2) := W8_of_ne m ρ c main_arg2 (by decide)
    _ = W6 m ρ c (Proc.devRef .tc main_arg2) := hostOps1_keeps_main_arg2 _
    _ = W5 m ρ c (Proc.devRef .tc main_arg2) := W6_of_ne m ρ c main_arg2 (by decide)
    _ = W4 m ρ c (Proc.devRef .tc main_arg2) := hostOps0_4_keeps_main_arg2 _
    _ = W3 m ρ c (Proc.devRef .tc main_arg2) := hostOps0_3_keeps_main_arg2 _
    _ = W2 m ρ c (Proc.devRef .tc main_arg2) := hostOps0_2_keeps_main_arg2 _
    _ = W1 m ρ c (Proc.devRef .tc main_arg2) := hostOps0_1_keeps_main_arg2 _
    _ = W0 m ρ c (Proc.devRef .tc main_arg2) := hostOps0_keeps_main_arg2 _
    _ = m ((c : Thread nD τ).loc main_arg2) := rfl
/-- `main_arg3` reaches the end as launched: no host operation writes it and it is no window's array. -/
theorem W10_main_arg3 (c : Dev nD) : W10 m ρ c (Proc.devRef .tc main_arg3) = m ((c : Thread nD τ).loc main_arg3) :=
  calc W10 m ρ c (Proc.devRef .tc main_arg3)
    _ = W9 m ρ c (Proc.devRef .tc main_arg3) := hostOps3_keeps_main_arg3 _
    _ = W8 m ρ c (Proc.devRef .tc main_arg3) := W9_of_ne m ρ c main_arg3 (by decide)
    _ = W7 m ρ c (Proc.devRef .tc main_arg3) := W8_of_ne m ρ c main_arg3 (by decide)
    _ = W6 m ρ c (Proc.devRef .tc main_arg3) := hostOps1_keeps_main_arg3 _
    _ = W5 m ρ c (Proc.devRef .tc main_arg3) := W6_of_ne m ρ c main_arg3 (by decide)
    _ = W4 m ρ c (Proc.devRef .tc main_arg3) := hostOps0_4_keeps_main_arg3 _
    _ = W3 m ρ c (Proc.devRef .tc main_arg3) := hostOps0_3_keeps_main_arg3 _
    _ = W2 m ρ c (Proc.devRef .tc main_arg3) := hostOps0_2_keeps_main_arg3 _
    _ = W1 m ρ c (Proc.devRef .tc main_arg3) := hostOps0_1_keeps_main_arg3 _
    _ = W0 m ρ c (Proc.devRef .tc main_arg3) := hostOps0_keeps_main_arg3 _
    _ = m ((c : Thread nD τ).loc main_arg3) := rfl
/-- `main_arg4` reaches the end as launched: no host operation writes it and it is no window's array. -/
theorem W10_main_arg4 (c : Dev nD) : W10 m ρ c (Proc.devRef .tc main_arg4) = m ((c : Thread nD τ).loc main_arg4) :=
  calc W10 m ρ c (Proc.devRef .tc main_arg4)
    _ = W9 m ρ c (Proc.devRef .tc main_arg4) := hostOps3_keeps_main_arg4 _
    _ = W8 m ρ c (Proc.devRef .tc main_arg4) := W9_of_ne m ρ c main_arg4 (by decide)
    _ = W7 m ρ c (Proc.devRef .tc main_arg4) := W8_of_ne m ρ c main_arg4 (by decide)
    _ = W6 m ρ c (Proc.devRef .tc main_arg4) := hostOps1_keeps_main_arg4 _
    _ = W5 m ρ c (Proc.devRef .tc main_arg4) := W6_of_ne m ρ c main_arg4 (by decide)
    _ = W4 m ρ c (Proc.devRef .tc main_arg4) := hostOps0_4_keeps_main_arg4 _
    _ = W3 m ρ c (Proc.devRef .tc main_arg4) := hostOps0_3_keeps_main_arg4 _
    _ = W2 m ρ c (Proc.devRef .tc main_arg4) := hostOps0_2_keeps_main_arg4 _
    _ = W1 m ρ c (Proc.devRef .tc main_arg4) := hostOps0_1_keeps_main_arg4 _
    _ = W0 m ρ c (Proc.devRef .tc main_arg4) := hostOps0_keeps_main_arg4 _
    _ = m ((c : Thread nD τ).loc main_arg4) := rfl
/-- `main_arg5` reaches the end as launched: no host operation writes it and it is no window's array. -/
theorem W10_main_arg5 (c : Dev nD) : W10 m ρ c (Proc.devRef .tc main_arg5) = m ((c : Thread nD τ).loc main_arg5) :=
  calc W10 m ρ c (Proc.devRef .tc main_arg5)
    _ = W9 m ρ c (Proc.devRef .tc main_arg5) := hostOps3_keeps_main_arg5 _
    _ = W8 m ρ c (Proc.devRef .tc main_arg5) := W9_of_ne m ρ c main_arg5 (by decide)
    _ = W7 m ρ c (Proc.devRef .tc main_arg5) := W8_of_ne m ρ c main_arg5 (by decide)
    _ = W6 m ρ c (Proc.devRef .tc main_arg5) := hostOps1_keeps_main_arg5 _
    _ = W5 m ρ c (Proc.devRef .tc main_arg5) := W6_of_ne m ρ c main_arg5 (by decide)
    _ = W4 m ρ c (Proc.devRef .tc main_arg5) := hostOps0_4_keeps_main_arg5 _
    _ = W3 m ρ c (Proc.devRef .tc main_arg5) := hostOps0_3_keeps_main_arg5 _
    _ = W2 m ρ c (Proc.devRef .tc main_arg5) := hostOps0_2_keeps_main_arg5 _
    _ = W1 m ρ c (Proc.devRef .tc main_arg5) := hostOps0_1_keeps_main_arg5 _
    _ = W0 m ρ c (Proc.devRef .tc main_arg5) := hostOps0_keeps_main_arg5 _
    _ = m ((c : Thread nD τ).loc main_arg5) := rfl
/-- `main_arg6` reaches the end as launched: no host operation writes it and it is no window's array. -/
theorem W10_main_arg6 (c : Dev nD) : W10 m ρ c (Proc.devRef .tc main_arg6) = m ((c : Thread nD τ).loc main_arg6) :=
  calc W10 m ρ c (Proc.devRef .tc main_arg6)
    _ = W9 m ρ c (Proc.devRef .tc main_arg6) := hostOps3_keeps_main_arg6 _
    _ = W8 m ρ c (Proc.devRef .tc main_arg6) := W9_of_ne m ρ c main_arg6 (by decide)
    _ = W7 m ρ c (Proc.devRef .tc main_arg6) := W8_of_ne m ρ c main_arg6 (by decide)
    _ = W6 m ρ c (Proc.devRef .tc main_arg6) := hostOps1_keeps_main_arg6 _
    _ = W5 m ρ c (Proc.devRef .tc main_arg6) := W6_of_ne m ρ c main_arg6 (by decide)
    _ = W4 m ρ c (Proc.devRef .tc main_arg6) := hostOps0_4_keeps_main_arg6 _
    _ = W3 m ρ c (Proc.devRef .tc main_arg6) := hostOps0_3_keeps_main_arg6 _
    _ = W2 m ρ c (Proc.devRef .tc main_arg6) := hostOps0_2_keeps_main_arg6 _
    _ = W1 m ρ c (Proc.devRef .tc main_arg6) := hostOps0_1_keeps_main_arg6 _
    _ = W0 m ρ c (Proc.devRef .tc main_arg6) := hostOps0_keeps_main_arg6 _
    _ = m ((c : Thread nD τ).loc main_arg6) := rfl
/-- `main_arg7` reaches the end as launched: no host operation writes it and it is no window's array. -/
theorem W10_main_arg7 (c : Dev nD) : W10 m ρ c (Proc.devRef .tc main_arg7) = m ((c : Thread nD τ).loc main_arg7) :=
  calc W10 m ρ c (Proc.devRef .tc main_arg7)
    _ = W9 m ρ c (Proc.devRef .tc main_arg7) := hostOps3_keeps_main_arg7 _
    _ = W8 m ρ c (Proc.devRef .tc main_arg7) := W9_of_ne m ρ c main_arg7 (by decide)
    _ = W7 m ρ c (Proc.devRef .tc main_arg7) := W8_of_ne m ρ c main_arg7 (by decide)
    _ = W6 m ρ c (Proc.devRef .tc main_arg7) := hostOps1_keeps_main_arg7 _
    _ = W5 m ρ c (Proc.devRef .tc main_arg7) := W6_of_ne m ρ c main_arg7 (by decide)
    _ = W4 m ρ c (Proc.devRef .tc main_arg7) := hostOps0_4_keeps_main_arg7 _
    _ = W3 m ρ c (Proc.devRef .tc main_arg7) := hostOps0_3_keeps_main_arg7 _
    _ = W2 m ρ c (Proc.devRef .tc main_arg7) := hostOps0_2_keeps_main_arg7 _
    _ = W1 m ρ c (Proc.devRef .tc main_arg7) := hostOps0_1_keeps_main_arg7 _
    _ = W0 m ρ c (Proc.devRef .tc main_arg7) := hostOps0_keeps_main_arg7 _
    _ = m ((c : Thread nD τ).loc main_arg7) := rfl
/-- `main_arg8` reaches the end as launched: no host operation writes it and it is no window's array. -/
theorem W10_main_arg8 (c : Dev nD) : W10 m ρ c (Proc.devRef .tc main_arg8) = m ((c : Thread nD τ).loc main_arg8) :=
  calc W10 m ρ c (Proc.devRef .tc main_arg8)
    _ = W9 m ρ c (Proc.devRef .tc main_arg8) := hostOps3_keeps_main_arg8 _
    _ = W8 m ρ c (Proc.devRef .tc main_arg8) := W9_of_ne m ρ c main_arg8 (by decide)
    _ = W7 m ρ c (Proc.devRef .tc main_arg8) := W8_of_ne m ρ c main_arg8 (by decide)
    _ = W6 m ρ c (Proc.devRef .tc main_arg8) := hostOps1_keeps_main_arg8 _
    _ = W5 m ρ c (Proc.devRef .tc main_arg8) := W6_of_ne m ρ c main_arg8 (by decide)
    _ = W4 m ρ c (Proc.devRef .tc main_arg8) := hostOps0_4_keeps_main_arg8 _
    _ = W3 m ρ c (Proc.devRef .tc main_arg8) := hostOps0_3_keeps_main_arg8 _
    _ = W2 m ρ c (Proc.devRef .tc main_arg8) := hostOps0_2_keeps_main_arg8 _
    _ = W1 m ρ c (Proc.devRef .tc main_arg8) := hostOps0_1_keeps_main_arg8 _
    _ = W0 m ρ c (Proc.devRef .tc main_arg8) := hostOps0_keeps_main_arg8 _
    _ = m ((c : Thread nD τ).loc main_arg8) := rfl
/-- `main_arg9` reaches the end as launched: no host operation writes it and it is no window's array. -/
theorem W10_main_arg9 (c : Dev nD) : W10 m ρ c (Proc.devRef .tc main_arg9) = m ((c : Thread nD τ).loc main_arg9) :=
  calc W10 m ρ c (Proc.devRef .tc main_arg9)
    _ = W9 m ρ c (Proc.devRef .tc main_arg9) := hostOps3_keeps_main_arg9 _
    _ = W8 m ρ c (Proc.devRef .tc main_arg9) := W9_of_ne m ρ c main_arg9 (by decide)
    _ = W7 m ρ c (Proc.devRef .tc main_arg9) := W8_of_ne m ρ c main_arg9 (by decide)
    _ = W6 m ρ c (Proc.devRef .tc main_arg9) := hostOps1_keeps_main_arg9 _
    _ = W5 m ρ c (Proc.devRef .tc main_arg9) := W6_of_ne m ρ c main_arg9 (by decide)
    _ = W4 m ρ c (Proc.devRef .tc main_arg9) := hostOps0_4_keeps_main_arg9 _
    _ = W3 m ρ c (Proc.devRef .tc main_arg9) := hostOps0_3_keeps_main_arg9 _
    _ = W2 m ρ c (Proc.devRef .tc main_arg9) := hostOps0_2_keeps_main_arg9 _
    _ = W1 m ρ c (Proc.devRef .tc main_arg9) := hostOps0_1_keeps_main_arg9 _
    _ = W0 m ρ c (Proc.devRef .tc main_arg9) := hostOps0_keeps_main_arg9 _
    _ = m ((c : Thread nD τ).loc main_arg9) := rfl
/-- `main_arg10` reaches the end as launched: no host operation writes it and it is no window's array. -/
theorem W10_main_arg10 (c : Dev nD) : W10 m ρ c (Proc.devRef .tc main_arg10) = m ((c : Thread nD τ).loc main_arg10) :=
  calc W10 m ρ c (Proc.devRef .tc main_arg10)
    _ = W9 m ρ c (Proc.devRef .tc main_arg10) := hostOps3_keeps_main_arg10 _
    _ = W8 m ρ c (Proc.devRef .tc main_arg10) := W9_of_ne m ρ c main_arg10 (by decide)
    _ = W7 m ρ c (Proc.devRef .tc main_arg10) := W8_of_ne m ρ c main_arg10 (by decide)
    _ = W6 m ρ c (Proc.devRef .tc main_arg10) := hostOps1_keeps_main_arg10 _
    _ = W5 m ρ c (Proc.devRef .tc main_arg10) := W6_of_ne m ρ c main_arg10 (by decide)
    _ = W4 m ρ c (Proc.devRef .tc main_arg10) := hostOps0_4_keeps_main_arg10 _
    _ = W3 m ρ c (Proc.devRef .tc main_arg10) := hostOps0_3_keeps_main_arg10 _
    _ = W2 m ρ c (Proc.devRef .tc main_arg10) := hostOps0_2_keeps_main_arg10 _
    _ = W1 m ρ c (Proc.devRef .tc main_arg10) := hostOps0_1_keeps_main_arg10 _
    _ = W0 m ρ c (Proc.devRef .tc main_arg10) := hostOps0_keeps_main_arg10 _
    _ = m ((c : Thread nD τ).loc main_arg10) := rfl

/-! ## The proof data of the three regions and the thread state -/

/-- No pipeline has a prefetched table. -/
abbrev adm : (p : Fin 3) → (pcfgs (F := F) p).Adm := fun p => (cfgs p).toPCfg_adm
/-- Each pipeline's proof data at the arrays its region is entered with. -/
def pdats : (p : Fin 3) → (c : Dev nD) → Dat τ (Elt F) Unit ℕ (UR sig nD τ) ℕ (Pipeline.pin (pcfgs (F := F)) adm p) c
  | ⟨0, _⟩ => fun c => dat0 (V5 m ρ) c
  | ⟨1, _⟩ => fun c => dat1 (V7 m ρ) c
  | ⟨2, _⟩ => fun c => dat2 (V8 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as a segment, from the arrays before it. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W10 m ρ c) ∗ ∃ r, prngReg c r)

/-! ## The regions as segments -/

set_option backward.isDefEq.respectTransparency.types false in
/-- Region 0 over the thread state: entered with every unscoped buffer at the array before it, left with
    every unscoped buffer at the array after it. Its windows' arrays are split out of the unscoped buffers at
    entry and put back, at what the grid leaves in them, at exit; the generator register passes through the
    region's invariant; nothing is owed and the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V5 m ρ) c).loose
  hwaits := Pipeline.hwaits_of_owed_zero _ _ _ _ L lv 0 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec0 c (V5 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V5 m ρ c) (V6 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at the array before it, left with
    every unscoped buffer at the array after it. Its windows' arrays are split out of the unscoped buffers at
    entry and put back, at what the grid leaves in them, at exit; the generator register passes through the
    region's invariant; nothing is owed and the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V7 m ρ c) (V8 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at the array before it, left with
    every unscoped buffer at the array after it. Its windows' arrays are split out of the unscoped buffers at
    entry and put back, at what the grid leaves in them, at exit; the generator register passes through the
    region's invariant; nothing is owed and the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V8 m ρ) c).loose
  hwaits := Pipeline.hwaits_of_owed_zero _ _ _ _ L lv 2 fun _ _ => rfl
  pre c := iprop(StableHlo.held (c : Thread nD τ) (Pipeline.ucRefs τ sig) (W8 m ρ c) ∗ R c)
  post c := iprop(StableHlo.held (c : Thread nD τ) (Pipeline.ucRefs τ sig) (W9 m ρ c) ∗ R c)
  X c := iprop(∃ r, prngReg c r)
  Y c := iprop(∃ r, prngReg c r)
  Z c := Pipeline.unscopedRest (Ix := Unit) (Name := ℕ) (U := UR sig nD τ) (Lvl := ℕ) spec2 c (V8 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := hin2 (V8 m ρ) c
  hout c := hout2 (V8 m ρ) c
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V8 m ρ c) (V9 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's ten items in order. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .region (reg0 m ρ),
    .host (hseg hostOps1 hostOps1_sub hostOps1_fresh (W6 m ρ)),
    .region (reg1 m ρ),
    .region (reg2 m ρ),
    .host (hseg hostOps3 hostOps3_sub hostOps3_fresh (W9 m ρ)) ]
/-- @main is the run of the segments. -/
theorem main_run (c : Dev nD) : main (F := F) c = Pipeline.Seg.run (segs m ρ) := (main_chain c).trans (by chain_rfl)

set_option backward.isDefEq.respectTransparency.types false in
/-- Every weakly fair execution of @main from the memory `m` with zero counters terminates, faults nowhere, and
    ends in a memory that holds at every unscoped buffer of every core the last array of the fold. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      show iprop(StableHlo.held (c : Thread nD τ) (Pipeline.ucRefs τ sig) (W10 m ρ c) ∗ R c)
        ⊢ iprop(Tₙ m ρ c ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c => h c)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c _ (mem_uc main_arg0 (by decide))).trans (W10_main_arg0 m ρ c),
    (h c _ (mem_uc main_arg1 (by decide))).trans (W10_main_arg1 m ρ c),
    (h c _ (mem_uc main_arg2 (by decide))).trans (W10_main_arg2 m ρ c),
    (h c _ (mem_uc main_arg3 (by decide))).trans (W10_main_arg3 m ρ c),
    (h c _ (mem_uc main_arg4 (by decide))).trans (W10_main_arg4 m ρ c),
    (h c _ (mem_uc main_arg5 (by decide))).trans (W10_main_arg5 m ρ c),
    (h c _ (mem_uc main_arg6 (by decide))).trans (W10_main_arg6 m ρ c),
    (h c _ (mem_uc main_arg7 (by decide))).trans (W10_main_arg7 m ρ c),
    (h c _ (mem_uc main_arg8 (by decide))).trans (W10_main_arg8 m ρ c),
    (h c _ (mem_uc main_arg9 (by decide))).trans (W10_main_arg9 m ρ c),
    (h c _ (mem_uc main_arg10 (by decide))).trans (W10_main_arg10 m ρ c)⟩) (run_main m ρ)

end Cert.KernelIdeal.Hand

end
-- ==== Proof.Value.Payloads.lean ====
/-
  The kernels' stored values read at one element, at the exact (extended-real) reading of the floats.

  The two combine kernels store, at row p and column q of their block, the rectified sum of four matrix products and a
  bias row:  max (Σₖ x0[p,k]·w0[k,q] + Σₖ x1[p,k]·w1[k,q] + Σₖ x2[p,k]·w2[k,q] + Σₖ x3[p,k]·w3[k,q] + b[0,q]) 0.
  The pooling kernel starts its accumulator row at 0, adds to it the column sums of each block, and at the end scales
  the row by the named constant 1/100000.

  Every format change is the identity on extended reals, a product into the zero accumulator is the plain sum over the
  contracted coordinate, and the zero word denotes 0.
-/
import proofs.«178208_j6545530159343_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx
open scoped BigOperators

/-! ## The zero word -/

/-- The scalar the zero word denotes is the extended real 0. -/
theorem scalar_zero_f32 : Scalar.ofBits (F := Ideal) .f32 0x00000000#32 = (0 : EReal) :=
  Ideal.ofBits_zero_f32

/-! ## A [5000,64] × [64,64] product into the zero accumulator, at (p, q) -/

/-- The left operand's index at output index i and contraction index c: i's row … -/
theorem lhsIdx_row (i : S5000x64.Idx) (c : dot_S5000x64_S64x64_S5000x64_1_0_0_1_n_n.contr.Idx) :
    (dot_S5000x64_S64x64_S5000x64_1_0_0_1_n_n.lhsIdx i c 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl
/-- … and the contracted coordinate. -/
theorem lhsIdx_col (i : S5000x64.Idx) (c : dot_S5000x64_S64x64_S5000x64_1_0_0_1_n_n.contr.Idx) :
    (dot_S5000x64_S64x64_S5000x64_1_0_0_1_n_n.lhsIdx i c 1).val = (c ⟨0, by decide⟩).val :=
  dot_S5000x64_S64x64_S5000x64_1_0_0_1_n_n.lhsIdx_val_of_single rfl i c
/-- The right operand's index: the contracted coordinate … -/
theorem rhsIdx_row (i : S5000x64.Idx) (c : dot_S5000x64_S64x64_S5000x64_1_0_0_1_n_n.contr.Idx) :
    (dot_S5000x64_S64x64_S5000x64_1_0_0_1_n_n.rhsIdx i c 0).val = (c ⟨0, by decide⟩).val :=
  dot_S5000x64_S64x64_S5000x64_1_0_0_1_n_n.rhsIdx_val_of_single rfl i c
/-- … and i's column. -/
theorem rhsIdx_col (i : S5000x64.Idx) (c : dot_S5000x64_S64x64_S5000x64_1_0_0_1_n_n.contr.Idx) :
    (dot_S5000x64_S64x64_S5000x64_1_0_0_1_n_n.rhsIdx i c 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- At output (p, q) and contracted coordinate k the left operand is read at (p, k) … -/
theorem lhsIdx_at (p : Fin 5000) (q k : Fin 64) :
    dot_S5000x64_S64x64_S5000x64_1_0_0_1_n_n.lhsIdx (ix2 p q) ((contrEquiv1 dot_S5000x64_S64x64_S5000x64_1_0_0_1_n_n 64 rfl rfl).symm k) = ix2 p k := by
  have hk := contrEquiv1_symm_val dot_S5000x64_S64x64_S5000x64_1_0_0_1_n_n 64 rfl rfl k
  refine funext fun a => Fin.ext ?_
  match a with
  | ⟨0, _⟩ => exact lhsIdx_row _ _
  | ⟨1, _⟩ => exact (lhsIdx_col _ _).trans hk

/-- … and the right operand at (k, q). -/
theorem rhsIdx_at (p : Fin 5000) (q k : Fin 64) :
    dot_S5000x64_S64x64_S5000x64_1_0_0_1_n_n.rhsIdx (ix2 p q) ((contrEquiv1 dot_S5000x64_S64x64_S5000x64_1_0_0_1_n_n 64 rfl rfl).symm k) = ix2 k q := by
  have hk := contrEquiv1_symm_val dot_S5000x64_S64x64_S5000x64_1_0_0_1_n_n 64 rfl rfl k
  refine funext fun a => Fin.ext ?_
  match a with
  | ⟨0, _⟩ => exact (rhsIdx_row _ _).trans hk
  | ⟨1, _⟩ => exact rhsIdx_col _ _

/-- The product into the zero accumulator at (p, q) is Σₖ l[p,k]·r[k,q]: no accumulator term and no order of
    summation is left in it. -/
theorem matmul_zero_at {φ₁ φ₂ : FTy} (l : FVec Ideal S5000x64 φ₁) (r : FVec Ideal S64x64 φ₂) (p : Fin 5000) (q : Fin 64) :
    matmul dot_S5000x64_S64x64_S5000x64_1_0_0_1_n_n none l r (constant (F := Ideal) S5000x64 .f32 0x00000000#32) (ix2 p q)
      = ∑ k : Fin 64, l (ix2 p k) * r (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  rw [lhsIdx_at, rhsIdx_at]

/-! ## The combine kernels' stored value at (p, q) -/

/-- The first combine kernel's stored block at (p, q). -/
theorem combine0_at (x0 x1 x2 x3 : Vec Ideal S5000x64 .f32) (w0 w1 w2 w3 : Vec Ideal S64x64 .f32)
    (b : Vec Ideal S1x64 .f32) (p : Fin 5000) (q : Fin 64) :
    k0_pay1 (F := Ideal) (k0_pay2 x0 w0 x1 w1 x2 w2 x3 w3 b) (k0_pay3 (F := Ideal)) (ValueIdx.ix2 p q)
      = max (((((∑ k : Fin 64, x0 (ValueIdx.ix2 p k) * w0 (ValueIdx.ix2 k q))
                + ∑ k : Fin 64, x1 (ValueIdx.ix2 p k) * w1 (ValueIdx.ix2 k q))
              + ∑ k : Fin 64, x2 (ValueIdx.ix2 p k) * w2 (ValueIdx.ix2 k q))
            + ∑ k : Fin 64, x3 (ValueIdx.ix2 p k) * w3 (ValueIdx.ix2 k q))
          + b (ValueIdx.ix2 (0 : Fin 1) q)) (0 : EReal) := by
  unfold k0_pay1 k0_pay2 k0_pay3
  simp only [shapeCast_self]
  rw [maximumf_apply, addf_apply, addf_apply, addf_apply, addf_apply, matmul_zero_at, matmul_zero_at, matmul_zero_at,
    matmul_zero_at, broadcastTo_1b_ab_apply, broadcast_apply]
  simp only [truncf_apply]
  rw [scalar_zero_f32]

/-- The second combine kernel's stored block at (p, q): the same function of its own loads. -/
theorem combine1_at (x0 x1 x2 x3 : Vec Ideal S5000x64 .f32) (w0 w1 w2 w3 : Vec Ideal S64x64 .f32)
    (b : Vec Ideal S1x64 .f32) (p : Fin 5000) (q : Fin 64) :
    k1_pay1 (F := Ideal) (k1_pay2 x0 w0 x1 w1 x2 w2 x3 w3 b) (k1_pay3 (F := Ideal)) (ValueIdx.ix2 p q)
      = max (((((∑ k : Fin 64, x0 (ValueIdx.ix2 p k) * w0 (ValueIdx.ix2 k q))
                + ∑ k : Fin 64, x1 (ValueIdx.ix2 p k) * w1 (ValueIdx.ix2 k q))
              + ∑ k : Fin 64, x2 (ValueIdx.ix2 p k) * w2 (ValueIdx.ix2 k q))
            + ∑ k : Fin 64, x3 (ValueIdx.ix2 p k) * w3 (ValueIdx.ix2 k q))
          + b (ValueIdx.ix2 (0 : Fin 1) q)) (0 : EReal) := by
  unfold k1_pay1 k1_pay2 k1_pay3
  simp only [shapeCast_self]
  rw [maximumf_apply, addf_apply, addf_apply, addf_apply, addf_apply, matmul_zero_at, matmul_zero_at, matmul_zero_at,
    matmul_zero_at, broadcastTo_1b_ab_apply, broadcast_apply]
  simp only [truncf_apply]
  rw [scalar_zero_f32]

/-! ## The pooling kernel's three stored rows at column q -/

/-- The accumulator row starts at 0. -/
theorem pool_zero_at (q : Fin 64) : k2_pay1 (F := Ideal) (ValueIdx.ix2 (0 : Fin 1) q) = 0 := by
  unfold k2_pay1
  simp only [shapeCast_self]
  rw [broadcast_apply, scalar_zero_f32]

/-- The add-reduction of a [5000,64] block along its rows from the zero word, at column q, is the sum of the column. -/
theorem colSum_at (blk : FVec Ideal S5000x64 .f32) (h : S5000x64.Reduces [0] S64) (hφ : FKind.Formats .f32)
    (hacc : (0x00000000#32 : BitVec 32) = 0x00000000#32) (q : Fin 64) :
    multiReduction (F := Ideal) .add [0] S64 blk 0x00000000#32 h hφ hacc (ix1 q) = ∑ r : Fin 5000, blk (ix2 r q) := by
  refine (Ideal.multiReduction_add_single blk 0x00000000#32 h hφ hacc (ix1 q)).trans ?_
  refine Finset.sum_congr rfl fun r _ => congrArg blk ?_
  refine funext fun a => Fin.ext ?_
  match a with
  | ⟨0, _⟩ => rfl
  | ⟨1, _⟩ => rfl

/-- One step: the accumulator row plus the block's column sums. -/
theorem pool_step_at (a : Vec Ideal S1x64 .f32) (blk : Vec Ideal S5000x64 .f32) (q : Fin 64) :
    k2_pay2 (F := Ideal) a blk (ValueIdx.ix2 (0 : Fin 1) q)
      = a (ValueIdx.ix2 (0 : Fin 1) q) + ∑ r : Fin 5000, blk (ValueIdx.ix2 r q) := by
  unfold k2_pay2
  simp only [shapeCast_self]
  rw [addf_apply, shapeCast_a_1a_apply, colSum_at]

/-- The last step: the accumulator row times the named constant. -/
theorem pool_scale_at (a : Vec Ideal S1x64 .f32) (q : Fin 64) :
    k2_pay3 (F := Ideal) a (ValueIdx.ix2 (0 : Fin 1) q)
      = a (ValueIdx.ix2 (0 : Fin 1) q) * Named.named (F := Ideal) κ "inv_100000" (φ := .f32) 0x3727C5AC#32 := by
  unfold k2_pay3
  rw [mulf_apply, broadcast_apply]

end Cert.KernelIdeal.HandValue

end
-- ==== Proof.Value.CombineArray.lean ====
import proofs.«178208_j6545530159343_2_alg».proof.Proof.KI.Combine
import proofs.«178208_j6545530159343_2_alg».proof.Proof.Value.Payloads
import Idealize.ShloMosaic.Lib.Pipeline.Value
import Idealize.ShloMosaic.Lib.ValueIdx

/-!
# From blocks to the array: what the two combine regions leave in their output array

Each combine region runs 20 points; point t reads rows 5000·t … 5000·t + 4999 of four [100000,64] arrays, the four
whole [64,64] weight matrices and the [1,64] bias row, and writes back rows 5000·t … 5000·t + 4999 of the output. The
20 row blocks tile the output, so after the region the output array is ONE function of the nine arrays the region
found, index by index: at row r and column q,

  max (Σₖ T0[r,k]·W0[k,q] + Σₖ T1[r,k]·W1[k,q] + Σₖ T2[r,k]·W2[k,q] + Σₖ T3[r,k]·W3[k,q] + b[0,q]) 0.

The steps: the index maps in closed form over the grid; each input block read where the output's block says; what
a point writes back is its block of that one function; every index lies in the block of point (row / 5000).
-/

noncomputable section

namespace Cert.KernelIdeal.HandValue

open Cert.KernelIdeal Cert.KernelIdeal.Gen Cert.KernelIdeal.Hand
open Idealize.ShloMosaic Idealize.ShloMosaic.TcCoe Idealize.SL.Sem Idealize.ShloMosaic.ValueIdx
open Idealize.ShloMosaic.Pipeline (Dat)
open scoped BigOperators

/-! ## The function -/

/-- The rectified sum of the four products and the bias row, at every index of a [100000,64] array: row `i 0`,
    column `i 1`. -/
def combineG (T0 T1 T2 T3 : S100000x64.Idx → EReal) (W0 W1 W2 W3 : S64x64.Idx → EReal) (b : S1x64.Idx → EReal) : S100000x64.Idx → EReal := fun i =>
  max (((((∑ k : Fin 64, T0 (ix2 (i 0 : Fin 100000) k) * W0 (ix2 k (i 1 : Fin 64))) + ∑ k : Fin 64, T1 (ix2 (i 0 : Fin 100000) k) * W1 (ix2 k (i 1 : Fin 64))) + ∑ k : Fin 64, T2 (ix2 (i 0 : Fin 100000) k) * W2 (ix2 k (i 1 : Fin 64))) + ∑ k : Fin 64, T3 (ix2 (i 0 : Fin 100000) k) * W3 (ix2 k (i 1 : Fin 64))) + b (ix2 (0 : Fin 1) (i 1 : Fin 64))) (0 : EReal)

/-- At row r and column q. -/
theorem combineG_apply (T0 T1 T2 T3 : S100000x64.Idx → EReal) (W0 W1 W2 W3 : S64x64.Idx → EReal) (b : S1x64.Idx → EReal) (r : Fin 100000) (q : Fin 64) :
    combineG T0 T1 T2 T3 W0 W1 W2 W3 b (ix2 r q) = max (((((∑ k : Fin 64, T0 (ix2 r k) * W0 (ix2 k q)) + ∑ k : Fin 64, T1 (ix2 r k) * W1 (ix2 k q)) + ∑ k : Fin 64, T2 (ix2 r k) * W2 (ix2 k q)) + ∑ k : Fin 64, T3 (ix2 r k) * W3 (ix2 k q)) + b (ix2 (0 : Fin 1) q)) (0 : EReal) := rfl

/-- The offsets of a rectangle that starts at the origin. -/
theorem zero_offsets : (![0, 0] : Fin 2 → Nat) = fun _ => 0 := funext fun a => by fin_cases a <;> rfl

/-! # Region 0 -/

/-- One point of the first combine kernel, over blocks and arrays of the literal shapes: if the four row blocks are
    rows `n * 5000 …` of the arrays `T0 … T3`, and the weights and bias are the arrays `W0 … W3`, `b` themselves, then what the
    body stores at index `y` of its block is the function at the index `i` of the array with row `n * 5000 + y 0` and column `y 1`. -/
theorem combine0_rows (T0 T1 T2 T3 : S100000x64.Idx → EReal) (W0 W1 W2 W3 : S64x64.Idx → EReal) (b : S1x64.Idx → EReal)
    (x0 x1 x2 x3 : Vec Ideal S5000x64 .f32) (w0 w1 w2 w3 : Vec Ideal S64x64 .f32) (bb : Vec Ideal S1x64 .f32) (n : Nat)
    (h0 : ∀ (y : S5000x64.Idx) (i : S100000x64.Idx), (i 0).val = n * 5000 + (y 0).val → (i 1).val = (y 1).val → x0 y = T0 i)
    (h1 : ∀ (y : S5000x64.Idx) (i : S100000x64.Idx), (i 0).val = n * 5000 + (y 0).val → (i 1).val = (y 1).val → x1 y = T1 i)
    (h2 : ∀ (y : S5000x64.Idx) (i : S100000x64.Idx), (i 0).val = n * 5000 + (y 0).val → (i 1).val = (y 1).val → x2 y = T2 i)
    (h3 : ∀ (y : S5000x64.Idx) (i : S100000x64.Idx), (i 0).val = n * 5000 + (y 0).val → (i 1).val = (y 1).val → x3 y = T3 i)
    (g0 : w0 = W0) (g1 : w1 = W1) (g2 : w2 = W2) (g3 : w3 = W3) (gb : bb = b)
    (y : S5000x64.Idx) (i : S100000x64.Idx) (hi0 : (i 0).val = n * 5000 + (y 0).val) (hi1 : (i 1).val = (y 1).val) :
    k0_pay1 (F := Ideal) (k0_pay2 x0 w0 x1 w1 x2 w2 x3 w3 bb) (k0_pay3 (F := Ideal)) y = combineG T0 T1 T2 T3 W0 W1 W2 W3 b i := by
  subst g0 g1 g2 g3 gb
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = n * 5000 + p.val := hi0
  obtain rfl : q' = q := Fin.ext hi1
  rw [combine0_at, combineG_apply]
  have e0 : ∀ k : Fin 64, x0 (ix2 p k) = T0 (ix2 r k) := fun k => h0 (ix2 p k) (ix2 r k) hr rfl
  have e1 : ∀ k : Fin 64, x1 (ix2 p k) = T1 (ix2 r k) := fun k => h1 (ix2 p k) (ix2 r k) hr rfl
  have e2 : ∀ k : Fin 64, x2 (ix2 p k) = T2 (ix2 r k) := fun k => h2 (ix2 p k) (ix2 r k) hr rfl
  have e3 : ∀ k : Fin 64, x3 (ix2 p k) = T3 (ix2 r k) := fun k => h3 (ix2 p k) (ix2 r k) hr rfl
  simp only [e0, e1, e2, e3]

/-- The printed index maps in closed form, decided over the 20 points: the four row windows and the output move together,
    block (t, 0) at point t; the weights' and the bias's block is always block (0, 0), the whole array. -/
theorem index_maps0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_9.index t (0 : Fin 2) = t.val
    ∧ win0_9.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0 :=
  (by decide +kernel : ∀ t : Fin grid0.N, _)

/-- Row window 0's block at point t is rows 5000·t … of its array. -/
theorem rows0_0 (V : (c : Dev nD) → (b : Ref sig .tc) → Buf (Elt Ideal) ((c : Thread nD τ).loc b)) (c : Dev nD) (t : Fin cfg0.N)
    (y : S5000x64.Idx) (i : S100000x64.Idx) (h0 : (i 0).val = t.val * 5000 + (y 0).val) (h1 : (i 1).val = (y 1).val) :
    (iblk0 (F := Ideal) V c 0 t : Vec Ideal S5000x64 .f32) y = (V c main_v0 : S100000x64.Idx → EReal) i := by
  obtain ⟨r0a, r0b, r1a, r1b, r2a, r2b, r3a, r3b, r9a, r9b, c4a, c4b, c5a, c5b, c6a, c6b, c7a, c7b, c8a, c8b⟩ := index_maps0 t
  show V c main_v0 (((cfg0.win 0).blk t).view.emb y) = V c main_v0 i
  refine congrArg _ (funext fun a => Fin.ext ?_)
  match a with
  | ⟨0, _⟩ => show win0_0.index t (0 : Fin 2) * 5000 + 1 * (y 0).val = (i 0).val; omega
  | ⟨1, _⟩ => show win0_0.index t (1 : Fin 2) * 64 + 1 * (y 1).val = (i 1).val; omega

/-- Row window 1's block at point t is rows 5000·t … of its array. -/
theorem rows0_1 (V : (c : Dev nD) → (b : Ref sig .tc) → Buf (Elt Ideal) ((c : Thread nD τ).loc b)) (c : Dev nD) (t : Fin cfg0.N)
    (y : S5000x64.Idx) (i : S100000x64.Idx) (h0 : (i 0).val = t.val * 5000 + (y 0).val) (h1 : (i 1).val = (y 1).val) :
    (iblk0 (F := Ideal) V c 1 t : Vec Ideal S5000x64 .f32) y = (V c main_v46 : S100000x64.Idx → EReal) i := by
  obtain ⟨r0a, r0b, r1a, r1b, r2a, r2b, r3a, r3b, r9a, r9b, c4a, c4b, c5a, c5b, c6a, c6b, c7a, c7b, c8a, c8b⟩ := index_maps0 t
  show V c main_v46 (((cfg0.win 1).blk t).view.emb y) = V c main_v46 i
  refine congrArg _ (funext fun a => Fin.ext ?_)
  match a with
  | ⟨0, _⟩ => show win0_1.index t (0 : Fin 2) * 5000 + 1 * (y 0).val = (i 0).val; omega
  | ⟨1, _⟩ => show win0_1.index t (1 : Fin 2) * 64 + 1 * (y 1).val = (i 1).val; omega

/-- Row window 2's block at point t is rows 5000·t … of its array. -/
theorem rows0_2 (V : (c : Dev nD) → (b : Ref sig .tc) → Buf (Elt Ideal) ((c : Thread nD τ).loc b)) (c : Dev nD) (t : Fin cfg0.N)
    (y : S5000x64.Idx) (i : S100000x64.Idx) (h0 : (i 0).val = t.val * 5000 + (y 0).val) (h1 : (i 1).val = (y 1).val) :
    (iblk0 (F := Ideal) V c 2 t : Vec Ideal S5000x64 .f32) y = (V c main_v62 : S100000x64.Idx → EReal) i := by
  obtain ⟨r0a, r0b, r1a, r1b, r2a, r2b, r3a, r3b, r9a, r9b, c4a, c4b, c5a, c5b, c6a, c6b, c7a, c7b, c8a, c8b⟩ := index_maps0 t
  show V c main_v62 (((cfg0.win 2).blk t).view.emb y) = V c main_v62 i
  refine congrArg _ (funext fun a => Fin.ext ?_)
  match a with
  | ⟨0, _⟩ => show win0_2.index t (0 : Fin 2) * 5000 + 1 * (y 0).val = (i 0).val; omega
  | ⟨1, _⟩ => show win0_2.index t (1 : Fin 2) * 64 + 1 * (y 1).val = (i 1).val; omega

/-- Row window 3's block at point t is rows 5000·t … of its array. -/
theorem rows0_3 (V : (c : Dev nD) → (b : Ref sig .tc) → Buf (Elt Ideal) ((c : Thread nD τ).loc b)) (c : Dev nD) (t : Fin cfg0.N)
    (y : S5000x64.Idx) (i : S100000x64.Idx) (h0 : (i 0).val = t.val * 5000 + (y 0).val) (h1 : (i 1).val = (y 1).val) :
    (iblk0 (F := Ideal) V c 3 t : Vec Ideal S5000x64 .f32) y = (V c main_v78 : S100000x64.Idx → EReal) i := by
  obtain ⟨r0a, r0b, r1a, r1b, r2a, r2b, r3a, r3b, r9a, r9b, c4a, c4b, c5a, c5b, c6a, c6b, c7a, c7b, c8a, c8b⟩ := index_maps0 t
  show V c main_v78 (((cfg0.win 3).blk t).view.emb y) = V c main_v78 i
  refine congrArg _ (funext fun a => Fin.ext ?_)
  match a with
  | ⟨0, _⟩ => show win0_3.index t (0 : Fin 2) * 5000 + 1 * (y 0).val = (i 0).val; omega
  | ⟨1, _⟩ => show win0_3.index t (1 : Fin 2) * 64 + 1 * (y 1).val = (i 1).val; omega

/-- Window 4's block at every point is its whole array. -/
theorem whole0_4 (V : (c : Dev nD) → (b : Ref sig .tc) → Buf (Elt Ideal) ((c : Thread nD τ).loc b)) (c : Dev nD) (t : Fin cfg0.N) :
    (iblk0 (F := Ideal) V c 4 t : Vec Ideal S64x64 .f32) = (V c main_v80 : S64x64.Idx → EReal) := by
  obtain ⟨r0a, r0b, r1a, r1b, r2a, r2b, r3a, r3b, r9a, r9b, c4a, c4b, c5a, c5b, c6a, c6b, c7a, c7b, c8a, c8b⟩ := index_maps0 t
  funext y
  show V c main_v80 (((cfg0.win 4).blk t).view.emb y) = V c main_v80 y
  refine congrArg _ (funext fun a => Fin.ext ?_)
  match a with
  | ⟨0, _⟩ => show win0_4.index t (0 : Fin 2) * 64 + 1 * (y 0).val = (y 0).val; omega
  | ⟨1, _⟩ => show win0_4.index t (1 : Fin 2) * 64 + 1 * (y 1).val = (y 1).val; omega

/-- Window 5's block at every point is its whole array. -/
theorem whole0_5 (V : (c : Dev nD) → (b : Ref sig .tc) → Buf (Elt Ideal) ((c : Thread nD τ).loc b)) (c : Dev nD) (t : Fin cfg0.N) :
    (iblk0 (F := Ideal) V c 5 t : Vec Ideal S64x64 .f32) = (V c main_v82 : S64x64.Idx → EReal) := by
  obtain ⟨r0a, r0b, r1a, r1b, r2a, r2b, r3a, r3b, r9a, r9b, c4a, c4b, c5a, c5b, c6a, c6b, c7a, c7b, c8a, c8b⟩ := index_maps0 t
  funext y
  show V c main_v82 (((cfg0.win 5).blk t).view.emb y) = V c main_v82 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

/-- Window 6's block at every point is its whole array. -/
theorem whole0_6 (V : (c : Dev nD) → (b : Ref sig .tc) → Buf (Elt Ideal) ((c : Thread nD τ).loc b)) (c : Dev nD) (t : Fin cfg0.N) :
    (iblk0 (F := Ideal) V c 6 t : Vec Ideal S64x64 .f32) = (V c main_v84 : S64x64.Idx → EReal) := by
  obtain ⟨r0a, r0b, r1a, r1b, r2a, r2b, r3a, r3b, r9a, r9b, c4a, c4b, c5a, c5b, c6a, c6b, c7a, c7b, c8a, c8b⟩ := index_maps0 t
  funext y
  show V c main_v84 (((cfg0.win 6).blk t).view.emb y) = V c main_v84 y
  refine congrArg _ (funext fun a => Fin.ext ?_)
  match a with
  | ⟨0, _⟩ => show win0_6.index t (0 : Fin 2) * 64 + 1 * (y 0).val = (y 0).val; omega
  | ⟨1, _⟩ => show win0_6.index t (1 : Fin 2) * 64 + 1 * (y 1).val = (y 1).val; omega

/-- Window 7's block at every point is its whole array. -/
theorem whole0_7 (V : (c : Dev nD) → (b : Ref sig .tc) → Buf (Elt Ideal) ((c : Thread nD τ).loc b)) (c : Dev nD) (t : Fin cfg0.N) :
    (iblk0 (F := Ideal) V c 7 t : Vec Ideal S64x64 .f32) = (V c main_v86 : S64x64.Idx → EReal) := by
  obtain ⟨r0a, r0b, r1a, r1b, r2a, r2b, r3a, r3b, r9a, r9b, c4a, c4b, c5a, c5b, c6a, c6b, c7a, c7b, c8a, c8b⟩ := index_maps0 t
  funext y
  show V c main_v86 (((cfg0.win 7).blk t).view.emb y) = V c main_v86 y
  refine congrArg _ (funext fun a => Fin.ext ?_)
  match a with
  | ⟨0, _⟩ => show win0_7.index t (0 : Fin 2) * 64 + 1 * (y 0).val = (y 0).val; omega
  | ⟨1, _⟩ => show win0_7.index t (1 : Fin 2) * 64 + 1 * (y 1).val = (y 1).val; omega

/-- Window 8's block at every point is its whole array. -/
theorem whole0_8 (V : (c : Dev nD) → (b : Ref sig .tc) → Buf (Elt Ideal) ((c : Thread nD τ).loc b)) (c : Dev nD) (t : Fin cfg0.N) :
    (iblk0 (F := Ideal) V c 8 t : Vec Ideal S1x64 .f32) = (V c main_v87 : S1x64.Idx → EReal) := by
  obtain ⟨r0a, r0b, r1a, r1b, r2a, r2b, r3a, r3b, r9a, r9b, c4a, c4b, c5a, c5b, c6a, c6b, c7a, c7b, c8a, c8b⟩ := index_maps0 t
  funext y
  show V c main_v87 (((cfg0.win 8).blk t).view.emb y) = V c main_v87 y
  refine congrArg _ (funext fun a => Fin.ext ?_)
  match a with
  | ⟨0, _⟩ => show win0_8.index t (0 : Fin 2) * 1 + 1 * (y 0).val = (y 0).val; omega
  | ⟨1, _⟩ => show win0_8.index t (1 : Fin 2) * 64 + 1 * (y 1).val = (y 1).val; omega

/-- What point t writes back is block t of the function of the arrays the region found. -/
theorem flushed0_eq (V : (c : Dev nD) → (b : Ref sig .tc) → Buf (Elt Ideal) ((c : Thread nD τ).loc b)) (c : Dev nD) (t : Fin cfg0.N) :
    (dat0 (F := Ideal) V c).flushed 9 t
      = ((cfg0.win 9).blk t).view.read (Elt Ideal) (combineG (V c main_v0) (V c main_v46) (V c main_v62) (V c main_v78) (V c main_v80) (V c main_v82) (V c main_v84) (V c main_v86) (V c main_v87)) := by
  show (cfg0.win 9).cut (grid0.coords t) ((dat0 V c).after 9 t) = _
  rw [after0_9]
  unfold out0_9
  rw [View.canon_unit_zero zero_offsets]
  simp only [View.ld_unit_zero (S := S5000x64) zero_offsets, View.ld_unit_zero (S := S64x64) zero_offsets, View.ld_unit_zero (S := S1x64) zero_offsets]
  obtain ⟨r0a, r0b, r1a, r1b, r2a, r2b, r3a, r3b, r9a, r9b, c4a, c4b, c5a, c5b, c6a, c6b, c7a, c7b, c8a, c8b⟩ := index_maps0 t
  funext j
  show k0_pay1 (F := Ideal) (k0_pay2 (iblk0 V c 0 t) (iblk0 V c 4 t) (iblk0 V c 1 t) (iblk0 V c 5 t) (iblk0 V c 2 t) (iblk0 V c 6 t) (iblk0 V c 3 t) (iblk0 V c 7 t) (iblk0 V c 8 t)) (k0_pay3 (F := Ideal)) (j : S5000x64.Idx)
    = combineG (V c main_v0) (V c main_v46) (V c main_v62) (V c main_v78) (V c main_v80) (V c main_v82) (V c main_v84) (V c main_v86) (V c main_v87) (((cfg0.win 9).blk t).view.emb j)
  refine combine0_rows _ _ _ _ _ _ _ _ _ _ _ _ _ _ _ _ _ _ t.val
    (rows0_0 V c t) (rows0_1 V c t) (rows0_2 V c t) (rows0_3 V c t)
    (whole0_4 V c t) (whole0_5 V c t) (whole0_6 V c t) (whole0_7 V c t) (whole0_8 V c t) j _ ?_ ?_
  · show win0_9.index t (0 : Fin 2) * 5000 + 1 * (j 0).val = t.val * 5000 + (j 0).val; omega
  · show win0_9.index t (1 : Fin 2) * 64 + 1 * (j 1).val = (j 1).val; omega

/-- An index of the output array is in point t's block iff each coordinate is in the block's range on its axis. -/
theorem mem_blk0 (t : Fin cfg0.N) (i : S100000x64.Idx) :
    i ∈ ((cfg0.win 9).blk t).view.set ↔ ∀ a : Fin 2, win0_9.index t a * S5000x64.size a ≤ (i a).val ∧ (i a).val < win0_9.index t a * S5000x64.size a + S5000x64.size a := by
  show i ∈ ((View.whole main_v88).slice (win0_9.rect t)).set ↔ _
  rw [View.set_slice_whole, Rect.mem_set_unit]
  exact Iff.rfl

/-- Every index of the output array is in the block of the point (row / 5000), which writes back. -/
theorem cover0 (i : S100000x64.Idx) : ∃ t : Fin cfg0.N, (cfg0.win 9).flush t = true ∧ i ∈ ((cfg0.win 9).blk t).view.set := by
  have hi0 : (i 0).val < 100000 := (i 0).isLt
  have hi1 : (i 1).val < 64 := (i 1).isLt
  obtain ⟨t, ht⟩ : ∃ t : Fin cfg0.N, t.val = (i 0).val / 5000 := ⟨⟨(i 0).val / 5000, by rw [show cfg0.N = 20 from N_0]; omega⟩, rfl⟩
  obtain ⟨r0a, r0b, r1a, r1b, r2a, r2b, r3a, r3b, r9a, r9b, c4a, c4b, c5a, c5b, c6a, c6b, c7a, c7b, c8a, c8b⟩ := index_maps0 t
  refine ⟨t, flush0_9 t, ?_⟩
  rw [mem_blk0]
  intro a
  match a with
  | ⟨0, _⟩ => show win0_9.index t (0 : Fin 2) * 5000 ≤ (i 0).val ∧ (i 0).val < win0_9.index t (0 : Fin 2) * 5000 + 5000; omega
  | ⟨1, _⟩ => show win0_9.index t (1 : Fin 2) * 64 ≤ (i 1).val ∧ (i 1).val < win0_9.index t (1 : Fin 2) * 64 + 64; omega

/-- The output array after the 20 points: the function of the nine arrays the region found. -/
theorem final0 (V : (c : Dev nD) → (b : Ref sig .tc) → Buf (Elt Ideal) ((c : Thread nD τ).loc b)) (c : Dev nD) :
    (dat0 (F := Ideal) V c).arrAt 9 cfg0.N = combineG (V c main_v0) (V c main_v46) (V c main_v62) (V c main_v78) (V c main_v80) (V c main_v82) (V c main_v84) (V c main_v86) (V c main_v87) :=
  (dat0 (F := Ideal) V c).arrAt_eq_of_cover 9 (combineG (V c main_v0) (V c main_v46) (V c main_v62) (V c main_v78) (V c main_v80) (V c main_v82) (V c main_v84) (V c main_v86) (V c main_v87)) (fun t _ => flushed0_eq V c t) cover0

/-! # Region 1 -/

/-- One point of the second combine kernel, over blocks and arrays of the literal shapes: if the four row blocks are
    rows `n * 5000 …` of the arrays `T0 … T3`, and the weights and bias are the arrays `W0 … W3`, `b` themselves, then what the
    body stores at index `y` of its block is the function at the index `i` of the array with row `n * 5000 + y 0` and column `y 1`. -/
theorem combine1_rows (T0 T1 T2 T3 : S100000x64.Idx → EReal) (W0 W1 W2 W3 : S64x64.Idx → EReal) (b : S1x64.Idx → EReal)
    (x0 x1 x2 x3 : Vec Ideal S5000x64 .f32) (w0 w1 w2 w3 : Vec Ideal S64x64 .f32) (bb : Vec Ideal S1x64 .f32) (n : Nat)
    (h0 : ∀ (y : S5000x64.Idx) (i : S100000x64.Idx), (i 0).val = n * 5000 + (y 0).val → (i 1).val = (y 1).val → x0 y = T0 i)
    (h1 : ∀ (y : S5000x64.Idx) (i : S100000x64.Idx), (i 0).val = n * 5000 + (y 0).val → (i 1).val = (y 1).val → x1 y = T1 i)
    (h2 : ∀ (y : S5000x64.Idx) (i : S100000x64.Idx), (i 0).val = n * 5000 + (y 0).val → (i 1).val = (y 1).val → x2 y = T2 i)
    (h3 : ∀ (y : S5000x64.Idx) (i : S100000x64.Idx), (i 0).val = n * 5000 + (y 0).val → (i 1).val = (y 1).val → x3 y = T3 i)
    (g0 : w0 = W0) (g1 : w1 = W1) (g2 : w2 = W2) (g3 : w3 = W3) (gb : bb = b)
    (y : S5000x64.Idx) (i : S100000x64.Idx) (hi0 : (i 0).val = n * 5000 + (y 0).val) (hi1 : (i 1).val = (y 1).val) :
    k1_pay1 (F := Ideal) (k1_pay2 x0 w0 x1 w1 x2 w2 x3 w3 bb) (k1_pay3 (F := Ideal)) y = combineG T0 T1 T2 T3 W0 W1 W2 W3 b i := by
  subst g0 g1 g2 g3 gb
  obtain ⟨p, q, rfl⟩ : ∃ (p : Fin 5000) (q : Fin 64), y = ix2 p q := ⟨y 0, y 1, eq_ix2 y⟩
  obtain ⟨r, q', rfl⟩ : ∃ (r : Fin 100000) (q' : Fin 64), i = ix2 r q' := ⟨i 0, i 1, eq_ix2 i⟩
  have hr : r.val = n * 5000 + p.val := hi0
  obtain rfl : q' = q := Fin.ext hi1
  rw [combine1_at, combineG_apply]
  have e0 : ∀ k : Fin 64, x0 (ix2 p k) = T0 (ix2 r k) := fun k => h0 (ix2 p k) (ix2 r k) hr rfl
  have e1 : ∀ k : Fin 64, x1 (ix2 p k) = T1 (ix2 r k) := fun k => h1 (ix2 p k) (ix2 r k) hr rfl
  have e2 : ∀ k : Fin 64, x2 (ix2 p k) = T2 (ix2 r k) := fun k => h2 (ix2 p k) (ix2 r k) hr rfl
  have e3 : ∀ k : Fin 64, x3 (ix2 p k) = T3 (ix2 r k) := fun k => h3 (ix2 p k) (ix2 r k) hr rfl
  simp only [e0, e1, e2, e3]

/-- The printed index maps in closed form, decided over the 20 points: the four row windows and the output move together,
    block (t, 0) at point t; the weights' and the bias's block is always block (0, 0), the whole array. -/
theorem index_maps1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = t.val
    ∧ win1_2.index t (1 : Fin 2) = 0
    ∧ win1_3.index t (0 : Fin 2) = t.val
    ∧ win1_3.index t (1 : Fin 2) = 0
    ∧ win1_9.index t (0 : Fin 2) = t.val
    ∧ win1_9.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0 :=
  (by decide +kernel : ∀ t : Fin grid1.N, _)

/-- Row window 0's block at point t is rows 5000·t … of its array. -/
theorem rows1_0 (V : (c : Dev nD) → (b : Ref sig .tc) → Buf (Elt Ideal) ((c : Thread nD τ).loc b)) (c : Dev nD) (t : Fin cfg1.N)
    (y : S5000x64.Idx) (i : S100000x64.Idx) (h0 : (i 0).val = t.val * 5000 + (y 0).val) (h1 : (i 1).val = (y 1).val) :
    (iblk1 (F := Ideal) V c 0 t : Vec Ideal S5000x64 .f32) y = (V c main_v88 : S100000x64.Idx → EReal) i := by
  obtain ⟨r0a, r0b, r1a, r1b, r2a, r2b, r3a, r3b, r9a, r9b, c4a, c4b, c5a, c5b, c6a, c6b, c7a, c7b, c8a, c8b⟩ := index_maps1 t
  show V c main_v88 (((cfg1.win 0).blk t).view.emb y) = V c main_v88 i
  refine congrArg _ (funext fun a => Fin.ext ?_)
  match a with
  | ⟨0, _⟩ => show win1_0.index t (0 : Fin 2) * 5000 + 1 * (y 0).val = (i 0).val; omega
  | ⟨1, _⟩ => show win1_0.index t (1 : Fin 2) * 64 + 1 * (y 1).val = (i 1).val; omega

/-- Row window 1's block at point t is rows 5000·t … of its array. -/
theorem rows1_1 (V : (c : Dev nD) → (b : Ref sig .tc) → Buf (Elt Ideal) ((c : Thread nD τ).loc b)) (c : Dev nD) (t : Fin cfg1.N)
    (y : S5000x64.Idx) (i : S100000x64.Idx) (h0 : (i 0).val = t.val * 5000 + (y 0).val) (h1 : (i 1).val = (y 1).val) :
    (iblk1 (F := Ideal) V c 1 t : Vec Ideal S5000x64 .f32) y = (V c main_v101 : S100000x64.Idx → EReal) i := by
  obtain ⟨r0a, r0b, r1a, r1b, r2a, r2b, r3a, r3b, r9a, r9b, c4a, c4b, c5a, c5b, c6a, c6b, c7a, c7b, c8a, c8b⟩ := index_maps1 t
  show V c main_v101 (((cfg1.win 1).blk t).view.emb y) = V c main_v101 i
  refine congrArg _ (funext fun a => Fin.ext ?_)
  match a with
  | ⟨0, _⟩ => show win1_1.index t (0 : Fin 2) * 5000 + 1 * (y 0).val = (i 0).val; omega
  | ⟨1, _⟩ => show win1_1.index t (1 : Fin 2) * 64 + 1 * (y 1).val = (i 1).val; omega

/-- Row window 2's block at point t is rows 5000·t … of its array. -/
theorem rows1_2 (V : (c : Dev nD) → (b : Ref sig .tc) → Buf (Elt Ideal) ((c : Thread nD τ).loc b)) (c : Dev nD) (t : Fin cfg1.N)
    (y : S5000x64.Idx) (i : S100000x64.Idx) (h0 : (i 0).val = t.val * 5000 + (y 0).val) (h1 : (i 1).val = (y 1).val) :
    (iblk1 (F := Ideal) V c 2 t : Vec Ideal S5000x64 .f32) y = (V c main_v117 : S100000x64.Idx → EReal) i := by
  obtain ⟨r0a, r0b, r1a, r1b, r2a, r2b, r3a, r3b, r9a, r9b, c4a, c4b, c5a, c5b, c6a, c6b, c7a, c7b, c8a, c8b⟩ := index_maps1 t
  show V c main_v117 (((cfg1.win 2).blk t).view.emb y) = V c main_v117 i
  refine congrArg _ (funext fun a => Fin.ext ?_)
  match a with
  | ⟨0, _⟩ => show win1_2.index t (0 : Fin 2) * 5000 + 1 * (y 0).val = (i 0).val; omega
  | ⟨1, _⟩ => show win1_2.index t (1 : Fin 2) * 64 + 1 * (y 1).val = (i 1).val; omega

/-- Row window 3's block at point t is rows 5000·t … of its array. -/
theorem rows1_3 (V : (c : Dev nD) → (b : Ref sig .tc) → Buf (Elt Ideal) ((c : Thread nD τ).loc b)) (c : Dev nD) (t : Fin cfg1.N)
    (y : S5000x64.Idx) (i : S100000x64.Idx) (h0 : (i 0).val = t.val * 5000 + (y 0).val) (h1 : (i 1).val = (y 1).val) :
    (iblk1 (F := Ideal) V c 3 t : Vec Ideal S5000x64 .f32) y = (V c main_v133 : S100000x64.Idx → EReal) i := by
  obtain ⟨r0a, r0b, r1a, r1b, r2a, r2b, r3a, r3b, r9a, r9b, c4a, c4b, c5a, c5b, c6a, c6b, c7a, c7b, c8a, c8b⟩ := index_maps1 t
  show V c main_v133 (((cfg1.win 3).blk t).view.emb y) = V c main_v133 i
  refine congrArg _ (funext fun a => Fin.ext ?_)
  match a with
  | ⟨0, _⟩ => show win1_3.index t (0 : Fin 2) * 5000 + 1 * (y 0).val = (i 0).val; omega
  | ⟨1, _⟩ => show win1_3.index t (1 : Fin 2) * 64 + 1 * (y 1).val = (i 1).val; omega

/-- Window 4's block at every point is its whole array. -/
theorem whole1_4 (V : (c : Dev nD) → (b : Ref sig .tc) → Buf (Elt Ideal) ((c : Thread nD τ).loc b)) (c : Dev nD) (t : Fin cfg1.N) :
    (iblk1 (F := Ideal) V c 4 t : Vec Ideal S64x64 .f32) = (V c main_v135 : S64x64.Idx → EReal) := by
  obtain ⟨r0a, r0b, r1a, r1b, r2a, r2b, r3a, r3b, r9a, r9b, c4a, c4b, c5a, c5b, c6a, c6b, c7a, c7b, c8a, c8b⟩ := index_maps1 t
  funext y
  show V c main_v135 (((cfg1.win 4).blk t).view.emb y) = V c main_v135 y
  refine congrArg _ (funext fun a => Fin.ext ?_)
  match a with
  | ⟨0, _⟩ => show win1_4.index t (0 : Fin 2) * 64 + 1 * (y 0).val = (y 0).val; omega
  | ⟨1, _⟩ => show win1_4.index t (1 : Fin 2) * 64 + 1 * (y 1).val = (y 1).val; omega

/-- Window 5's block at every point is its whole array. -/
theorem whole1_5 (V : (c : Dev nD) → (b : Ref sig .tc) → Buf (Elt Ideal) ((c : Thread nD τ).loc b)) (c : Dev nD) (t : Fin cfg1.N) :
    (iblk1 (F := Ideal) V c 5 t : Vec Ideal S64x64 .f32) = (V c main_v137 : S64x64.Idx → EReal) := by
  obtain ⟨r0a, r0b, r1a, r1b, r2a, r2b, r3a, r3b, r9a, r9b, c4a, c4b, c5a, c5b, c6a, c6b, c7a, c7b, c8a, c8b⟩ := index_maps1 t
  funext y
  show V c main_v137 (((cfg1.win 5).blk t).view.emb y) = V c main_v137 y
  refine congrArg _ (funext fun a => Fin.ext ?_)
  match a with
  | ⟨0, _⟩ => show win1_5.index t (0 : Fin 2) * 64 + 1 * (y 0).val = (y 0).val; omega
  | ⟨1, _⟩ => show win1_5.index t (1 : Fin 2) * 64 + 1 * (y 1).val = (y 1).val; omega

/-- Window 6's block at every point is its whole array. -/
theorem whole1_6 (V : (c : Dev nD) → (b : Ref sig .tc) → Buf (Elt Ideal) ((c : Thread nD τ).loc b)) (c : Dev nD) (t : Fin cfg1.N) :
    (iblk1 (F := Ideal) V c 6 t : Vec Ideal S64x64 .f32) = (V c main_v139 : S64x64.Idx → EReal) := by
  obtain ⟨r0a, r0b, r1a, r1b, r2a, r2b, r3a, r3b, r9a, r9b, c4a, c4b, c5a, c5b, c6a, c6b, c7a, c7b, c8a, c8b⟩ := index_maps1 t
  funext y
  show V c main_v139 (((cfg1.win 6).blk t).view.emb y) = V c main_v139 y
  refine congrArg _ (funext fun a => Fin.ext ?_)
  match a with
  | ⟨0, _⟩ => show win1_6.index t (0 : Fin 2) * 64 + 1 * (y 0).val = (y 0).val; omega
  | ⟨1, _⟩ => show win1_6.index t (1 : Fin 2) * 64 + 1 * (y 1).val = (y 1).val; omega

/-- Window 7's block at every point is its whole array. -/
theorem whole1_7 (V : (c : Dev nD) → (b : Ref sig .tc) → Buf (Elt Ideal) ((c : Thread nD τ).loc b)) (c : Dev nD) (t : Fin cfg1.N) :
    (iblk1 (F := Ideal) V c 7 t : Vec Ideal S64x64 .f32) = (V c main_v141 : S64x64.Idx → EReal) := by
  obtain ⟨r0a, r0b, r1a, r1b, r2a, r2b, r3a, r3b, r9a, r9b, c4a, c4b, c5a, c5b, c6a, c6b, c7a, c7b, c8a, c8b⟩ := index_maps1 t
  funext y
  show V c main_v141 (((cfg1.win 7).blk t).view.emb y) = V c main_v141 y
  refine congrArg _ (funext fun a => Fin.ext ?_)
  match a with
  | ⟨0, _⟩ => show win1_7.index t (0 : Fin 2) * 64 + 1 * (y 0).val = (y 0).val; omega
  | ⟨1, _⟩ => show win1_7.index t (1 : Fin 2) * 64 + 1 * (y 1).val = (y 1).val; omega

/-- Window 8's block at every point is its whole array. -/
theorem whole1_8 (V : (c : Dev nD) → (b : Ref sig .tc) → Buf (Elt Ideal) ((c : Thread nD τ).loc b)) (c : Dev nD) (t : Fin cfg1.N) :
    (iblk1 (F := Ideal) V c 8 t : Vec Ideal S1x64 .f32) = (V c main_v142 : S1x64.Idx → EReal) := by
  obtain ⟨r0a, r0b, r1a, r1b, r2a, r2b, r3a, r3b, r9a, r9b, c4a, c4b, c5a, c5b, c6a, c6b, c7a, c7b, c8a, c8b⟩ := index_maps1 t
  funext y
  show V c main_v142 (((cfg1.win 8).blk t).view.emb y) = V c main_v142 y
  refine congrArg _ (funext fun a => Fin.ext ?_)
  match a with
  | ⟨0, _⟩ => show win1_8.index t (0 : Fin 2) * 1 + 1 * (y 0).val = (y 0).val; omega
  | ⟨1, _⟩ => show win1_8.index t (1 : Fin 2) * 64 + 1 * (y 1).val = (y 1).val; omega

/-- What point t writes back is block t of the function of the arrays the region found. -/
theorem flushed1_eq (V : (c : Dev nD) → (b : Ref sig .tc) → Buf (Elt Ideal) ((c : Thread nD τ).loc b)) (c : Dev nD) (t : Fin cfg1.N) :
    (dat1 (F := Ideal) V c).flushed 9 t
      = ((cfg1.win 9).blk t).view.read (Elt Ideal) (combineG (V c main_v88) (V c main_v101) (V c main_v117) (V c main_v133) (V c main_v135) (V c main_v137) (V c main_v139) (V c main_v141) (V c main_v142)) := by
  show (cfg1.win 9).cut (grid1.coords t) ((dat1 V c).after 9 t) = _
  rw [after1_9]
  unfold out1_9
  rw [View.canon_unit_zero zero_offsets]
  simp only [View.ld_unit_zero (S := S5000x64) zero_offsets, View.ld_unit_zero (S := S64x64) zero_offsets, View.ld_unit_zero (S := S1x64) zero_offsets]
  obtain ⟨r0a, r0b, r1a, r1b, r2a, r2b, r3a, r3b, r9a, r9b, c4a, c4b, c5a, c5b, c6a, c6b, c7a, c7b, c8a, c8b⟩ := index_maps1 t
  funext j
  show k1_pay1 (F := Ideal) (k1_pay2 (iblk1 V c 0 t) (iblk1 V c 4 t) (iblk1 V c 1 t) (iblk1 V c 5 t) (iblk1 V c 2 t) (iblk1 V c 6 t) (iblk1 V c 3 t) (iblk1 V c 7 t) (iblk1 V c 8 t)) (k1_pay3 (F := Ideal)) (j : S5000x64.Idx)
    = combineG (V c main_v88) (V c main_v101) (V c main_v117) (V c main_v133) (V c main_v135) (V c main_v137) (V c main_v139) (V c main_v141) (V c main_v142) (((cfg1.win 9).blk t).view.emb j)
  refine combine1_rows _ _ _ _ _ _ _ _ _ _ _ _ _ _ _ _ _ _ t.val
    (rows1_0 V c t) (rows1_1 V c t) (rows1_2 V c t) (rows1_3 V c t)
    (whole1_4 V c t) (whole1_5 V c t) (whole1_6 V c t) (whole1_7 V c t) (whole1_8 V c t) j _ ?_ ?_
  · show win1_9.index t (0 : Fin 2) * 5000 + 1 * (j 0).val = t.val * 5000 + (j 0).val; omega
  · show win1_9.index t (1 : Fin 2) * 64 + 1 * (j 1).val = (j 1).val; omega

/-- An index of the output array is in point t's block iff each coordinate is in the block's range on its axis. -/
theorem mem_blk1 (t : Fin cfg1.N) (i : S100000x64.Idx) :
    i ∈ ((cfg1.win 9).blk t).view.set ↔ ∀ a : Fin 2, win1_9.index t a * S5000x64.size a ≤ (i a).val ∧ (i a).val < win1_9.index t a * S5000x64.size a + S5000x64.size a := by
  show i ∈ ((View.whole main_v143).slice (win1_9.rect t)).set ↔ _
  rw [View.set_slice_whole, Rect.mem_set_unit]
  exact Iff.rfl

/-- Every index of the output array is in the block of the point (row / 5000), which writes back. -/
theorem cover1 (i : S100000x64.Idx) : ∃ t : Fin cfg1.N, (cfg1.win 9).flush t = true ∧ i ∈ ((cfg1.win 9).blk t).view.set := by
  have hi0 : (i 0).val < 100000 := (i 0).isLt
  have hi1 : (i 1).val < 64 := (i 1).isLt
  obtain ⟨t, ht⟩ : ∃ t : Fin cfg1.N, t.val = (i 0).val / 5000 := ⟨⟨(i 0).val / 5000, by rw [show cfg1.N = 20 from N_1]; omega⟩, rfl⟩
  obtain ⟨r0a, r0b, r1a, r1b, r2a, r2b, r3a, r3b, r9a, r9b, c4a, c4b, c5a, c5b, c6a, c6b, c7a, c7b, c8a, c8b⟩ := index_maps1 t
  refine ⟨t, flush1_9 t, ?_⟩
  rw [mem_blk1]
  intro a
  match a with
  | ⟨0, _⟩ => show win1_9.index t (0 : Fin 2) * 5000 ≤ (i 0).val ∧ (i 0).val < win1_9.index t (0 : Fin 2) * 5000 + 5000; omega
  | ⟨1, _⟩ => show win1_9.index t (1 : Fin 2) * 64 ≤ (i 1).val ∧ (i 1).val < win1_9.index t (1 : Fin 2) * 64 + 64; omega

/-- The output array after the 20 points: the function of the nine arrays the region found. -/
theorem final1 (V : (c : Dev nD) → (b : Ref sig .tc) → Buf (Elt Ideal) ((c : Thread nD τ).loc b)) (c : Dev nD) :
    (dat1 (F := Ideal) V c).arrAt 9 cfg1.N = combineG (V c main_v88) (V c main_v101) (V c main_v117) (V c main_v133) (V c main_v135) (V c main_v137) (V c main_v139) (V c main_v141) (V c main_v142) :=
  (dat1 (F := Ideal) V c).arrAt_eq_of_cover 9 (combineG (V c main_v88) (V c main_v101) (V c main_v117) (V c main_v133) (V c main_v135) (V c main_v137) (V c main_v139) (V c main_v141) (V c main_v142)) (fun t _ => flushed1_eq V c t) cover1

end Cert.KernelIdeal.HandValue

end
-- ==== Proof.LibBlockSum.lean ====
/-
  Sums over an index set cut into equal blocks, and two-dimensional arrays read at natural-number coordinates.

  • A sum over the naturals below a·b, of a function of the natural index, is the sum over the a blocks of the sums over the b
    places within a block (index b·r + p): the index set is cut into consecutive blocks. Stated in any commutative
    additive monoid, so it holds of the extended reals, where sums need no finiteness.
  • `at2 X i j` reads a two-dimensional array of extended reals at natural-number coordinates (zero outside the array),
    so that a sum over blocks can be written without carrying bound proofs through the summation.
-/
import Mathlib.Algebra.BigOperators.Fin
import Mathlib.Algebra.BigOperators.Intervals
import Idealize.ShloMosaic.Lib.ValueIdx
import Mathlib.Data.EReal.Basic

namespace Cert.BlockSum

open Idealize.ShloMosaic Idealize.ShloMosaic.ValueIdx

variable {M : Type*} [AddCommMonoid M]

/-- A sum over the `a` blocks of `b` consecutive indices each is the sum over all `a * b` indices. -/
theorem sum_range_mul (a b : ℕ) (f : ℕ → M) :
    ∑ r ∈ Finset.range a, ∑ p ∈ Finset.range b, f (b * r + p) = ∑ i ∈ Finset.range (a * b), f i := by
  induction a with
  | zero => simp
  | succ a ih =>
    rw [Finset.sum_range_succ, ih, Nat.succ_mul, Finset.sum_range_add]
    rw [Nat.mul_comm a b]

/-- The same with the places within a block and the whole index set as `Fin` types. -/
theorem sum_range_blocks (a b : ℕ) {n : ℕ} (f : ℕ → M) (h : a * b = n) :
    ∑ r ∈ Finset.range a, ∑ p : Fin b, f (b * r + p.val) = ∑ i : Fin n, f i.val := by
  subst h
  rw [Finset.sum_range (fun i => f i) |>.symm]
  rw [← sum_range_mul a b f]
  exact Finset.sum_congr rfl fun r _ => (Finset.sum_range (fun p => f (b * r + p))).symm

/-- An array of extended reals as the function of its index that it is: a way to say at which type its entries are read. -/
abbrev asFn (s : Shape) (X : s.Idx → EReal) : s.Idx → EReal := X

/-- A two-dimensional array read at natural-number coordinates; zero outside the array. -/
noncomputable def at2 {a b : ℕ} (X : (⟨2, ![a, b]⟩ : Shape).Idx → EReal) (i j : ℕ) : EReal :=
  if h : i < a ∧ j < b then X (ix2 ⟨i, h.1⟩ ⟨j, h.2⟩) else 0

theorem at2_of_lt {a b : ℕ} (X : (⟨2, ![a, b]⟩ : Shape).Idx → EReal) {i j : ℕ} (hi : i < a) (hj : j < b) :
    at2 X i j = X (ix2 ⟨i, hi⟩ ⟨j, hj⟩) := dif_pos ⟨hi, hj⟩

theorem at2_ix2 {a b : ℕ} (X : (⟨2, ![a, b]⟩ : Shape).Idx → EReal) (i : Fin a) (j : Fin b) :
    at2 X i.val j.val = X (ix2 i j) := at2_of_lt X i.isLt j.isLt

end Cert.BlockSum
-- ==== Proof.Value.PoolMath.lean ====
/-
  The arithmetic of the pooling step, on the extended reals, with no program in sight.

  • The kernel multiplies the column sum by a constant printed under a name, which denotes the rational 1/100000;
    the reference adds the column sum to zero and divides by the word of 100000.0, which denotes the real 100000.
    On every extended real the quotient by a nonzero real is the product with its reciprocal, so the two agree,
    whatever the sum is — no finiteness is used.
  • The kernel's column sum is accumulated over twenty consecutive blocks of 5000 rows from zero; sums on the
    extended reals are those of a commutative monoid, so the running sum after all blocks is the one sum over
    the 100000 rows.
-/
import proofs.«178208_j6545530159343_2_alg».proof.KernelIdeal
import proofs.«178208_j6545530159343_2_alg».proof.Proof.LibBlockSum
import Idealize.ShloMosaic.PureOps.Ideal
import Idealize.ShloMosaic.PureOps.IdealRules

noncomputable section

namespace Cert.KernelIdeal.PoolMath

open Idealize.ShloMosaic

/-- The named reciprocal denotes the rational 1/100000, by the certificate's table. -/
theorem inv_n : Named.named (F := Ideal) Cert.KernelIdeal.κ "inv_100000" (φ := .f32) 0x3727C5AC#32 = ((1 / 100000 : ℝ) : EReal) :=
  IdealRules.named_const.ideal_named_scalar _ _ _ _ rfl

/-- The word of 100000.0 denotes the real 100000. -/
theorem ofBits_100000 : Ideal.ofBits .f32 0x47C35000#32 = ((100000 : ℝ) : EReal) := by
  simp [Ideal.ofBits, Ideal.ieee, -EReal.coe_mul]; norm_num

/-- The product with the named reciprocal is the host's quotient of zero plus the sum by 100000, on every extended real. -/
theorem scale_eq_div (S : EReal) :
    S * Named.named (F := Ideal) Cert.KernelIdeal.κ "inv_100000" (φ := .f32) 0x3727C5AC#32
      = Ideal.div ((0 : EReal) + S) (Ideal.ofBits .f32 0x47C35000#32) := by
  rw [inv_n, ofBits_100000, zero_add, Ideal.div_coe (by norm_num : (100000 : ℝ) ≠ 0)]

/-- The running sum from zero of the block sums `g 0, g 1, …`. -/
def runSum (g : ℕ → EReal) : ℕ → EReal
  | 0 => 0
  | n + 1 => runSum g n + g n

theorem runSum_eq (g : ℕ → EReal) (n : ℕ) : runSum g n = ∑ t ∈ Finset.range n, g t := by
  induction n with
  | zero => rfl
  | succ n ih => rw [runSum, ih, Finset.sum_range_succ]

/-- A column of 100000 entries read at a natural-number row; zero past the end. -/
def colAt (h : Fin 100000 → EReal) (i : ℕ) : EReal := if hi : i < 100000 then h ⟨i, hi⟩ else 0

theorem colAt_val (h : Fin 100000 → EReal) (i : Fin 100000) : colAt h i.val = h i := dif_pos i.isLt

/-- Twenty block sums of 5000 rows each, accumulated from zero, are the sum over the 100000 rows. -/
theorem runSum_blocks (h : Fin 100000 → EReal) :
    runSum (fun t => ∑ r : Fin 5000, colAt h (5000 * t + r.val)) 20 = ∑ i : Fin 100000, h i := by
  rw [runSum_eq, Cert.BlockSum.sum_range_blocks 20 5000 (colAt h) (by norm_num : 20 * 5000 = 100000)]
  exact Finset.sum_congr rfl fun i _ => colAt_val h i

end Cert.KernelIdeal.PoolMath

end
-- ==== Proof.Value.PoolArray.lean ====
/-
  What the pooling region leaves in its output array, read at the exact (extended-real) meaning of the floats, as one
  closed form of the input array the region was entered with.

  The output window's one block is the whole [1, 64] array and is written back at the last point only, so the array
  ends holding what the body stored there: the scratch after twenty points, times the named reciprocal of 100000.
  Column q of the scratch after n points is the running sum, from zero, of the first n blocks' sums of column q, and row
  r of block t is row 5000 t + r of the input array; so after twenty points it is the sum of column q over the 100000
  rows, and the product with the reciprocal is the quotient of zero plus that sum by 100000.
-/
import proofs.«178208_j6545530159343_2_alg».proof.Proof.KI.Pool
import proofs.«178208_j6545530159343_2_alg».proof.Proof.Value.Payloads
import proofs.«178208_j6545530159343_2_alg».proof.Proof.Value.PoolMath
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand Cert.KernelIdeal.PoolMath
open Idealize.ShloMosaic Idealize.ShloMosaic.TcCoe Idealize.ShloMosaic.ValueIdx Idealize.SL.Sem
open Idealize.ShloMosaic.Pipeline (Dat)
open scoped BigOperators

/-! ## Where a block's element sits in its array -/

/-- The windows' block indices over the grid: the input's block at point `t` is block `t` of the rows and the only block of
    the columns; the output's one block is the whole of its array. -/
theorem idx_pool : ∀ t : Fin cfg2.N, win2_0.index t (0 : Fin 2) = t.val ∧ win2_0.index t (1 : Fin 2) = 0
    ∧ win2_1.index t (0 : Fin 2) = 0 ∧ win2_1.index t (1 : Fin 2) = 0 :=
  (by decide +kernel : ∀ t : Fin grid2.N, win2_0.index t (0 : Fin 2) = t.val ∧ win2_0.index t (1 : Fin 2) = 0
    ∧ win2_1.index t (0 : Fin 2) = 0 ∧ win2_1.index t (1 : Fin 2) = 0)

section Array

variable (V : (c : Dev nD) → (b : Ref sig .tc) → Buf (Elt Ideal) ((c : Thread nD τ).loc b))

/-- Row `r`, column `q` of the input's block at point `t` is row `5000 t + r`, column `q` of the array. -/
theorem blk_read (c : Dev nD) (t : Fin cfg2.N) (r : Fin 5000) (q : Fin 64) (h : 5000 * t.val + r.val < 100000) :
    (iblk2 V c 0 t : S5000x64.Idx → EReal) (ix2 r q)
      = (V c main_v143 : S100000x64.Idx → EReal) (ix2 ⟨5000 * t.val + r.val, h⟩ q) := by
  obtain ⟨e0, e1, -, -⟩ := idx_pool t
  show (V c main_v143 : S100000x64.Idx → EReal) (((cfg2.win 0).blk t).view.emb (ix2 r q)) = _
  have e : ((cfg2.win 0).blk t).view.emb (ix2 r q) = (ix2 ⟨5000 * t.val + r.val, h⟩ q : S100000x64.Idx) := by
    funext a; apply Fin.ext
    match a with
    | ⟨0, _⟩ => show win2_0.index t (0 : Fin 2) * 5000 + 1 * r.val = 5000 * t.val + r.val; omega
    | ⟨1, _⟩ => show win2_0.index t (1 : Fin 2) * 64 + 1 * q.val = q.val; omega
  rw [e]

/-- The same at a position of the grid given as a number: the block's column, read through the array's column. -/
theorem blkAt2_read (c : Dev nD) (n : ℕ) (hn : n < 20) (r : Fin 5000) (q : Fin 64) :
    (blkAt2 V c n : S5000x64.Idx → EReal) (ix2 r q)
      = colAt (fun i => (V c main_v143 : S100000x64.Idx → EReal) (ix2 i q)) (5000 * n + r.val) := by
  have hN : n < cfg2.N := by rw [show cfg2.N = 20 from N_2]; exact hn
  have e : blkAt2 V c n = iblk2 V c 0 ⟨n, hN⟩ := blkAt2_val V c ⟨n, hN⟩
  have hlt : 5000 * n + r.val < 100000 := by have := r.isLt; omega
  rw [e, blk_read V c ⟨n, hN⟩ r q hlt]
  exact (colAt_val (fun i => (V c main_v143 : S100000x64.Idx → EReal) (ix2 i q)) ⟨5000 * n + r.val, hlt⟩).symm

/-! ## The running sum, column by column -/

/-- After `n` points column `q` of the scratch is the running sum, from zero, of the first `n` blocks' sums of column `q`. -/
theorem acc2_col (c : Dev nD) (q : Fin 64) : ∀ n : ℕ, n ≤ 20 →
    (acc2 V c n : S1x64.Idx → EReal) (ix2 (0 : Fin 1) q)
      = runSum (fun t => ∑ r : Fin 5000, colAt (fun i => (V c main_v143 : S100000x64.Idx → EReal) (ix2 i q)) (5000 * t + r.val)) n
  | 0, _ => by rw [acc2_zero]; exact pool_zero_at q
  | n + 1, h => by
    rw [acc2_succ, pool_step_at, acc2_col c q n (by omega)]
    show _ = runSum _ n + _
    refine congrArg _ (Finset.sum_congr rfl fun r _ => ?_)
    exact blkAt2_read V c n (by omega) r q

/-! ## What the region leaves in its output array -/

/-- What any point would write back is the scaled total read through the output's one block, which is the whole array. -/
theorem flushed_pool (c : Dev nD) (t : Fin cfg2.N) :
    (dat2 V c).flushed 1 t = ((cfg2.win 1).blk t).view.read (Elt Ideal) (k2_pay3 (acc2 V c 20)) := by
  show (cfg2.win 1).cut (grid2.coords t) ((dat2 V c).after 1 t) = _
  rw [after2_1]
  obtain ⟨-, -, e0, e1⟩ := idx_pool t
  funext j
  show (k2_pay3 (acc2 V c 20) : S1x64.Idx → EReal) j = (k2_pay3 (acc2 V c 20) : S1x64.Idx → EReal) (((cfg2.win 1).blk t).view.emb j)
  have e : ((cfg2.win 1).blk t).view.emb j = (j : S1x64.Idx) := by
    funext a; apply Fin.ext
    match a with
    | ⟨0, _⟩ => show win2_1.index t (0 : Fin 2) * 1 + 1 * (j 0).val = (j 0).val; omega
    | ⟨1, _⟩ => show win2_1.index t (1 : Fin 2) * 64 + 1 * (j 1).val = (j 1).val; omega
  rw [e]

/-- An index of the output array is in point `t`'s block iff each coordinate is in the block's range on its axis. -/
theorem mem_blk_pool (t : Fin cfg2.N) (i : S1x64.Idx) :
    i ∈ ((cfg2.win 1).blk t).view.set ↔ ∀ a : Fin 2, win2_1.index t a * S1x64.size a ≤ (i a).val ∧ (i a).val < win2_1.index t a * S1x64.size a + S1x64.size a := by
  show i ∈ ((View.whole main_v144).slice (win2_1.rect t)).set ↔ _
  rw [View.set_slice_whole, Rect.mem_set_unit]
  exact Iff.rfl

/-- The last point writes the block back, and the block holds every index of the array. -/
theorem cover_pool (i : S1x64.Idx) : ∃ t : Fin cfg2.N, (cfg2.win 1).flush t = true ∧ i ∈ ((cfg2.win 1).blk t).view.set := by
  have hN : 19 < cfg2.N := by rw [show cfg2.N = 20 from N_2]; decide
  refine ⟨⟨19, hN⟩, (flush2_1 ⟨19, hN⟩).mpr (show 19 % 20 = 19 from rfl), ?_⟩
  rw [mem_blk_pool]
  obtain ⟨-, -, e0, e1⟩ := idx_pool ⟨19, hN⟩
  intro a
  match a with
  | ⟨0, _⟩ => show win2_1.index ⟨19, hN⟩ (0 : Fin 2) * 1 ≤ (i 0).val ∧ (i 0).val < win2_1.index ⟨19, hN⟩ (0 : Fin 2) * 1 + 1; have h0 : (i 0).val < 1 := (i 0).isLt; omega
  | ⟨1, _⟩ => show win2_1.index ⟨19, hN⟩ (1 : Fin 2) * 64 ≤ (i 1).val ∧ (i 1).val < win2_1.index ⟨19, hN⟩ (1 : Fin 2) * 64 + 64; have h1 : (i 1).val < 64 := (i 1).isLt; omega

/-- After the region the output array is the scaled total of the twenty blocks' column sums. -/
theorem arr_pool (c : Dev nD) : (dat2 (F := Ideal) V c).arrAt 1 cfg2.N = k2_pay3 (acc2 V c 20) :=
  (dat2 V c).arrAt_eq_of_cover 1 (k2_pay3 (acc2 V c 20)) (fun t _ => flushed_pool V c t) cover_pool

/-- THE POOLED ROW. After the region, column `q` of the output array is the quotient by 100000 of zero plus the sum of
    column `q` of the input array as the region found it: the twenty block sums, accumulated from zero, are the one sum over
    the 100000 rows, and the product with the named reciprocal is that quotient. -/
theorem final2 (c : Dev nD) (q : Fin 64) :
    (dat2 (F := Ideal) V c).arrAt 1 cfg2.N (ValueIdx.ix2 (0 : Fin 1) q)
      = Ideal.div ((0 : EReal) + (∑ r : Fin 100000, (V c main_v143 : S100000x64.Idx → EReal) (ValueIdx.ix2 r q) : EReal)) (Ideal.ofBits .f32 0x47C35000#32) := by
  refine (congrFun (arr_pool V c) _).trans ?_
  rw [pool_scale_at, acc2_col V c q 20 le_rfl,
    runSum_blocks (fun i => (V c main_v143 : S100000x64.Idx → EReal) (ix2 i q)), scale_eq_div]

end Array

end Cert.KernelIdeal.HandValue

end
-- ==== Proof.Value.HostBridge.lean ====
/-
  The kernel program's host operations before its first region compute, buffer by buffer, what the reference's
  stages of the same operations compute.

  Both programs begin with the same tensor operations on the same arguments: the two feature arrays joined along the
  columns, the two rows of the edge list, the edge weights (1 off the diagonal, 0 on it), the degrees scattered from
  them, and the inverse square roots of the degrees where the degree is positive, 0 elsewhere. The buffers' contents
  after the first four stretches of host operations, from ANY contents V of the arguments, are therefore the reference's
  stages at V's arguments; an argument itself is written by no operation.

  The fourth stretch is an outlined call (a select between the inverse square roots and a broadcast zero): its result is
  first computed as the plain select of the three buffers it reads, and only then compared with the reference's stage.
-/
import proofs.«178208_j6545530159343_2_alg».proof.Proof.Gen.KernelIdeal.Launch
import proofs.«178208_j6545530159343_2_alg».proof.Proof.RefReadP
import Idealize.ShloMosaic.Lib.StableHlo.Run

noncomputable section

namespace Cert.Proof.HostBridge

open Idealize.ShloMosaic Idealize.ShloMosaic.StableHlo

/-! ## After the first three stretches: the buffers the outlined call reads -/

set_option maxRecDepth 8192 in
set_option maxHeartbeats 4000000 in
/-- The mask "degree is positive" after the first three stretches is the reference's stage 12. -/
theorem q2_v12 (V : Valuation Cert.KernelIdeal.τ Cert.KernelIdeal.sig (Elt Ideal)) (x1 : (⟨Cert.ReferenceIdeal.S2x1200000, .i32⟩ : BufTy).Contents (Elt Ideal))
    (h1 : V (Proc.devRef .tc Cert.KernelIdeal.main_arg1) = x1) :
    (StableHlo.after Cert.KernelIdeal.Gen.hostOps0_2 (StableHlo.after Cert.KernelIdeal.Gen.hostOps0_1 (StableHlo.after Cert.KernelIdeal.Gen.hostOps0 V))) (Proc.devRef .tc Cert.KernelIdeal.main_v12) = Cert.ReferenceIdeal.Read.val_main_v12 (F := Ideal) x1 := by
  subst h1
  after_results_simp
  rfl

set_option maxRecDepth 8192 in
set_option maxHeartbeats 4000000 in
/-- The inverse square roots of the clamped degrees after the first three stretches are the reference's stage 15. -/
theorem q2_v15 (V : Valuation Cert.KernelIdeal.τ Cert.KernelIdeal.sig (Elt Ideal)) (x1 : (⟨Cert.ReferenceIdeal.S2x1200000, .i32⟩ : BufTy).Contents (Elt Ideal))
    (h1 : V (Proc.devRef .tc Cert.KernelIdeal.main_arg1) = x1) :
    (StableHlo.after Cert.KernelIdeal.Gen.hostOps0_2 (StableHlo.after Cert.KernelIdeal.Gen.hostOps0_1 (StableHlo.after Cert.KernelIdeal.Gen.hostOps0 V))) (Proc.devRef .tc Cert.KernelIdeal.main_v15) = Cert.ReferenceIdeal.Read.val_main_v15 (F := Ideal) x1 := by
  subst h1
  after_results_simp
  rfl

set_option maxRecDepth 8192 in
set_option maxHeartbeats 4000000 in
/-- The zero constant the outlined call converts is the reference's. -/
theorem q2_cst_4 (V : Valuation Cert.KernelIdeal.τ Cert.KernelIdeal.sig (Elt Ideal))
     :
    (StableHlo.after Cert.KernelIdeal.Gen.hostOps0_2 (StableHlo.after Cert.KernelIdeal.Gen.hostOps0_1 (StableHlo.after Cert.KernelIdeal.Gen.hostOps0 V))) (Proc.devRef .tc Cert.KernelIdeal.main_cst_4) = Cert.ReferenceIdeal.Read.val_main_cst_4 (F := Ideal)  := by
  after_results_simp
  rfl

/-! ## The outlined call -/

set_option maxRecDepth 8192 in
/-- The fourth stretch, from any contents Y: its result is the select of the mask, the inverse square roots and the
    broadcast of the converted zero constant, over Y's buffers. -/
theorem where_raw (Y : Valuation Cert.KernelIdeal.τ Cert.KernelIdeal.sig (Elt Ideal)) :
    ((StableHlo.after Cert.KernelIdeal.Gen.hostOps0_3 Y) (Proc.devRef .tc Cert.KernelIdeal.main_v16) : Cert.KernelIdeal.S100000.Idx → EReal)
      = select (Y (Proc.devRef .tc Cert.KernelIdeal.main_v12) : Cert.KernelIdeal.S100000.Idx → BitVec 1) (Y (Proc.devRef .tc Cert.KernelIdeal.main_v15) : Cert.KernelIdeal.S100000.Idx → EReal)
          (broadcastInDim Cert.KernelIdeal.S100000 ![] Cert.KernelIdeal.Gen.bcast_S_S100000 (id (Y (Proc.devRef .tc Cert.KernelIdeal.main_cst_4) : Cert.KernelIdeal.S_.Idx → EReal))) := rfl

set_option maxRecDepth 8192 in
/-- So, from contents whose three buffers are the reference's stages, the result is the reference's stage 16. -/
theorem where_stage (Y : Valuation Cert.KernelIdeal.τ Cert.KernelIdeal.sig (Elt Ideal)) (x1 : (⟨Cert.ReferenceIdeal.S2x1200000, .i32⟩ : BufTy).Contents (Elt Ideal))
    (h12 : (Y (Proc.devRef .tc Cert.KernelIdeal.main_v12) : Cert.KernelIdeal.S100000.Idx → BitVec 1) = Cert.ReferenceIdeal.Read.val_main_v12 (F := Ideal) x1)
    (h15 : (Y (Proc.devRef .tc Cert.KernelIdeal.main_v15) : Cert.KernelIdeal.S100000.Idx → EReal) = Cert.ReferenceIdeal.Read.val_main_v15 (F := Ideal) x1)
    (hc4 : (Y (Proc.devRef .tc Cert.KernelIdeal.main_cst_4) : Cert.KernelIdeal.S_.Idx → EReal) = Cert.ReferenceIdeal.Read.val_main_cst_4 (F := Ideal) ) :
    ((StableHlo.after Cert.KernelIdeal.Gen.hostOps0_3 Y) (Proc.devRef .tc Cert.KernelIdeal.main_v16) : Cert.KernelIdeal.S100000.Idx → EReal) = Cert.ReferenceIdeal.Read.val_main_v16 (F := Ideal) x1 := by
  rw [where_raw Y, h12, h15, hc4]
  rfl

/-! ## After the first four stretches -/

set_option maxRecDepth 8192 in
set_option maxHeartbeats 4000000 in
/-- The joined feature array is the reference's stage 0. -/
theorem pa_v0 (V : Valuation Cert.KernelIdeal.τ Cert.KernelIdeal.sig (Elt Ideal)) (x0 : (⟨Cert.ReferenceIdeal.S100000x48, .f32⟩ : BufTy).Contents (Elt Ideal)) (x2 : (⟨Cert.ReferenceIdeal.S100000x16, .f32⟩ : BufTy).Contents (Elt Ideal))
    (h0 : V (Proc.devRef .tc Cert.KernelIdeal.main_arg0) = x0) (h2 : V (Proc.devRef .tc Cert.KernelIdeal.main_arg2) = x2) :
    (StableHlo.after Cert.KernelIdeal.Gen.hostOps0_3 (StableHlo.after Cert.KernelIdeal.Gen.hostOps0_2 (StableHlo.after Cert.KernelIdeal.Gen.hostOps0_1 (StableHlo.after Cert.KernelIdeal.Gen.hostOps0 V)))) (Proc.devRef .tc Cert.KernelIdeal.main_v0) = Cert.ReferenceIdeal.Read.val_main_v0 (F := Ideal) x0 x2 := by
  subst h0; subst h2
  after_results_simp
  rfl

set_option maxRecDepth 8192 in
set_option maxHeartbeats 4000000 in
/-- The first row of the edge list is the reference's stage 2. -/
theorem pa_v2 (V : Valuation Cert.KernelIdeal.τ Cert.KernelIdeal.sig (Elt Ideal)) (x1 : (⟨Cert.ReferenceIdeal.S2x1200000, .i32⟩ : BufTy).Contents (Elt Ideal))
    (h1 : V (Proc.devRef .tc Cert.KernelIdeal.main_arg1) = x1) :
    (StableHlo.after Cert.KernelIdeal.Gen.hostOps0_3 (StableHlo.after Cert.KernelIdeal.Gen.hostOps0_2 (StableHlo.after Cert.KernelIdeal.Gen.hostOps0_1 (StableHlo.after Cert.KernelIdeal.Gen.hostOps0 V)))) (Proc.devRef .tc Cert.KernelIdeal.main_v2) = Cert.ReferenceIdeal.Read.val_main_v2 (F := Ideal) x1 := by
  subst h1
  after_results_simp
  rfl

set_option maxRecDepth 8192 in
set_option maxHeartbeats 4000000 in
/-- The second row of the edge list is the reference's stage 4. -/
theorem pa_v4 (V : Valuation Cert.KernelIdeal.τ Cert.KernelIdeal.sig (Elt Ideal)) (x1 : (⟨Cert.ReferenceIdeal.S2x1200000, .i32⟩ : BufTy).Contents (Elt Ideal))
    (h1 : V (Proc.devRef .tc Cert.KernelIdeal.main_arg1) = x1) :
    (StableHlo.after Cert.KernelIdeal.Gen.hostOps0_3 (StableHlo.after Cert.KernelIdeal.Gen.hostOps0_2 (StableHlo.after Cert.KernelIdeal.Gen.hostOps0_1 (StableHlo.after Cert.KernelIdeal.Gen.hostOps0 V)))) (Proc.devRef .tc Cert.KernelIdeal.main_v4) = Cert.ReferenceIdeal.Read.val_main_v4 (F := Ideal) x1 := by
  subst h1
  after_results_simp
  rfl

set_option maxRecDepth 8192 in
set_option maxHeartbeats 4000000 in
/-- The edge weights are the reference's stage 7. -/
theorem pa_v7 (V : Valuation Cert.KernelIdeal.τ Cert.KernelIdeal.sig (Elt Ideal)) (x1 : (⟨Cert.ReferenceIdeal.S2x1200000, .i32⟩ : BufTy).Contents (Elt Ideal))
    (h1 : V (Proc.devRef .tc Cert.KernelIdeal.main_arg1) = x1) :
    (StableHlo.after Cert.KernelIdeal.Gen.hostOps0_3 (StableHlo.after Cert.KernelIdeal.Gen.hostOps0_2 (StableHlo.after Cert.KernelIdeal.Gen.hostOps0_1 (StableHlo.after Cert.KernelIdeal.Gen.hostOps0 V)))) (Proc.devRef .tc Cert.KernelIdeal.main_v7) = Cert.ReferenceIdeal.Read.val_main_v7 (F := Ideal) x1 := by
  subst h1
  after_results_simp
  rfl

/-- The normalising factors (the outlined call's result) are the reference's stage 16. -/
theorem pa_v16 (V : Valuation Cert.KernelIdeal.τ Cert.KernelIdeal.sig (Elt Ideal)) (x1 : (⟨Cert.ReferenceIdeal.S2x1200000, .i32⟩ : BufTy).Contents (Elt Ideal)) (h1 : V (Proc.devRef .tc Cert.KernelIdeal.main_arg1) = x1) :
    (StableHlo.after Cert.KernelIdeal.Gen.hostOps0_3 (StableHlo.after Cert.KernelIdeal.Gen.hostOps0_2 (StableHlo.after Cert.KernelIdeal.Gen.hostOps0_1 (StableHlo.after Cert.KernelIdeal.Gen.hostOps0 V)))) (Proc.devRef .tc Cert.KernelIdeal.main_v16) = Cert.ReferenceIdeal.Read.val_main_v16 (F := Ideal) x1 :=
  where_stage (StableHlo.after Cert.KernelIdeal.Gen.hostOps0_2 (StableHlo.after Cert.KernelIdeal.Gen.hostOps0_1 (StableHlo.after Cert.KernelIdeal.Gen.hostOps0 V))) x1 (q2_v12 V x1 h1) (q2_v15 V x1 h1) (q2_cst_4 V)

set_option maxRecDepth 8192 in
set_option maxHeartbeats 4000000 in
/-- No operation writes the first layer's weight array … -/
theorem pa_arg3 (V : Valuation Cert.KernelIdeal.τ Cert.KernelIdeal.sig (Elt Ideal)) : (StableHlo.after Cert.KernelIdeal.Gen.hostOps0_3 (StableHlo.after Cert.KernelIdeal.Gen.hostOps0_2 (StableHlo.after Cert.KernelIdeal.Gen.hostOps0_1 (StableHlo.after Cert.KernelIdeal.Gen.hostOps0 V)))) (Proc.devRef .tc Cert.KernelIdeal.main_arg3) = V (Proc.devRef .tc Cert.KernelIdeal.main_arg3) := by
  after_results_simp

set_option maxRecDepth 8192 in
set_option maxHeartbeats 4000000 in
/-- … nor its bias. -/
theorem pa_arg4 (V : Valuation Cert.KernelIdeal.τ Cert.KernelIdeal.sig (Elt Ideal)) : (StableHlo.after Cert.KernelIdeal.Gen.hostOps0_3 (StableHlo.after Cert.KernelIdeal.Gen.hostOps0_2 (StableHlo.after Cert.KernelIdeal.Gen.hostOps0_1 (StableHlo.after Cert.KernelIdeal.Gen.hostOps0 V)))) (Proc.devRef .tc Cert.KernelIdeal.main_arg4) = V (Proc.devRef .tc Cert.KernelIdeal.main_arg4) := by
  after_results_simp

end Cert.Proof.HostBridge

end
-- ==== Proof.Value.HostPrefixB.lean ====
/-
  The host operations between the second outlined selection and the first kernel call, read against the
  reference one operation at a time, at the exact (extended-real) meaning of the floats.

  Given what the earlier operations left — the concatenated features, the two rows of edge ends, the 0/1 edge weights
  and the per-node inverse square roots, each equal to the reference's value of the same name — this stretch computes:
  the edge norm (minus the inverse square root at the first end, times the weight, times the inverse square root at the
  second end, indices wrapped into range); three propagated bases (T1 = the propagation of the features, T2 = twice the
  propagation of T1 less the features, T3 = twice the propagation of T2 less T1, a propagation being: gather at the
  first ends, scale by the edge norm, add up at the second ends into zeros); the four [64, 64] weight matrices cut out
  of the [4, 64, 64] argument; and the bias as a [1, 64] row. Each is, operation for operation, the reference's value;
  the two programs spell the same operations over shapes and side conditions of the same content, so once every
  operation's result is read off its own buffer and the inputs are replaced by the reference's values, the two sides
  are the same term. The stretch writes none of the features and the two rows of ends.
-/
import proofs.«178208_j6545530159343_2_alg».proof.Proof.Gen.KernelIdeal.Launch
import proofs.«178208_j6545530159343_2_alg».proof.Proof.RefReadP
import Idealize.ShloMosaic.Lib.StableHlo.Run
import Idealize.ShloMosaic.Lib.ValueIdx
import Idealize.ShloMosaic.Lib.ValueLayout

noncomputable section

namespace Cert.Proof.HostPrefixB

open Cert.KernelIdeal Cert.KernelIdeal.Gen Cert.ReferenceIdeal.Read
open Idealize.ShloMosaic Idealize.ShloMosaic.TcCoe Idealize.ShloMosaic.StableHlo Idealize.ShloMosaic.ValueIdx Idealize.SL.Sem

variable (U : Valuation Cert.KernelIdeal.τ Cert.KernelIdeal.sig (Elt Ideal))

set_option maxRecDepth 8192 in
set_option maxHeartbeats 4000000 in
/-- The edge norm: minus the inverse square root at the edge's first end, times the edge's weight, times the inverse
    square root at its second end, the ends' indices wrapped into range. -/
theorem pb_v33 (x1 : (⟨Cert.ReferenceIdeal.S2x1200000, .i32⟩ : BufTy).Contents (Elt Ideal))
    (h2 : U (Proc.devRef .tc main_v2) = val_main_v2 (F := Ideal) x1)
    (h4 : U (Proc.devRef .tc main_v4) = val_main_v4 (F := Ideal) x1)
    (h7 : U (Proc.devRef .tc main_v7) = val_main_v7 (F := Ideal) x1)
    (h16 : U (Proc.devRef .tc main_v16) = val_main_v16 (F := Ideal) x1) :
    StableHlo.after (hostOps0_4 (F := Ideal)) U (Proc.devRef .tc main_v33) = val_main_v33 (F := Ideal) x1 := by
  after_results_simp
  first | rw [h2, h4, h7, h16] | simp only [h2, h4, h7, h16]
  first | rfl

set_option maxRecDepth 8192 in
set_option maxHeartbeats 4000000 in
/-- The first propagated basis: into zeros, at each edge's second end, the edge norm times the features at its first end. -/
theorem pb_v46 (x0 : (⟨Cert.ReferenceIdeal.S100000x48, .f32⟩ : BufTy).Contents (Elt Ideal))
    (x1 : (⟨Cert.ReferenceIdeal.S2x1200000, .i32⟩ : BufTy).Contents (Elt Ideal))
    (x2 : (⟨Cert.ReferenceIdeal.S100000x16, .f32⟩ : BufTy).Contents (Elt Ideal))
    (h0 : U (Proc.devRef .tc main_v0) = val_main_v0 (F := Ideal) x0 x2)
    (h2 : U (Proc.devRef .tc main_v2) = val_main_v2 (F := Ideal) x1)
    (h4 : U (Proc.devRef .tc main_v4) = val_main_v4 (F := Ideal) x1)
    (h7 : U (Proc.devRef .tc main_v7) = val_main_v7 (F := Ideal) x1)
    (h16 : U (Proc.devRef .tc main_v16) = val_main_v16 (F := Ideal) x1) :
    StableHlo.after (hostOps0_4 (F := Ideal)) U (Proc.devRef .tc main_v46) = val_main_v49 (F := Ideal) x0 x1 x2 := by
  after_results_simp
  first | rw [h0, h2, h4, h7, h16] | simp only [h0, h2, h4, h7, h16]
  first | rfl

set_option maxRecDepth 8192 in
set_option maxHeartbeats 4000000 in
/-- The second propagated basis: twice the propagation of the first, less the features. -/
theorem pb_v62 (x0 : (⟨Cert.ReferenceIdeal.S100000x48, .f32⟩ : BufTy).Contents (Elt Ideal))
    (x1 : (⟨Cert.ReferenceIdeal.S2x1200000, .i32⟩ : BufTy).Contents (Elt Ideal))
    (x2 : (⟨Cert.ReferenceIdeal.S100000x16, .f32⟩ : BufTy).Contents (Elt Ideal))
    (h0 : U (Proc.devRef .tc main_v0) = val_main_v0 (F := Ideal) x0 x2)
    (h2 : U (Proc.devRef .tc main_v2) = val_main_v2 (F := Ideal) x1)
    (h4 : U (Proc.devRef .tc main_v4) = val_main_v4 (F := Ideal) x1)
    (h7 : U (Proc.devRef .tc main_v7) = val_main_v7 (F := Ideal) x1)
    (h16 : U (Proc.devRef .tc main_v16) = val_main_v16 (F := Ideal) x1) :
    StableHlo.after (hostOps0_4 (F := Ideal)) U (Proc.devRef .tc main_v62) = val_main_v69 (F := Ideal) x0 x1 x2 := by
  after_results_simp
  first | rw [h0, h2, h4, h7, h16] | simp only [h0, h2, h4, h7, h16]
  first | rfl

set_option maxRecDepth 8192 in
set_option maxHeartbeats 4000000 in
/-- The third propagated basis: twice the propagation of the second, less the first. -/
theorem pb_v78 (x0 : (⟨Cert.ReferenceIdeal.S100000x48, .f32⟩ : BufTy).Contents (Elt Ideal))
    (x1 : (⟨Cert.ReferenceIdeal.S2x1200000, .i32⟩ : BufTy).Contents (Elt Ideal))
    (x2 : (⟨Cert.ReferenceIdeal.S100000x16, .f32⟩ : BufTy).Contents (Elt Ideal))
    (h0 : U (Proc.devRef .tc main_v0) = val_main_v0 (F := Ideal) x0 x2)
    (h2 : U (Proc.devRef .tc main_v2) = val_main_v2 (F := Ideal) x1)
    (h4 : U (Proc.devRef .tc main_v4) = val_main_v4 (F := Ideal) x1)
    (h7 : U (Proc.devRef .tc main_v7) = val_main_v7 (F := Ideal) x1)
    (h16 : U (Proc.devRef .tc main_v16) = val_main_v16 (F := Ideal) x1) :
    StableHlo.after (hostOps0_4 (F := Ideal)) U (Proc.devRef .tc main_v78) = val_main_v89 (F := Ideal) x0 x1 x2 := by
  after_results_simp
  first | rw [h0, h2, h4, h7, h16] | simp only [h0, h2, h4, h7, h16]
  first | rfl

set_option maxRecDepth 8192 in
set_option maxHeartbeats 4000000 in
/-- Weight matrix 0 of the four: slice 0 of the [4, 64, 64] argument, read as a [64, 64] matrix. -/
theorem pb_v80 (x3 : (⟨Cert.ReferenceIdeal.S4x64x64, .f32⟩ : BufTy).Contents (Elt Ideal))
    (ha3 : U (Proc.devRef .tc main_arg3) = x3) :
    StableHlo.after (hostOps0_4 (F := Ideal)) U (Proc.devRef .tc main_v80) = val_main_v35 (F := Ideal) x3 := by
  after_results_simp
  first | rw [ha3]
  first | rfl

set_option maxRecDepth 8192 in
set_option maxHeartbeats 4000000 in
/-- Weight matrix 1 of the four: slice 1 of the [4, 64, 64] argument, read as a [64, 64] matrix. -/
theorem pb_v82 (x3 : (⟨Cert.ReferenceIdeal.S4x64x64, .f32⟩ : BufTy).Contents (Elt Ideal))
    (ha3 : U (Proc.devRef .tc main_arg3) = x3) :
    StableHlo.after (hostOps0_4 (F := Ideal)) U (Proc.devRef .tc main_v82) = val_main_v51 (F := Ideal) x3 := by
  after_results_simp
  first | rw [ha3]
  first | rfl

set_option maxRecDepth 8192 in
set_option maxHeartbeats 4000000 in
/-- Weight matrix 2 of the four: slice 2 of the [4, 64, 64] argument, read as a [64, 64] matrix. -/
theorem pb_v84 (x3 : (⟨Cert.ReferenceIdeal.S4x64x64, .f32⟩ : BufTy).Contents (Elt Ideal))
    (ha3 : U (Proc.devRef .tc main_arg3) = x3) :
    StableHlo.after (hostOps0_4 (F := Ideal)) U (Proc.devRef .tc main_v84) = val_main_v71 (F := Ideal) x3 := by
  after_results_simp
  first | rw [ha3]
  first | rfl

set_option maxRecDepth 8192 in
set_option maxHeartbeats 4000000 in
/-- Weight matrix 3 of the four: slice 3 of the [4, 64, 64] argument, read as a [64, 64] matrix. -/
theorem pb_v86 (x3 : (⟨Cert.ReferenceIdeal.S4x64x64, .f32⟩ : BufTy).Contents (Elt Ideal))
    (ha3 : U (Proc.devRef .tc main_arg3) = x3) :
    StableHlo.after (hostOps0_4 (F := Ideal)) U (Proc.devRef .tc main_v86) = val_main_v91 (F := Ideal) x3 := by
  after_results_simp
  first | rw [ha3]
  first | rfl

set_option maxRecDepth 8192 in
set_option maxHeartbeats 4000000 in
/-- The bias row: the [64] argument read as a [1, 64] row, entry by entry. -/
theorem pb_v87_at (x4 : (⟨Cert.ReferenceIdeal.S64, .f32⟩ : BufTy).Contents (Elt Ideal))
    (ha4 : U (Proc.devRef .tc main_arg4) = x4) (q : Fin 64) :
    (StableHlo.after (hostOps0_4 (F := Ideal)) U (Proc.devRef .tc main_v87) : S1x64.Idx → EReal) (ValueIdx.ix2 (0 : Fin 1) q)
      = x4 (ValueIdx.ix1 q) := by
  after_results_simp
  rw [ha4]
  exact shapeCast_a_1a_apply (a := 64) (x4 : (⟨1, ![64]⟩ : Shape).Idx → EReal) shapeCasts_S64_S1x64 (0 : Fin 1) q

set_option maxRecDepth 8192 in
set_option maxHeartbeats 4000000 in
/-- The stretch writes no feature array: it holds afterwards what it held before. -/
theorem pb_keep_v0 : StableHlo.after (hostOps0_4 (F := Ideal)) U (Proc.devRef .tc main_v0) = U (Proc.devRef .tc main_v0) := by
  after_results_simp

set_option maxRecDepth 8192 in
set_option maxHeartbeats 4000000 in
/-- The stretch writes no row of first ends: it holds afterwards what it held before. -/
theorem pb_keep_v2 : StableHlo.after (hostOps0_4 (F := Ideal)) U (Proc.devRef .tc main_v2) = U (Proc.devRef .tc main_v2) := by
  after_results_simp

set_option maxRecDepth 8192 in
set_option maxHeartbeats 4000000 in
/-- The stretch writes no row of second ends: it holds afterwards what it held before. -/
theorem pb_keep_v4 : StableHlo.after (hostOps0_4 (F := Ideal)) U (Proc.devRef .tc main_v4) = U (Proc.devRef .tc main_v4) := by
  after_results_simp

end Cert.Proof.HostPrefixB

end
-- ==== Proof.Value.HostPrefix.lean ====
/-
  The five stretches of host operations before the first region, together: the first four leave the concatenated
  features, the two index rows, the 0/1 edge weights and the per-node inverse square roots at the reference's stages;
  the fifth builds from those the edge norm, the three propagated Chebyshev bases, the four weight slices and the
  reshaped bias, again at the reference's stages. This module only composes the two halves.
-/
import proofs.«178208_j6545530159343_2_alg».proof.Proof.Value.HostBridge
import proofs.«178208_j6545530159343_2_alg».proof.Proof.Value.HostPrefixB

noncomputable section

namespace Cert.Proof.HostBridge

open Cert.KernelIdeal Cert.KernelIdeal.Gen Cert.ReferenceIdeal.Read Cert.Proof.HostPrefixB
open Idealize.ShloMosaic Idealize.ShloMosaic.TcCoe Idealize.SL.Sem

variable (V : Valuation Cert.KernelIdeal.τ Cert.KernelIdeal.sig (Elt Ideal))

theorem prefix_v0 (x0 : (⟨Cert.ReferenceIdeal.S100000x48, .f32⟩ : BufTy).Contents (Elt Ideal)) (x2 : (⟨Cert.ReferenceIdeal.S100000x16, .f32⟩ : BufTy).Contents (Elt Ideal)) (h0 : V (Proc.devRef .tc main_arg0) = x0) (h2 : V (Proc.devRef .tc main_arg2) = x2) :
    StableHlo.after hostOps0_4 (StableHlo.after hostOps0_3 (StableHlo.after hostOps0_2 (StableHlo.after hostOps0_1 (StableHlo.after hostOps0 V)))) (Proc.devRef .tc main_v0) = val_main_v0 (F := Ideal) x0 x2 :=
  (pb_keep_v0 (StableHlo.after hostOps0_3 (StableHlo.after hostOps0_2 (StableHlo.after hostOps0_1 (StableHlo.after hostOps0 V))))).trans (pa_v0 V x0 x2 h0 h2)
theorem prefix_v2 (x1 : (⟨Cert.ReferenceIdeal.S2x1200000, .i32⟩ : BufTy).Contents (Elt Ideal)) (h1 : V (Proc.devRef .tc main_arg1) = x1) :
    StableHlo.after hostOps0_4 (StableHlo.after hostOps0_3 (StableHlo.after hostOps0_2 (StableHlo.after hostOps0_1 (StableHlo.after hostOps0 V)))) (Proc.devRef .tc main_v2) = val_main_v2 (F := Ideal) x1 :=
  (pb_keep_v2 (StableHlo.after hostOps0_3 (StableHlo.after hostOps0_2 (StableHlo.after hostOps0_1 (StableHlo.after hostOps0 V))))).trans (pa_v2 V x1 h1)
theorem prefix_v4 (x1 : (⟨Cert.ReferenceIdeal.S2x1200000, .i32⟩ : BufTy).Contents (Elt Ideal)) (h1 : V (Proc.devRef .tc main_arg1) = x1) :
    StableHlo.after hostOps0_4 (StableHlo.after hostOps0_3 (StableHlo.after hostOps0_2 (StableHlo.after hostOps0_1 (StableHlo.after hostOps0 V)))) (Proc.devRef .tc main_v4) = val_main_v4 (F := Ideal) x1 :=
  (pb_keep_v4 (StableHlo.after hostOps0_3 (StableHlo.after hostOps0_2 (StableHlo.after hostOps0_1 (StableHlo.after hostOps0 V))))).trans (pa_v4 V x1 h1)
theorem prefix_v33 (x1 : (⟨Cert.ReferenceIdeal.S2x1200000, .i32⟩ : BufTy).Contents (Elt Ideal)) (h1 : V (Proc.devRef .tc main_arg1) = x1) :
    StableHlo.after hostOps0_4 (StableHlo.after hostOps0_3 (StableHlo.after hostOps0_2 (StableHlo.after hostOps0_1 (StableHlo.after hostOps0 V)))) (Proc.devRef .tc main_v33) = val_main_v33 (F := Ideal) x1 :=
  pb_v33 (StableHlo.after hostOps0_3 (StableHlo.after hostOps0_2 (StableHlo.after hostOps0_1 (StableHlo.after hostOps0 V)))) x1 (pa_v2 V x1 h1) (pa_v4 V x1 h1) (pa_v7 V x1 h1) (pa_v16 V x1 h1)
theorem prefix_v46 (x0 : (⟨Cert.ReferenceIdeal.S100000x48, .f32⟩ : BufTy).Contents (Elt Ideal)) (x1 : (⟨Cert.ReferenceIdeal.S2x1200000, .i32⟩ : BufTy).Contents (Elt Ideal)) (x2 : (⟨Cert.ReferenceIdeal.S100000x16, .f32⟩ : BufTy).Contents (Elt Ideal)) (h0 : V (Proc.devRef .tc main_arg0) = x0) (h1 : V (Proc.devRef .tc main_arg1) = x1) (h2 : V (Proc.devRef .tc main_arg2) = x2) :
    StableHlo.after hostOps0_4 (StableHlo.after hostOps0_3 (StableHlo.after hostOps0_2 (StableHlo.after hostOps0_1 (StableHlo.after hostOps0 V)))) (Proc.devRef .tc main_v46) = val_main_v49 (F := Ideal) x0 x1 x2 :=
  pb_v46 (StableHlo.after hostOps0_3 (StableHlo.after hostOps0_2 (StableHlo.after hostOps0_1 (StableHlo.after hostOps0 V)))) x0 x1 x2 (pa_v0 V x0 x2 h0 h2) (pa_v2 V x1 h1) (pa_v4 V x1 h1) (pa_v7 V x1 h1) (pa_v16 V x1 h1)
theorem prefix_v62 (x0 : (⟨Cert.ReferenceIdeal.S100000x48, .f32⟩ : BufTy).Contents (Elt Ideal)) (x1 : (⟨Cert.ReferenceIdeal.S2x1200000, .i32⟩ : BufTy).Contents (Elt Ideal)) (x2 : (⟨Cert.ReferenceIdeal.S100000x16, .f32⟩ : BufTy).Contents (Elt Ideal)) (h0 : V (Proc.devRef .tc main_arg0) = x0) (h1 : V (Proc.devRef .tc main_arg1) = x1) (h2 : V (Proc.devRef .tc main_arg2) = x2) :
    StableHlo.after hostOps0_4 (StableHlo.after hostOps0_3 (StableHlo.after hostOps0_2 (StableHlo.after hostOps0_1 (StableHlo.after hostOps0 V)))) (Proc.devRef .tc main_v62) = val_main_v69 (F := Ideal) x0 x1 x2 :=
  pb_v62 (StableHlo.after hostOps0_3 (StableHlo.after hostOps0_2 (StableHlo.after hostOps0_1 (StableHlo.after hostOps0 V)))) x0 x1 x2 (pa_v0 V x0 x2 h0 h2) (pa_v2 V x1 h1) (pa_v4 V x1 h1) (pa_v7 V x1 h1) (pa_v16 V x1 h1)
theorem prefix_v78 (x0 : (⟨Cert.ReferenceIdeal.S100000x48, .f32⟩ : BufTy).Contents (Elt Ideal)) (x1 : (⟨Cert.ReferenceIdeal.S2x1200000, .i32⟩ : BufTy).Contents (Elt Ideal)) (x2 : (⟨Cert.ReferenceIdeal.S100000x16, .f32⟩ : BufTy).Contents (Elt Ideal)) (h0 : V (Proc.devRef .tc main_arg0) = x0) (h1 : V (Proc.devRef .tc main_arg1) = x1) (h2 : V (Proc.devRef .tc main_arg2) = x2) :
    StableHlo.after hostOps0_4 (StableHlo.after hostOps0_3 (StableHlo.after hostOps0_2 (StableHlo.after hostOps0_1 (StableHlo.after hostOps0 V)))) (Proc.devRef .tc main_v78) = val_main_v89 (F := Ideal) x0 x1 x2 :=
  pb_v78 (StableHlo.after hostOps0_3 (StableHlo.after hostOps0_2 (StableHlo.after hostOps0_1 (StableHlo.after hostOps0 V)))) x0 x1 x2 (pa_v0 V x0 x2 h0 h2) (pa_v2 V x1 h1) (pa_v4 V x1 h1) (pa_v7 V x1 h1) (pa_v16 V x1 h1)
theorem prefix_v80 (x3 : (⟨Cert.ReferenceIdeal.S4x64x64, .f32⟩ : BufTy).Contents (Elt Ideal)) (h3 : V (Proc.devRef .tc main_arg3) = x3) :
    StableHlo.after hostOps0_4 (StableHlo.after hostOps0_3 (StableHlo.after hostOps0_2 (StableHlo.after hostOps0_1 (StableHlo.after hostOps0 V)))) (Proc.devRef .tc main_v80) = val_main_v35 (F := Ideal) x3 :=
  pb_v80 (StableHlo.after hostOps0_3 (StableHlo.after hostOps0_2 (StableHlo.after hostOps0_1 (StableHlo.after hostOps0 V)))) x3 ((pa_arg3 V).trans h3)
theorem prefix_v82 (x3 : (⟨Cert.ReferenceIdeal.S4x64x64, .f32⟩ : BufTy).Contents (Elt Ideal)) (h3 : V (Proc.devRef .tc main_arg3) = x3) :
    StableHlo.after hostOps0_4 (StableHlo.after hostOps0_3 (StableHlo.after hostOps0_2 (StableHlo.after hostOps0_1 (StableHlo.after hostOps0 V)))) (Proc.devRef .tc main_v82) = val_main_v51 (F := Ideal) x3 :=
  pb_v82 (StableHlo.after hostOps0_3 (StableHlo.after hostOps0_2 (StableHlo.after hostOps0_1 (StableHlo.after hostOps0 V)))) x3 ((pa_arg3 V).trans h3)
theorem prefix_v84 (x3 : (⟨Cert.ReferenceIdeal.S4x64x64, .f32⟩ : BufTy).Contents (Elt Ideal)) (h3 : V (Proc.devRef .tc main_arg3) = x3) :
    StableHlo.after hostOps0_4 (StableHlo.after hostOps0_3 (StableHlo.after hostOps0_2 (StableHlo.after hostOps0_1 (StableHlo.after hostOps0 V)))) (Proc.devRef .tc main_v84) = val_main_v71 (F := Ideal) x3 :=
  pb_v84 (StableHlo.after hostOps0_3 (StableHlo.after hostOps0_2 (StableHlo.after hostOps0_1 (StableHlo.after hostOps0 V)))) x3 ((pa_arg3 V).trans h3)
theorem prefix_v86 (x3 : (⟨Cert.ReferenceIdeal.S4x64x64, .f32⟩ : BufTy).Contents (Elt Ideal)) (h3 : V (Proc.devRef .tc main_arg3) = x3) :
    StableHlo.after hostOps0_4 (StableHlo.after hostOps0_3 (StableHlo.after hostOps0_2 (StableHlo.after hostOps0_1 (StableHlo.after hostOps0 V)))) (Proc.devRef .tc main_v86) = val_main_v91 (F := Ideal) x3 :=
  pb_v86 (StableHlo.after hostOps0_3 (StableHlo.after hostOps0_2 (StableHlo.after hostOps0_1 (StableHlo.after hostOps0 V)))) x3 ((pa_arg3 V).trans h3)
theorem prefix_v87_at (x4 : (⟨Cert.ReferenceIdeal.S64, .f32⟩ : BufTy).Contents (Elt Ideal)) (h4 : V (Proc.devRef .tc main_arg4) = x4) (q : Fin 64) :
    (StableHlo.after hostOps0_4 (StableHlo.after hostOps0_3 (StableHlo.after hostOps0_2 (StableHlo.after hostOps0_1 (StableHlo.after hostOps0 V)))) (Proc.devRef .tc main_v87) : S1x64.Idx → EReal) (ValueIdx.ix2 (0 : Fin 1) q) = x4 (ValueIdx.ix1 q) :=
  pb_v87_at (StableHlo.after hostOps0_3 (StableHlo.after hostOps0_2 (StableHlo.after hostOps0_1 (StableHlo.after hostOps0 V)))) x4 ((pa_arg4 V).trans h4) q

end Cert.Proof.HostBridge

end
-- ==== Proof.Value.HostMiddle.lean ====
import proofs.«178208_j6545530159343_2_alg».proof.Proof.Gen.KernelIdeal.Launch
import proofs.«178208_j6545530159343_2_alg».proof.Proof.RefReadP
import Idealize.ShloMosaic.Lib.StableHlo.Run
import Idealize.ShloMosaic.Lib.ValueIdx
import Idealize.ShloMosaic.Lib.ValueLayout

/-!
# The host operations around the second combine region and after the pooling region

The kernel program keeps, between its regions, the same StableHLO operations the reference runs: after the first
combine region it builds the second layer's three propagated bases, its four weight matrices and its bias row, and
after the pooling region it applies the two output heads. Each buffer a later region (or the result) reads is
stated here as the reference's stage for it, from any contents `V` of the buffers in which the stretch's inputs are
the reference's stages. Each proof unfolds what the buffer holds after the stretch into the operations' functions
over the inputs, rewrites the inputs, and compares the two terms.
-/

noncomputable section

namespace Cert.Proof.HostMiddle

open Cert.KernelIdeal Cert.KernelIdeal.Gen Cert.ReferenceIdeal.Read
open Idealize.ShloMosaic Idealize.ShloMosaic.TcCoe Idealize.SL.Sem Idealize.ShloMosaic.StableHlo

/-! ## Between the two combine regions: the second layer's operands

With T₀ the first layer's output (the first region's result), the stretch computes the three propagated bases
T₁ = A·T₀, T₂ = 2·A·T₁ − T₀, T₃ = 2·A·T₂ − T₁ — A·X gathers X's rows at the source indices, scales each by its
edge norm and scatter-adds them at the destination indices —, slices the four weight matrices off argument 5, and
reshapes the bias. The reference computes the same terms operation by operation. -/

set_option maxRecDepth 8192 in
set_option maxHeartbeats 4000000 in
/-- No operation of the stretch writes the first layer's output. -/
theorem mid_v88 (V : Valuation Cert.KernelIdeal.τ Cert.KernelIdeal.sig (Elt Ideal)) :
    StableHlo.after hostOps1 V (Proc.devRef .tc main_v88) = V (Proc.devRef .tc main_v88) := by
  after_results_simp

set_option maxRecDepth 8192 in
set_option maxHeartbeats 4000000 in
/-- The first of the four [64,64] matrices of the second layer's weights: a slice of argument 5, reshaped. -/
theorem mid_v135 (V : Valuation Cert.KernelIdeal.τ Cert.KernelIdeal.sig (Elt Ideal)) (x5 : (⟨Cert.ReferenceIdeal.S4x64x64, .f32⟩ : BufTy).Contents (Elt Ideal))
    (h5 : V (Proc.devRef .tc main_arg5) = x5) :
    StableHlo.after hostOps1 V (Proc.devRef .tc main_v135) = val_main_v99 (F := Ideal) x5 := by
  after_results_simp
  rw [h5]
  rfl

set_option maxRecDepth 8192 in
set_option maxHeartbeats 4000000 in
/-- The second of the four [64,64] matrices of the second layer's weights: a slice of argument 5, reshaped. -/
theorem mid_v137 (V : Valuation Cert.KernelIdeal.τ Cert.KernelIdeal.sig (Elt Ideal)) (x5 : (⟨Cert.ReferenceIdeal.S4x64x64, .f32⟩ : BufTy).Contents (Elt Ideal))
    (h5 : V (Proc.devRef .tc main_arg5) = x5) :
    StableHlo.after hostOps1 V (Proc.devRef .tc main_v137) = val_main_v115 (F := Ideal) x5 := by
  after_results_simp
  rw [h5]
  rfl

set_option maxRecDepth 8192 in
set_option maxHeartbeats 4000000 in
/-- The third of the four [64,64] matrices of the second layer's weights: a slice of argument 5, reshaped. -/
theorem mid_v139 (V : Valuation Cert.KernelIdeal.τ Cert.KernelIdeal.sig (Elt Ideal)) (x5 : (⟨Cert.ReferenceIdeal.S4x64x64, .f32⟩ : BufTy).Contents (Elt Ideal))
    (h5 : V (Proc.devRef .tc main_arg5) = x5) :
    StableHlo.after hostOps1 V (Proc.devRef .tc main_v139) = val_main_v135 (F := Ideal) x5 := by
  after_results_simp
  rw [h5]
  rfl

set_option maxRecDepth 8192 in
set_option maxHeartbeats 4000000 in
/-- The fourth of the four [64,64] matrices of the second layer's weights: a slice of argument 5, reshaped. -/
theorem mid_v141 (V : Valuation Cert.KernelIdeal.τ Cert.KernelIdeal.sig (Elt Ideal)) (x5 : (⟨Cert.ReferenceIdeal.S4x64x64, .f32⟩ : BufTy).Contents (Elt Ideal))
    (h5 : V (Proc.devRef .tc main_arg5) = x5) :
    StableHlo.after hostOps1 V (Proc.devRef .tc main_v141) = val_main_v155 (F := Ideal) x5 := by
  after_results_simp
  rw [h5]
  rfl

set_option maxRecDepth 8192 in
set_option maxHeartbeats 4000000 in
/-- The bias row: argument 6 read as one row of 64. -/
theorem mid_v142 (V : Valuation Cert.KernelIdeal.τ Cert.KernelIdeal.sig (Elt Ideal)) (x6 : (⟨Cert.ReferenceIdeal.S64, .f32⟩ : BufTy).Contents (Elt Ideal))
    (h6 : V (Proc.devRef .tc main_arg6) = x6) (q : Fin 64) :
    (StableHlo.after hostOps1 V (Proc.devRef .tc main_v142) : S1x64.Idx → EReal) (ValueIdx.ix2 (0 : Fin 1) q) = x6 (ValueIdx.ix1 q) := by
  have e : (StableHlo.after hostOps1 V (Proc.devRef .tc main_v142) : S1x64.Idx → EReal)
      = shapeCast S1x64 (x6 : S64.Idx → EReal) shapeCasts_S64_S1x64 := by
    after_results_simp
    rw [h6]
    rfl
  rw [e]
  exact ValueIdx.shapeCast_a_1a_apply _ _ 0 q

set_option maxRecDepth 8192 in
set_option maxHeartbeats 4000000 in
/-- T₁ = A·T₀. -/
theorem mid_v101 (V : Valuation Cert.KernelIdeal.τ Cert.KernelIdeal.sig (Elt Ideal))
    (x0 : (⟨Cert.ReferenceIdeal.S100000x48, .f32⟩ : BufTy).Contents (Elt Ideal)) (x1 : (⟨Cert.ReferenceIdeal.S2x1200000, .i32⟩ : BufTy).Contents (Elt Ideal)) (x2 : (⟨Cert.ReferenceIdeal.S100000x16, .f32⟩ : BufTy).Contents (Elt Ideal)) (x3 : (⟨Cert.ReferenceIdeal.S4x64x64, .f32⟩ : BufTy).Contents (Elt Ideal)) (x4 : (⟨Cert.ReferenceIdeal.S64, .f32⟩ : BufTy).Contents (Elt Ideal))
    (h88 : V (Proc.devRef .tc main_v88) = val_main_v97 (F := Ideal) x0 x1 x2 x3 x4)
    (h33 : V (Proc.devRef .tc main_v33) = val_main_v33 (F := Ideal) x1)
    (h2 : V (Proc.devRef .tc main_v2) = val_main_v2 (F := Ideal) x1)
    (h4 : V (Proc.devRef .tc main_v4) = val_main_v4 (F := Ideal) x1) :
    StableHlo.after hostOps1 V (Proc.devRef .tc main_v101) = val_main_v113 (F := Ideal) x0 x1 x2 x3 x4 := by
  after_results_simp
  rw [h88, h33, h2, h4]
  rfl

set_option maxRecDepth 8192 in
set_option maxHeartbeats 4000000 in
/-- T₂ = 2·A·T₁ − T₀. -/
theorem mid_v117 (V : Valuation Cert.KernelIdeal.τ Cert.KernelIdeal.sig (Elt Ideal))
    (x0 : (⟨Cert.ReferenceIdeal.S100000x48, .f32⟩ : BufTy).Contents (Elt Ideal)) (x1 : (⟨Cert.ReferenceIdeal.S2x1200000, .i32⟩ : BufTy).Contents (Elt Ideal)) (x2 : (⟨Cert.ReferenceIdeal.S100000x16, .f32⟩ : BufTy).Contents (Elt Ideal)) (x3 : (⟨Cert.ReferenceIdeal.S4x64x64, .f32⟩ : BufTy).Contents (Elt Ideal)) (x4 : (⟨Cert.ReferenceIdeal.S64, .f32⟩ : BufTy).Contents (Elt Ideal))
    (h88 : V (Proc.devRef .tc main_v88) = val_main_v97 (F := Ideal) x0 x1 x2 x3 x4)
    (h33 : V (Proc.devRef .tc main_v33) = val_main_v33 (F := Ideal) x1)
    (h2 : V (Proc.devRef .tc main_v2) = val_main_v2 (F := Ideal) x1)
    (h4 : V (Proc.devRef .tc main_v4) = val_main_v4 (F := Ideal) x1) :
    StableHlo.after hostOps1 V (Proc.devRef .tc main_v117) = val_main_v133 (F := Ideal) x0 x1 x2 x3 x4 := by
  after_results_simp
  rw [h88, h33, h2, h4]
  rfl

set_option maxRecDepth 8192 in
set_option maxHeartbeats 4000000 in
/-- T₃ = 2·A·T₂ − T₁. -/
theorem mid_v133 (V : Valuation Cert.KernelIdeal.τ Cert.KernelIdeal.sig (Elt Ideal))
    (x0 : (⟨Cert.ReferenceIdeal.S100000x48, .f32⟩ : BufTy).Contents (Elt Ideal)) (x1 : (⟨Cert.ReferenceIdeal.S2x1200000, .i32⟩ : BufTy).Contents (Elt Ideal)) (x2 : (⟨Cert.ReferenceIdeal.S100000x16, .f32⟩ : BufTy).Contents (Elt Ideal)) (x3 : (⟨Cert.ReferenceIdeal.S4x64x64, .f32⟩ : BufTy).Contents (Elt Ideal)) (x4 : (⟨Cert.ReferenceIdeal.S64, .f32⟩ : BufTy).Contents (Elt Ideal))
    (h88 : V (Proc.devRef .tc main_v88) = val_main_v97 (F := Ideal) x0 x1 x2 x3 x4)
    (h33 : V (Proc.devRef .tc main_v33) = val_main_v33 (F := Ideal) x1)
    (h2 : V (Proc.devRef .tc main_v2) = val_main_v2 (F := Ideal) x1)
    (h4 : V (Proc.devRef .tc main_v4) = val_main_v4 (F := Ideal) x1) :
    StableHlo.after hostOps1 V (Proc.devRef .tc main_v133) = val_main_v153 (F := Ideal) x0 x1 x2 x3 x4 := by
  after_results_simp
  rw [h88, h33, h2, h4]
  rfl

/-! ## After the pooling region: the two output heads -/

set_option maxRecDepth 8192 in
set_option maxHeartbeats 4000000 in
/-- The first head: the pooled row times the first head's weights, plus its bias row. -/
theorem tail_v147 (V : Valuation Cert.KernelIdeal.τ Cert.KernelIdeal.sig (Elt Ideal))
    (x0 : (⟨Cert.ReferenceIdeal.S100000x48, .f32⟩ : BufTy).Contents (Elt Ideal)) (x1 : (⟨Cert.ReferenceIdeal.S2x1200000, .i32⟩ : BufTy).Contents (Elt Ideal)) (x2 : (⟨Cert.ReferenceIdeal.S100000x16, .f32⟩ : BufTy).Contents (Elt Ideal)) (x3 : (⟨Cert.ReferenceIdeal.S4x64x64, .f32⟩ : BufTy).Contents (Elt Ideal)) (x4 : (⟨Cert.ReferenceIdeal.S64, .f32⟩ : BufTy).Contents (Elt Ideal)) (x5 : (⟨Cert.ReferenceIdeal.S4x64x64, .f32⟩ : BufTy).Contents (Elt Ideal)) (x6 : (⟨Cert.ReferenceIdeal.S64, .f32⟩ : BufTy).Contents (Elt Ideal)) (x7 : (⟨Cert.ReferenceIdeal.S64x32, .f32⟩ : BufTy).Contents (Elt Ideal)) (x8 : (⟨Cert.ReferenceIdeal.S32, .f32⟩ : BufTy).Contents (Elt Ideal))
    (h144 : V (Proc.devRef .tc main_v144) = val_main_v165 (F := Ideal) x0 x1 x2 x3 x4 x5 x6)
    (h7 : V (Proc.devRef .tc main_arg7) = x7) (h8 : V (Proc.devRef .tc main_arg8) = x8) :
    StableHlo.after hostOps3 V (Proc.devRef .tc main_v147) = val_main_v168 (F := Ideal) x0 x1 x2 x3 x4 x5 x6 x7 x8 := by
  after_results_simp
  rw [h144, h7, h8]
  rfl

set_option maxRecDepth 8192 in
set_option maxHeartbeats 4000000 in
/-- The second head: the pooled row times the second head's weights, plus its bias row. -/
theorem tail_v150 (V : Valuation Cert.KernelIdeal.τ Cert.KernelIdeal.sig (Elt Ideal))
    (x0 : (⟨Cert.ReferenceIdeal.S100000x48, .f32⟩ : BufTy).Contents (Elt Ideal)) (x1 : (⟨Cert.ReferenceIdeal.S2x1200000, .i32⟩ : BufTy).Contents (Elt Ideal)) (x2 : (⟨Cert.ReferenceIdeal.S100000x16, .f32⟩ : BufTy).Contents (Elt Ideal)) (x3 : (⟨Cert.ReferenceIdeal.S4x64x64, .f32⟩ : BufTy).Contents (Elt Ideal)) (x4 : (⟨Cert.ReferenceIdeal.S64, .f32⟩ : BufTy).Contents (Elt Ideal)) (x5 : (⟨Cert.ReferenceIdeal.S4x64x64, .f32⟩ : BufTy).Contents (Elt Ideal)) (x6 : (⟨Cert.ReferenceIdeal.S64, .f32⟩ : BufTy).Contents (Elt Ideal)) (x9 : (⟨Cert.ReferenceIdeal.S64x32, .f32⟩ : BufTy).Contents (Elt Ideal)) (x10 : (⟨Cert.ReferenceIdeal.S32, .f32⟩ : BufTy).Contents (Elt Ideal))
    (h144 : V (Proc.devRef .tc main_v144) = val_main_v165 (F := Ideal) x0 x1 x2 x3 x4 x5 x6)
    (h9 : V (Proc.devRef .tc main_arg9) = x9) (h10 : V (Proc.devRef .tc main_arg10) = x10) :
    StableHlo.after hostOps3 V (Proc.devRef .tc main_v150) = val_main_v171 (F := Ideal) x0 x1 x2 x3 x4 x5 x6 x9 x10 := by
  after_results_simp
  rw [h144, h9, h10]
  rfl

end Cert.Proof.HostMiddle

end
-- ==== Proof.Value.RefLayers.lean ====
/-
  The reference's two layers and its mean, read at one element at the exact (extended-real) reading of the floats.

  Each layer is  max (Σₖ T0[r,k]·W0[k,q] + Σₖ T1[r,k]·W1[k,q] + Σₖ T2[r,k]·W2[k,q] + Σₖ T3[r,k]·W3[k,q] + bias[q]) 0
  at row r and column q, with T0 … T3 the four stages the layer's four products read on the left and W0 … W3 the four
  [64,64] slices of the layer's weight array, the sums associated as the program adds them. The mean at column q is the
  quotient of 0 + Σᵣ H[r,q], H the second layer's result, by the value of the word of 100000.0.
-/
import proofs.«178208_j6545530159343_2_alg».proof.Proof.RefReadP

noncomputable section

namespace Cert.ReferenceIdeal.HandValue

open Cert.ReferenceIdeal Cert.ReferenceIdeal.Gen Cert.ReferenceIdeal.Read Idealize.ShloMosaic Idealize.ShloMosaic.ValueIdx
open scoped BigOperators

/-! ## The weight slices -/

/-- The first [64,64] slice of layer 1's weights (stage 35) at (k, q) is the weight array at (0, k, q). -/
theorem w1_0_at (x3 : (⟨S4x64x64, .f32⟩ : BufTy).Contents (Elt Ideal)) (k q : Fin 64) :
    val_main_v35 (F := Ideal) x3 (ix2 k q) = x3 (ix3 (0 : Fin 4) k q) := by
  rewrite [val_main_v35_apply, val_main_v34_apply]
  refine congrArg x3 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The second [64,64] slice of layer 1's weights (stage 51) at (k, q) is the weight array at (1, k, q). -/
theorem w1_1_at (x3 : (⟨S4x64x64, .f32⟩ : BufTy).Contents (Elt Ideal)) (k q : Fin 64) :
    val_main_v51 (F := Ideal) x3 (ix2 k q) = x3 (ix3 (1 : Fin 4) k q) := by
  rewrite [val_main_v51_apply, val_main_v50_apply]
  refine congrArg x3 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The third [64,64] slice of layer 1's weights (stage 71) at (k, q) is the weight array at (2, k, q). -/
theorem w1_2_at (x3 : (⟨S4x64x64, .f32⟩ : BufTy).Contents (Elt Ideal)) (k q : Fin 64) :
    val_main_v71 (F := Ideal) x3 (ix2 k q) = x3 (ix3 (2 : Fin 4) k q) := by
  rewrite [val_main_v71_apply, val_main_v70_apply]
  refine congrArg x3 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The fourth [64,64] slice of layer 1's weights (stage 91) at (k, q) is the weight array at (3, k, q). -/
theorem w1_3_at (x3 : (⟨S4x64x64, .f32⟩ : BufTy).Contents (Elt Ideal)) (k q : Fin 64) :
    val_main_v91 (F := Ideal) x3 (ix2 k q) = x3 (ix3 (3 : Fin 4) k q) := by
  rewrite [val_main_v91_apply, val_main_v90_apply]
  refine congrArg x3 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The first [64,64] slice of layer 2's weights (stage 99) at (k, q) is the weight array at (0, k, q). -/
theorem w2_0_at (x5 : (⟨S4x64x64, .f32⟩ : BufTy).Contents (Elt Ideal)) (k q : Fin 64) :
    val_main_v99 (F := Ideal) x5 (ix2 k q) = x5 (ix3 (0 : Fin 4) k q) := by
  rewrite [val_main_v99_apply, val_main_v98_apply]
  refine congrArg x5 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The second [64,64] slice of layer 2's weights (stage 115) at (k, q) is the weight array at (1, k, q). -/
theorem w2_1_at (x5 : (⟨S4x64x64, .f32⟩ : BufTy).Contents (Elt Ideal)) (k q : Fin 64) :
    val_main_v115 (F := Ideal) x5 (ix2 k q) = x5 (ix3 (1 : Fin 4) k q) := by
  rewrite [val_main_v115_apply, val_main_v114_apply]
  refine congrArg x5 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The third [64,64] slice of layer 2's weights (stage 135) at (k, q) is the weight array at (2, k, q). -/
theorem w2_2_at (x5 : (⟨S4x64x64, .f32⟩ : BufTy).Contents (Elt Ideal)) (k q : Fin 64) :
    val_main_v135 (F := Ideal) x5 (ix2 k q) = x5 (ix3 (2 : Fin 4) k q) := by
  rewrite [val_main_v135_apply, val_main_v134_apply]
  refine congrArg x5 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-- The fourth [64,64] slice of layer 2's weights (stage 155) at (k, q) is the weight array at (3, k, q). -/
theorem w2_3_at (x5 : (⟨S4x64x64, .f32⟩ : BufTy).Contents (Elt Ideal)) (k q : Fin 64) :
    val_main_v155 (F := Ideal) x5 (ix2 k q) = x5 (ix3 (3 : Fin 4) k q) := by
  rewrite [val_main_v155_apply, val_main_v154_apply]
  refine congrArg x5 (funext fun a => Fin.ext ?_)
  have hk := k.isLt
  have hq := q.isLt
  match a with
  | ⟨0, _⟩ => rfl
  | ⟨1, _⟩ => show (k.val * 64 + q.val) / 64 % 64 = k.val; omega
  | ⟨2, _⟩ => show (k.val * 64 + q.val) % 64 = q.val; omega

/-! ## The first layer -/

/-- Stage 36, a [100000,64] × [64,64] product, at (r, q): the sum over the contracted coordinate of stage 0 at (r, k)
    times stage 35 at (k, q). -/
theorem dot36_at (x0 : (⟨S100000x48, .f32⟩ : BufTy).Contents (Elt Ideal)) (x2 : (⟨S100000x16, .f32⟩ : BufTy).Contents (Elt Ideal)) (x3 : (⟨S4x64x64, .f32⟩ : BufTy).Contents (Elt Ideal)) (r : Fin 100000) (q : Fin 64) :
    val_main_v36 (F := Ideal) x0 x2 x3 (ix2 r q)
      = ∑ k : Fin 64, val_main_v0 (F := Ideal) x0 x2 (ix2 r k) * val_main_v35 (F := Ideal) x3 (ix2 k q) := by
  rewrite [val_main_v36_apply]
  refine Finset.sum_congr rfl fun k _ => ?_
  have el : lidx_main_v36 (ix2 r q) k = ix2 r k := funext fun a => by match a with | ⟨0, _⟩ => rfl | ⟨1, _⟩ => rfl
  have er : ridx_main_v36 (ix2 r q) k = ix2 k q := funext fun a => by match a with | ⟨0, _⟩ => rfl | ⟨1, _⟩ => rfl
  rewrite [el, er]
  rfl

/-- Stage 52, a [100000,64] × [64,64] product, at (r, q): the sum over the contracted coordinate of stage 49 at (r, k)
    times stage 51 at (k, q). -/
theorem dot52_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (r : Fin 100000) (q : Fin 64) :
    val_main_v52 (F := Ideal) x0 x1 x2 x3 (ix2 r q)
      = ∑ k : Fin 64, val_main_v49 (F := Ideal) x0 x1 x2 (ix2 r k) * val_main_v51 (F := Ideal) x3 (ix2 k q) := by
  rewrite [val_main_v52_apply]
  refine Finset.sum_congr rfl fun k _ => ?_
  have el : lidx_main_v52 (ix2 r q) k = ix2 r k := funext fun a => by match a with | ⟨0, _⟩ => rfl | ⟨1, _⟩ => rfl
  have er : ridx_main_v52 (ix2 r q) k = ix2 k q := funext fun a => by match a with | ⟨0, _⟩ => rfl | ⟨1, _⟩ => rfl
  rewrite [el, er]
  rfl

/-- Stage 72, a [100000,64] × [64,64] product, at (r, q): the sum over the contracted coordinate of stage 69 at (r, k)
    times stage 71 at (k, q). -/
theorem dot72_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (r : Fin 100000) (q : Fin 64) :
    val_main_v72 (F := Ideal) x0 x1 x2 x3 (ix2 r q)
      = ∑ k : Fin 64, val_main_v69 (F := Ideal) x0 x1 x2 (ix2 r k) * val_main_v71 (F := Ideal) x3 (ix2 k q) := by
  rewrite [val_main_v72_apply]
  refine Finset.sum_congr rfl fun k _ => ?_
  have el : lidx_main_v72 (ix2 r q) k = ix2 r k := funext fun a => by match a with | ⟨0, _⟩ => rfl | ⟨1, _⟩ => rfl
  have er : ridx_main_v72 (ix2 r q) k = ix2 k q := funext fun a => by match a with | ⟨0, _⟩ => rfl | ⟨1, _⟩ => rfl
  rewrite [el, er]
  rfl

/-- Stage 92, a [100000,64] × [64,64] product, at (r, q): the sum over the contracted coordinate of stage 89 at (r, k)
    times stage 91 at (k, q). -/
theorem dot92_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (r : Fin 100000) (q : Fin 64) :
    val_main_v92 (F := Ideal) x0 x1 x2 x3 (ix2 r q)
      = ∑ k : Fin 64, val_main_v89 (F := Ideal) x0 x1 x2 (ix2 r k) * val_main_v91 (F := Ideal) x3 (ix2 k q) := by
  rewrite [val_main_v92_apply]
  refine Finset.sum_congr rfl fun k _ => ?_
  have el : lidx_main_v92 (ix2 r q) k = ix2 r k := funext fun a => by match a with | ⟨0, _⟩ => rfl | ⟨1, _⟩ => rfl
  have er : ridx_main_v92 (ix2 r q) k = ix2 k q := funext fun a => by match a with | ⟨0, _⟩ => rfl | ⟨1, _⟩ => rfl
  rewrite [el, er]
  rfl

/-- The bias row spread over the rows (stage 95) at (r, q) is the bias at q. -/
theorem bias1_at (x4 : (⟨S64, .f32⟩ : BufTy).Contents (Elt Ideal)) (r : Fin 100000) (q : Fin 64) :
    val_main_v95 (F := Ideal) x4 (ix2 r q) = x4 (ix1 q) := by
  rewrite [val_main_v95_apply, val_main_v94_apply]
  exact congrArg x4 (funext fun a => by match a with | ⟨0, _⟩ => rfl)

/-- The rectifier's constant operand is 0 everywhere. -/
theorem relu1_zero (i : S100000x64.Idx) : val_main_call2_v0 (F := Ideal) i = (0 : EReal) := by
  rewrite [val_main_call2_v0_apply, val_main_call2_cst_apply]
  exact Ideal.ofBits_zero_f32

/-- THE FIRST LAYER at (r, q): the rectified sum of its four products and its bias, in the program's order of addition. -/
theorem ref_layer1_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (x4 : (⟨S64, .f32⟩ : BufTy).Contents (Elt Ideal)) (r : Fin 100000) (q : Fin 64) :
    val_main_v97 (F := Ideal) x0 x1 x2 x3 x4 (ix2 r q)
      = max ((((((∑ k : Fin 64, val_main_v0 (F := Ideal) x0 x2 (ix2 r k) * val_main_v35 (F := Ideal) x3 (ix2 k q))
                + ∑ k : Fin 64, val_main_v49 (F := Ideal) x0 x1 x2 (ix2 r k) * val_main_v51 (F := Ideal) x3 (ix2 k q))
              + ∑ k : Fin 64, val_main_v69 (F := Ideal) x0 x1 x2 (ix2 r k) * val_main_v71 (F := Ideal) x3 (ix2 k q))
            + ∑ k : Fin 64, val_main_v89 (F := Ideal) x0 x1 x2 (ix2 r k) * val_main_v91 (F := Ideal) x3 (ix2 k q))
          + x4 (ix1 q))) (0 : EReal) := by
  rewrite [val_main_v97_apply, val_main_v96_apply, val_main_v93_apply, val_main_v73_apply, val_main_v53_apply,
    dot36_at, dot52_at, dot72_at, dot92_at, bias1_at, relu1_zero]
  rfl

/-! ## The second layer -/

/-- Stage 100, a [100000,64] × [64,64] product, at (r, q): the sum over the contracted coordinate of stage 97 at (r, k)
    times stage 99 at (k, q). -/
theorem dot100_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (x4 : (⟨S64, .f32⟩ : BufTy).Contents (Elt Ideal)) (x5 : (⟨S4x64x64, .f32⟩ : BufTy).Contents (Elt Ideal)) (r : Fin 100000) (q : Fin 64) :
    val_main_v100 (F := Ideal) x0 x1 x2 x3 x4 x5 (ix2 r q)
      = ∑ k : Fin 64, val_main_v97 (F := Ideal) x0 x1 x2 x3 x4 (ix2 r k) * val_main_v99 (F := Ideal) x5 (ix2 k q) := by
  rewrite [val_main_v100_apply]
  refine Finset.sum_congr rfl fun k _ => ?_
  have el : lidx_main_v100 (ix2 r q) k = ix2 r k := funext fun a => by match a with | ⟨0, _⟩ => rfl | ⟨1, _⟩ => rfl
  have er : ridx_main_v100 (ix2 r q) k = ix2 k q := funext fun a => by match a with | ⟨0, _⟩ => rfl | ⟨1, _⟩ => rfl
  rewrite [el, er]
  rfl

/-- Stage 116, a [100000,64] × [64,64] product, at (r, q): the sum over the contracted coordinate of stage 113 at (r, k)
    times stage 115 at (k, q). -/
theorem dot116_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (x4 : (⟨S64, .f32⟩ : BufTy).Contents (Elt Ideal)) (x5 : (⟨S4x64x64, .f32⟩ : BufTy).Contents (Elt Ideal)) (r : Fin 100000) (q : Fin 64) :
    val_main_v116 (F := Ideal) x0 x1 x2 x3 x4 x5 (ix2 r q)
      = ∑ k : Fin 64, val_main_v113 (F := Ideal) x0 x1 x2 x3 x4 (ix2 r k) * val_main_v115 (F := Ideal) x5 (ix2 k q) := by
  rewrite [val_main_v116_apply]
  refine Finset.sum_congr rfl fun k _ => ?_
  have el : lidx_main_v116 (ix2 r q) k = ix2 r k := funext fun a => by match a with | ⟨0, _⟩ => rfl | ⟨1, _⟩ => rfl
  have er : ridx_main_v116 (ix2 r q) k = ix2 k q := funext fun a => by match a with | ⟨0, _⟩ => rfl | ⟨1, _⟩ => rfl
  rewrite [el, er]
  rfl

/-- Stage 136, a [100000,64] × [64,64] product, at (r, q): the sum over the contracted coordinate of stage 133 at (r, k)
    times stage 135 at (k, q). -/
theorem dot136_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (x4 : (⟨S64, .f32⟩ : BufTy).Contents (Elt Ideal)) (x5 : (⟨S4x64x64, .f32⟩ : BufTy).Contents (Elt Ideal)) (r : Fin 100000) (q : Fin 64) :
    val_main_v136 (F := Ideal) x0 x1 x2 x3 x4 x5 (ix2 r q)
      = ∑ k : Fin 64, val_main_v133 (F := Ideal) x0 x1 x2 x3 x4 (ix2 r k) * val_main_v135 (F := Ideal) x5 (ix2 k q) := by
  rewrite [val_main_v136_apply]
  refine Finset.sum_congr rfl fun k _ => ?_
  have el : lidx_main_v136 (ix2 r q) k = ix2 r k := funext fun a => by match a with | ⟨0, _⟩ => rfl | ⟨1, _⟩ => rfl
  have er : ridx_main_v136 (ix2 r q) k = ix2 k q := funext fun a => by match a with | ⟨0, _⟩ => rfl | ⟨1, _⟩ => rfl
  rewrite [el, er]
  rfl

/-- Stage 156, a [100000,64] × [64,64] product, at (r, q): the sum over the contracted coordinate of stage 153 at (r, k)
    times stage 155 at (k, q). -/
theorem dot156_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (x4 : (⟨S64, .f32⟩ : BufTy).Contents (Elt Ideal)) (x5 : (⟨S4x64x64, .f32⟩ : BufTy).Contents (Elt Ideal)) (r : Fin 100000) (q : Fin 64) :
    val_main_v156 (F := Ideal) x0 x1 x2 x3 x4 x5 (ix2 r q)
      = ∑ k : Fin 64, val_main_v153 (F := Ideal) x0 x1 x2 x3 x4 (ix2 r k) * val_main_v155 (F := Ideal) x5 (ix2 k q) := by
  rewrite [val_main_v156_apply]
  refine Finset.sum_congr rfl fun k _ => ?_
  have el : lidx_main_v156 (ix2 r q) k = ix2 r k := funext fun a => by match a with | ⟨0, _⟩ => rfl | ⟨1, _⟩ => rfl
  have er : ridx_main_v156 (ix2 r q) k = ix2 k q := funext fun a => by match a with | ⟨0, _⟩ => rfl | ⟨1, _⟩ => rfl
  rewrite [el, er]
  rfl

/-- The bias row spread over the rows (stage 159) at (r, q) is the bias at q. -/
theorem bias2_at (x6 : (⟨S64, .f32⟩ : BufTy).Contents (Elt Ideal)) (r : Fin 100000) (q : Fin 64) :
    val_main_v159 (F := Ideal) x6 (ix2 r q) = x6 (ix1 q) := by
  rewrite [val_main_v159_apply, val_main_v158_apply]
  exact congrArg x6 (funext fun a => by match a with | ⟨0, _⟩ => rfl)

/-- The rectifier's constant operand is 0 everywhere. -/
theorem relu2_zero (i : S100000x64.Idx) : val_main_call3_v0 (F := Ideal) i = (0 : EReal) := by
  rewrite [val_main_call3_v0_apply, val_main_call3_cst_apply]
  exact Ideal.ofBits_zero_f32

/-- THE SECOND LAYER at (r, q): the same form over the first layer's result, its own weights and bias. -/
theorem ref_layer2_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (x4 : (⟨S64, .f32⟩ : BufTy).Contents (Elt Ideal)) (x5 : (⟨S4x64x64, .f32⟩ : BufTy).Contents (Elt Ideal)) (x6 : (⟨S64, .f32⟩ : BufTy).Contents (Elt Ideal)) (r : Fin 100000) (q : Fin 64) :
    val_main_v161 (F := Ideal) x0 x1 x2 x3 x4 x5 x6 (ix2 r q)
      = max ((((((∑ k : Fin 64, val_main_v97 (F := Ideal) x0 x1 x2 x3 x4 (ix2 r k) * val_main_v99 (F := Ideal) x5 (ix2 k q))
                + ∑ k : Fin 64, val_main_v113 (F := Ideal) x0 x1 x2 x3 x4 (ix2 r k) * val_main_v115 (F := Ideal) x5 (ix2 k q))
              + ∑ k : Fin 64, val_main_v133 (F := Ideal) x0 x1 x2 x3 x4 (ix2 r k) * val_main_v135 (F := Ideal) x5 (ix2 k q))
            + ∑ k : Fin 64, val_main_v153 (F := Ideal) x0 x1 x2 x3 x4 (ix2 r k) * val_main_v155 (F := Ideal) x5 (ix2 k q))
          + x6 (ix1 q))) (0 : EReal) := by
  rewrite [val_main_v161_apply, val_main_v160_apply, val_main_v157_apply, val_main_v137_apply, val_main_v117_apply,
    dot100_at, dot116_at, dot136_at, dot156_at, bias2_at, relu2_zero]
  rfl

/-! ## The mean over the rows -/

/-- The column sums of the second layer's result (stage 162) at q: the initial value 0 plus the sum over the rows. -/
theorem colsum_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (x4 : (⟨S64, .f32⟩ : BufTy).Contents (Elt Ideal)) (x5 : (⟨S4x64x64, .f32⟩ : BufTy).Contents (Elt Ideal)) (x6 : (⟨S64, .f32⟩ : BufTy).Contents (Elt Ideal)) (q : Fin 64) :
    val_main_v162 (F := Ideal) x0 x1 x2 x3 x4 x5 x6 (ix1 q)
      = (0 : EReal) + ∑ r : Fin 100000, val_main_v161 (F := Ideal) x0 x1 x2 x3 x4 x5 x6 (ix2 r q) := by
  rewrite [val_main_v162_apply, val_main_cst_30_apply]
  refine congrArg₂ (· + ·) Ideal.ofBits_zero_f32 (Finset.sum_congr rfl fun r _ => ?_)
  exact congrArg (val_main_v161 (F := Ideal) x0 x1 x2 x3 x4 x5 x6) (funext fun a => by match a with | ⟨0, _⟩ => rfl | ⟨1, _⟩ => rfl)

/-- THE MEAN at column q: the column sum divided by the value of the word of 100000.0. -/
theorem ref_mean_at (x0 : (⟨S100000x48, .f32⟩ : BufTy).Contents (Elt Ideal)) (x1 : (⟨S2x1200000, .i32⟩ : BufTy).Contents (Elt Ideal)) (x2 : (⟨S100000x16, .f32⟩ : BufTy).Contents (Elt Ideal)) (x3 : (⟨S4x64x64, .f32⟩ : BufTy).Contents (Elt Ideal)) (x4 : (⟨S64, .f32⟩ : BufTy).Contents (Elt Ideal)) (x5 : (⟨S4x64x64, .f32⟩ : BufTy).Contents (Elt Ideal)) (x6 : (⟨S64, .f32⟩ : BufTy).Contents (Elt Ideal)) (q : Fin 64) :
    val_main_v165 (F := Ideal) x0 x1 x2 x3 x4 x5 x6 (ix2 (0 : Fin 1) q)
      = Ideal.div ((0 : EReal) + ∑ r : Fin 100000, val_main_v161 (F := Ideal) x0 x1 x2 x3 x4 x5 x6 (ix2 r q))
          (Ideal.ofBits .f32 0x47C35000#32) := by
  rewrite [val_main_v165_apply, val_main_v163_apply, val_main_v164_apply, val_main_cst_31_apply]
  have e : idx_main_v163 (ix2 (0 : Fin 1) q) = ix1 q := funext fun a => by match a with | ⟨0, _⟩ => rfl
  rewrite [e, colsum_at]
  rfl

end Cert.ReferenceIdeal.HandValue

end
-- ==== Proof.Value.Bridge.lean ====
/-
  The kernel program's arrays, item by item, are the reference's stages.

  The fold of @main names what every buffer holds between two items. Walking it: the host stretches before the first
  region build the four Chebyshev bases, the weight slices and the bias exactly as the reference's stages do; the first
  region leaves, row by row, relu(((T0·W0 + T1·W1) + T2·W2) + T3·W3 + b), which is the reference's first-layer stage read at
  an index; the middle stretch rebuilds the bases from that array; the second region is the second layer; the pooling
  region leaves the column sums over all 100000 rows times 1/100000, which is the reference's quotient of the same sum
  by 100000; the last stretch applies the two projections. So the two results are the reference's two last stages at
  the arguments.
-/
import proofs.«178208_j6545530159343_2_alg».proof.Proof.KI.Run
import proofs.«178208_j6545530159343_2_alg».proof.Proof.Value.CombineArray
import proofs.«178208_j6545530159343_2_alg».proof.Proof.Value.PoolArray
import proofs.«178208_j6545530159343_2_alg».proof.Proof.Value.HostPrefix
import proofs.«178208_j6545530159343_2_alg».proof.Proof.Value.HostMiddle
import proofs.«178208_j6545530159343_2_alg».proof.Proof.Value.RefLayers

set_option maxRecDepth 16384

noncomputable section

namespace Cert.Proof.Bridge

open Cert.KernelIdeal Cert.KernelIdeal.Gen Cert.KernelIdeal.Hand Cert.KernelIdeal.HandValue
open Cert.ReferenceIdeal.Read Cert.ReferenceIdeal.HandValue
open Cert.Proof.HostBridge Cert.Proof.HostMiddle
open Idealize.ShloMosaic Idealize.ShloMosaic.TcCoe Idealize.SL.Sem Idealize.ShloMosaic.ValueIdx

variable (m : (ℓ : Loc nD τ sig) → Buf (Elt Ideal) ℓ) (ρ : Dev nD → PrngReg) (c : Dev nD)

/-! ## The arguments at the items where a stretch reads them -/

theorem W6_main_arg5 : W6 m ρ c (Proc.devRef .tc main_arg5) = m ((c.tc : Thread nD τ).loc main_arg5) :=
  (W6_of_ne m ρ c main_arg5 (by decide)).trans <| (hostOps0_4_keeps_main_arg5 _).trans <| (hostOps0_3_keeps_main_arg5 _).trans <| (hostOps0_2_keeps_main_arg5 _).trans <| (hostOps0_1_keeps_main_arg5 _).trans <| (hostOps0_keeps_main_arg5 _).trans rfl
theorem W6_main_arg6 : W6 m ρ c (Proc.devRef .tc main_arg6) = m ((c.tc : Thread nD τ).loc main_arg6) :=
  (W6_of_ne m ρ c main_arg6 (by decide)).trans <| (hostOps0_4_keeps_main_arg6 _).trans <| (hostOps0_3_keeps_main_arg6 _).trans <| (hostOps0_2_keeps_main_arg6 _).trans <| (hostOps0_1_keeps_main_arg6 _).trans <| (hostOps0_keeps_main_arg6 _).trans rfl
theorem W9_main_arg7 : W9 m ρ c (Proc.devRef .tc main_arg7) = m ((c.tc : Thread nD τ).loc main_arg7) :=
  (W9_of_ne m ρ c main_arg7 (by decide)).trans <| (W8_of_ne m ρ c main_arg7 (by decide)).trans <| (hostOps1_keeps_main_arg7 _).trans <|
    (W6_of_ne m ρ c main_arg7 (by decide)).trans <| (hostOps0_4_keeps_main_arg7 _).trans <| (hostOps0_3_keeps_main_arg7 _).trans <| (hostOps0_2_keeps_main_arg7 _).trans <| (hostOps0_1_keeps_main_arg7 _).trans <| (hostOps0_keeps_main_arg7 _).trans rfl
theorem W9_main_arg8 : W9 m ρ c (Proc.devRef .tc main_arg8) = m ((c.tc : Thread nD τ).loc main_arg8) :=
  (W9_of_ne m ρ c main_arg8 (by decide)).trans <| (W8_of_ne m ρ c main_arg8 (by decide)).trans <| (hostOps1_keeps_main_arg8 _).trans <|
    (W6_of_ne m ρ c main_arg8 (by decide)).trans <| (hostOps0_4_keeps_main_arg8 _).trans <| (hostOps0_3_keeps_main_arg8 _).trans <| (hostOps0_2_keeps_main_arg8 _).trans <| (hostOps0_1_keeps_main_arg8 _).trans <| (hostOps0_keeps_main_arg8 _).trans rfl
theorem W9_main_arg9 : W9 m ρ c (Proc.devRef .tc main_arg9) = m ((c.tc : Thread nD τ).loc main_arg9) :=
  (W9_of_ne m ρ c main_arg9 (by decide)).trans <| (W8_of_ne m ρ c main_arg9 (by decide)).trans <| (hostOps1_keeps_main_arg9 _).trans <|
    (W6_of_ne m ρ c main_arg9 (by decide)).trans <| (hostOps0_4_keeps_main_arg9 _).trans <| (hostOps0_3_keeps_main_arg9 _).trans <| (hostOps0_2_keeps_main_arg9 _).trans <| (hostOps0_1_keeps_main_arg9 _).trans <| (hostOps0_keeps_main_arg9 _).trans rfl
theorem W9_main_arg10 : W9 m ρ c (Proc.devRef .tc main_arg10) = m ((c.tc : Thread nD τ).loc main_arg10) :=
  (W9_of_ne m ρ c main_arg10 (by decide)).trans <| (W8_of_ne m ρ c main_arg10 (by decide)).trans <| (hostOps1_keeps_main_arg10 _).trans <|
    (W6_of_ne m ρ c main_arg10 (by decide)).trans <| (hostOps0_4_keeps_main_arg10 _).trans <| (hostOps0_3_keeps_main_arg10 _).trans <| (hostOps0_2_keeps_main_arg10 _).trans <| (hostOps0_1_keeps_main_arg10 _).trans <| (hostOps0_keeps_main_arg10 _).trans rfl

/-! ## The first layer -/

/-- What the first region finds: the bases, the weight slices and the bias are the reference's stages. -/
theorem base1_0 : V5 m ρ c main_v0 = val_main_v0 (F := Ideal) (m ((c.tc : Thread nD τ).loc main_arg0)) (m ((c.tc : Thread nD τ).loc main_arg2)) := prefix_v0 (W0 m ρ c) _ _ rfl rfl
theorem base1_1 : V5 m ρ c main_v46 = val_main_v49 (F := Ideal) (m ((c.tc : Thread nD τ).loc main_arg0)) (m ((c.tc : Thread nD τ).loc main_arg1)) (m ((c.tc : Thread nD τ).loc main_arg2)) := prefix_v46 (W0 m ρ c) _ _ _ rfl rfl rfl
theorem base1_2 : V5 m ρ c main_v62 = val_main_v69 (F := Ideal) (m ((c.tc : Thread nD τ).loc main_arg0)) (m ((c.tc : Thread nD τ).loc main_arg1)) (m ((c.tc : Thread nD τ).loc main_arg2)) := prefix_v62 (W0 m ρ c) _ _ _ rfl rfl rfl
theorem base1_3 : V5 m ρ c main_v78 = val_main_v89 (F := Ideal) (m ((c.tc : Thread nD τ).loc main_arg0)) (m ((c.tc : Thread nD τ).loc main_arg1)) (m ((c.tc : Thread nD τ).loc main_arg2)) := prefix_v78 (W0 m ρ c) _ _ _ rfl rfl rfl
theorem wt1_0 : V5 m ρ c main_v80 = val_main_v35 (F := Ideal) (m ((c.tc : Thread nD τ).loc main_arg3)) := prefix_v80 (W0 m ρ c) _ rfl
theorem wt1_1 : V5 m ρ c main_v82 = val_main_v51 (F := Ideal) (m ((c.tc : Thread nD τ).loc main_arg3)) := prefix_v82 (W0 m ρ c) _ rfl
theorem wt1_2 : V5 m ρ c main_v84 = val_main_v71 (F := Ideal) (m ((c.tc : Thread nD τ).loc main_arg3)) := prefix_v84 (W0 m ρ c) _ rfl
theorem wt1_3 : V5 m ρ c main_v86 = val_main_v91 (F := Ideal) (m ((c.tc : Thread nD τ).loc main_arg3)) := prefix_v86 (W0 m ρ c) _ rfl
theorem bias1 (q : Fin 64) : (V5 m ρ c main_v87 : S1x64.Idx → EReal) (ix2 (0 : Fin 1) q) = (m ((c.tc : Thread nD τ).loc main_arg4)) (ix1 q) :=
  prefix_v87_at (W0 m ρ c) _ rfl q

/-- The first region's output array is the reference's first-layer stage. -/
theorem layer1 : W6 m ρ c (Proc.devRef .tc main_v88) = val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W6_arr m ρ c 9).trans ((final0 (V5 m ρ) c).trans ?_)
  funext i
  obtain ⟨r, q, rfl⟩ : ∃ (r : Fin 100000) (q : Fin 64), i = ix2 r q := ⟨i 0, i 1, eq_ix2 i⟩
  rw [combineG_apply, ref_layer1_at, base1_0, base1_1, base1_2, base1_3, wt1_0, wt1_1, wt1_2, wt1_3, bias1]

/-! ## The second layer -/

theorem norm6 : W6 m ρ c (Proc.devRef .tc main_v33) = val_main_v33 (F := Ideal) (m ((c.tc : Thread nD τ).loc main_arg1)) :=
  (W6_of_ne m ρ c main_v33 (by decide)).trans (prefix_v33 (W0 m ρ c) _ rfl)
theorem row6 : W6 m ρ c (Proc.devRef .tc main_v2) = val_main_v2 (F := Ideal) (m ((c.tc : Thread nD τ).loc main_arg1)) :=
  (W6_of_ne m ρ c main_v2 (by decide)).trans (prefix_v2 (W0 m ρ c) _ rfl)
theorem col6 : W6 m ρ c (Proc.devRef .tc main_v4) = val_main_v4 (F := Ideal) (m ((c.tc : Thread nD τ).loc main_arg1)) :=
  (W6_of_ne m ρ c main_v4 (by decide)).trans (prefix_v4 (W0 m ρ c) _ rfl)

theorem base2_0 : V7 m ρ c main_v88 = val_main_v97 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := (mid_v88 (W6 m ρ c)).trans (layer1 m ρ c)
theorem base2_1 : V7 m ρ c main_v101 = val_main_v113 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  mid_v101 (W6 m ρ c) _ _ _ _ _ (layer1 m ρ c) (norm6 m ρ c) (row6 m ρ c) (col6 m ρ c)
theorem base2_2 : V7 m ρ c main_v117 = val_main_v133 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  mid_v117 (W6 m ρ c) _ _ _ _ _ (layer1 m ρ c) (norm6 m ρ c) (row6 m ρ c) (col6 m ρ c)
theorem base2_3 : V7 m ρ c main_v133 = val_main_v153 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  mid_v133 (W6 m ρ c) _ _ _ _ _ (layer1 m ρ c) (norm6 m ρ c) (row6 m ρ c) (col6 m ρ c)
theorem wt2_0 : V7 m ρ c main_v135 = val_main_v99 (F := Ideal) (m ((c.tc : Thread nD τ).loc main_arg5)) := mid_v135 (W6 m ρ c) _ (W6_main_arg5 m ρ c)
theorem wt2_1 : V7 m ρ c main_v137 = val_main_v115 (F := Ideal) (m ((c.tc : Thread nD τ).loc main_arg5)) := mid_v137 (W6 m ρ c) _ (W6_main_arg5 m ρ c)
theorem wt2_2 : V7 m ρ c main_v139 = val_main_v135 (F := Ideal) (m ((c.tc : Thread nD τ).loc main_arg5)) := mid_v139 (W6 m ρ c) _ (W6_main_arg5 m ρ c)
theorem wt2_3 : V7 m ρ c main_v141 = val_main_v155 (F := Ideal) (m ((c.tc : Thread nD τ).loc main_arg5)) := mid_v141 (W6 m ρ c) _ (W6_main_arg5 m ρ c)
theorem bias2 (q : Fin 64) : (V7 m ρ c main_v142 : S1x64.Idx → EReal) (ix2 (0 : Fin 1) q) = (m ((c.tc : Thread nD τ).loc main_arg6)) (ix1 q) :=
  mid_v142 (W6 m ρ c) _ (W6_main_arg6 m ρ c) q

/-- The second region's output array is the reference's second-layer stage. -/
theorem layer2 : W8 m ρ c (Proc.devRef .tc main_v143) = val_main_v161 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W8_arr m ρ c 9).trans ((final1 (V7 m ρ) c).trans ?_)
  funext i
  obtain ⟨r, q, rfl⟩ : ∃ (r : Fin 100000) (q : Fin 64), i = ix2 r q := ⟨i 0, i 1, eq_ix2 i⟩
  rw [combineG_apply, ref_layer2_at, base2_0, base2_1, base2_2, base2_3, wt2_0, wt2_1, wt2_2, wt2_3, bias2]

/-! ## The pool -/

/-- The pooling region's output array is the reference's mean stage. -/
theorem pool : W9 m ρ c (Proc.devRef .tc main_v144) = val_main_v165 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W9_arr m ρ c 1).trans ?_
  funext i
  obtain ⟨z, q, rfl⟩ : ∃ (z : Fin 1) (q : Fin 64), i = ix2 z q := ⟨i 0, i 1, eq_ix2 i⟩
  obtain rfl : z = 0 := Subsingleton.elim _ _
  rw [final2 (V8 m ρ) c q, ref_mean_at, show V8 m ρ c main_v143 = W8 m ρ c (Proc.devRef .tc main_v143) from rfl, layer2]

/-! ## The two results -/

theorem result0 : W10 m ρ c (Proc.devRef .tc main_v147) = val_main_v168 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  tail_v147 (W9 m ρ c) _ _ _ _ _ _ _ _ _ (pool m ρ c) (W9_main_arg7 m ρ c) (W9_main_arg8 m ρ c)

theorem result1 : W10 m ρ c (Proc.devRef .tc main_v150) = val_main_v171 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg9)) (m ((c.tc : Thread nD τ).loc main_arg10)) :=
  tail_v150 (W9 m ρ c) _ _ _ _ _ _ _ _ _ (pool m ρ c) (W9_main_arg9 m ρ c) (W9_main_arg10 m ρ c)

end Cert.Proof.Bridge

end
-- ==== Proof.lean ====
/-
  The claim of this certificate, assembled.

  The kernel program computes a two-layer Chebyshev graph convolution and a mean pool: host operations build the
  normalised edge weights and, per layer, the four Chebyshev bases T0, T1 = L·T0, T2 = 2·L·T1 − T0, T3 = 2·L·T2 − T1 by
  gathers and scatter-adds; a first kernel, on a grid of twenty blocks of 5000 rows, combines them as
  relu(((T0·W0 + T1·W1) + T2·W2) + T3·W3 + b); the same kernel does the second layer; a third kernel sums the 100000 rows
  block by block into a scratch it carries across the grid and scales the total by 1/100000; host operations apply the
  two output projections. The reference does all of it in host operations.

  • Frames of the two kernel programs: @main is a sequence of host stretches and kernel regions; each region's body is
    run symbolically at a generic grid point, the pooling region with an invariant that holds its scratch at the running
    sum; the launch theorem for such sequences gives termination, no fault, and every unscoped buffer at the end at a
    named array, from which the arguments are read back unchanged.
  • Frame of the reference: its generated run, the statement about the results dropped.
  • The idealization's one rewrite: the reciprocal 1/100000 printed under a name is that rational.
  • Equality of results at the ideal instance: region by region the kernel program's arrays are the reference's stages —
    a block of rows of a matrix product is the rows of the whole product, sums over twenty blocks of 5000 rows are the
    sum over 100000 rows (addition on the extended reals is commutative and associative), and the product with
    1/100000 is the quotient by 100000 on every extended real. No finiteness of the inputs is used.
-/
import proofs.«178208_j6545530159343_2_alg».proof.Defs
import proofs.«178208_j6545530159343_2_alg».proof.Proof.Gen.Kernel
import proofs.«178208_j6545530159343_2_alg».proof.Proof.Gen.KernelIdeal
import proofs.«178208_j6545530159343_2_alg».proof.Proof.Gen.ReferenceIdeal
import proofs.«178208_j6545530159343_2_alg».proof.Proof.Gen.Pre_finite_inputs
import proofs.«178208_j6545530159343_2_alg».proof.Proof.K.Run
import proofs.«178208_j6545530159343_2_alg».proof.Proof.KI.Run
import proofs.«178208_j6545530159343_2_alg».proof.Proof.RefRunP
import proofs.«178208_j6545530159343_2_alg».proof.Proof.Value.Bridge
import Idealize.ShloMosaic.Adequacy
import Idealize.ShloMosaic.Init

noncomputable section

namespace Cert.Proof

open Idealize.ShloMosaic Idealize.ShloMosaic.TcCoe Idealize.SL.Sem

/-- The word-level kernel program runs to the end and returns its arguments as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference runs to the end and returns its arguments as launched: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The one rewrite of the ideal pass: the mean's reciprocal, printed under a name, is the rational 1/100000. -/
theorem preserves : Cert.preserves_Kernel_KernelIdeal :=
  IdealRules.named_const.statement Cert.KernelIdeal.κ "inv_100000" .f32 0x3727C5AC#32 ((1 / 100000 : ℝ) : EReal) rfl

/-- From memories that agree on the arguments both programs end with the same two results: the reference's two last
    stages at the arguments. -/
theorem algebraic : Cert.algebraic_KernelIdeal_ReferenceIdeal := by
  intro m ρ m' ρ' _ hagree
  refine ⟨fun c => Cert.ReferenceIdeal.Read.val_main_v168 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    fun c => Cert.ReferenceIdeal.Read.val_main_v171 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)), ?_, ?_⟩
  · exact (θ_run Cert.KernelIdeal.defs _ _).mono (fun r h c =>
      ⟨(h c _ (Cert.KernelIdeal.Hand.mem_uc Cert.KernelIdeal.main_v147 (by decide))).trans (Cert.Proof.Bridge.result0 m ρ c),
       (h c _ (Cert.KernelIdeal.Hand.mem_uc Cert.KernelIdeal.main_v150 (by decide))).trans (Cert.Proof.Bridge.result1 m ρ c),
       (h c _ (Cert.KernelIdeal.Hand.mem_uc Cert.KernelIdeal.main_arg0 (by decide))).trans (Cert.KernelIdeal.Hand.W10_main_arg0 m ρ c),
       (h c _ (Cert.KernelIdeal.Hand.mem_uc Cert.KernelIdeal.main_arg1 (by decide))).trans (Cert.KernelIdeal.Hand.W10_main_arg1 m ρ c),
       (h c _ (Cert.KernelIdeal.Hand.mem_uc Cert.KernelIdeal.main_arg2 (by decide))).trans (Cert.KernelIdeal.Hand.W10_main_arg2 m ρ c),
       (h c _ (Cert.KernelIdeal.Hand.mem_uc Cert.KernelIdeal.main_arg3 (by decide))).trans (Cert.KernelIdeal.Hand.W10_main_arg3 m ρ c),
       (h c _ (Cert.KernelIdeal.Hand.mem_uc Cert.KernelIdeal.main_arg4 (by decide))).trans (Cert.KernelIdeal.Hand.W10_main_arg4 m ρ c),
       (h c _ (Cert.KernelIdeal.Hand.mem_uc Cert.KernelIdeal.main_arg5 (by decide))).trans (Cert.KernelIdeal.Hand.W10_main_arg5 m ρ c),
       (h c _ (Cert.KernelIdeal.Hand.mem_uc Cert.KernelIdeal.main_arg6 (by decide))).trans (Cert.KernelIdeal.Hand.W10_main_arg6 m ρ c),
       (h c _ (Cert.KernelIdeal.Hand.mem_uc Cert.KernelIdeal.main_arg7 (by decide))).trans (Cert.KernelIdeal.Hand.W10_main_arg7 m ρ c),
       (h c _ (Cert.KernelIdeal.Hand.mem_uc Cert.KernelIdeal.main_arg8 (by decide))).trans (Cert.KernelIdeal.Hand.W10_main_arg8 m ρ c),
       (h c _ (Cert.KernelIdeal.Hand.mem_uc Cert.KernelIdeal.main_arg9 (by decide))).trans (Cert.KernelIdeal.Hand.W10_main_arg9 m ρ c),
       (h c _ (Cert.KernelIdeal.Hand.mem_uc Cert.KernelIdeal.main_arg10 (by decide))).trans (Cert.KernelIdeal.Hand.W10_main_arg10 m ρ c)⟩)
      (Cert.KernelIdeal.Hand.run_main (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · unfold Cert.ReferenceIdeal.Value.res_main_v168
      rw [(hagree c).1, (hagree c).2.1, (hagree c).2.2.1, (hagree c).2.2.2.1, (hagree c).2.2.2.2.1, (hagree c).2.2.2.2.2.1,
        (hagree c).2.2.2.2.2.2.1, (hagree c).2.2.2.2.2.2.2.1, (hagree c).2.2.2.2.2.2.2.2.1]
    · unfold Cert.ReferenceIdeal.Value.res_main_v171
      rw [(hagree c).1, (hagree c).2.1, (hagree c).2.2.1, (hagree c).2.2.2.1, (hagree c).2.2.2.2.1, (hagree c).2.2.2.2.2.1,
        (hagree c).2.2.2.2.2.2.1, (hagree c).2.2.2.2.2.2.2.2.2.1, (hagree c).2.2.2.2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
